-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024 : Shape := ⟨1, ![1024]⟩
abbrev S100000x400 : Shape := ⟨2, ![100000, 400]⟩
abbrev S400x64 : Shape := ⟨2, ![400, 64]⟩
abbrev S_ : Shape := ⟨0, ![]⟩

class Facts : Prop where
  bcast_S_S100000x400 : S_.BroadcastsInDim S100000x400 (![] : Fin 0 → Fin S100000x400.rank)
  reducesTo_S100000x400_S_d0_1 : S100000x400.ReducesTo [0, 1] S_
  h_S_ : 0 < S_.numel
  bcast_S_S400x64 : S_.BroadcastsInDim S400x64 (![] : Fin 0 → Fin S400x64.rank)
  reducesTo_S400x64_S_d0_1 : S400x64.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg0 : IVec S1024 32) (main_v13 : IVec S_ 1) (main_v15 : IVec S1024 1) (main_c_5 : IVec S_ 32) : IVec S_ 1 :=
  let main_v16 : IVec S1024 32 := broadcastInDim S1024 ![] bcast_S_S1024 main_c_5
  let main_v17 : IVec S1024 1 := cmpi .sle main_arg0 main_v16
  let main_v18 : IVec S1024 1 := andi main_v15 main_v17
  let main_c_6 : IVec S_ 1 := constantI S_ 1 1#1
  let main_v19 : IVec S_ 1 := (fun x v => Host.reduce IntOp.andi x v reducesTo_S1024_S_d0 h_S_) main_v18 main_c_6
  let main_v20 : IVec S_ 1 := andi main_v13 main_v19
  main_v20

def fn {F : FTy → Type} [FloatOps F] (main_arg0 : IVec S1024 32) (main_arg1 : FVec F S100000x400 .f32) (main_arg2 : FVec F S100000x400 .f32) (main_arg3 : FVec F S400x64 .f32) : IVec S_ 1 :=
  let main_v0 : FVec F S100000x400 .f32 := Host.absf main_arg1
  let main_cst : FVec F S_ .f32 := constant S_ .f32 0x7F800000#32
  let main_v1 : FVec F S100000x400 .f32 := broadcastInDim S100000x400 ![] bcast_S_S100000x400 main_cst
  let main_v2 : IVec S100000x400 1 := cmpf .olt main_v0 main_v1
  let main_c : IVec S_ 1 := constantI S_ 1 1#1
  let main_v3 : IVec S_ 1 := (fun x v => Host.reduce IntOp.andi x v reducesTo_S100000x400_S_d0_1 h_S_) main_v2 main_c
  let main_v4 : FVec F S100000x400 .f32 := Host.absf main_arg2
  let main_cst_0 : FVec F S_ .f32 := constant S_ .f32 0x7F800000#32
  let main_v5 : FVec F S100000x400 .f32 := broadcastInDim S100000x400 ![] bcast_S_S100000x400 main_cst_0
  let main_v6 : IVec S100000x400 1 := cmpf .olt main_v4 main_v5
  let main_c_1 : IVec S_ 1 := constantI S_ 1 1#1
  let main_v7 : IVec S_ 1 := (fun x v => Host.reduce IntOp.andi x v reducesTo_S100000x400_S_d0_1 h_S_) main_v6 main_c_1
  let main_v8 : IVec S_ 1 := andi main_v3 main_v7
  let main_v9 : FVec F S400x64 .f32 := Host.absf main_arg3
  let main_cst_2 : FVec F S_ .f32 := constant S_ .f32 0x7F800000#32
  let main_v10 : FVec F S400x64 .f32 := broadcastInDim S400x64 ![] bcast_S_S400x64 main_cst_2
  let main_v11 : IVec S400x64 1 := cmpf .olt main_v9 main_v10
  let main_c_3 : IVec S_ 1 := constantI S_ 1 1#1
  let main_v12 : IVec S_ 1 := (fun x v => Host.reduce IntOp.andi x v reducesTo_S400x64_S_d0_1 h_S_) main_v11 main_c_3
  let main_v13 : IVec S_ 1 := andi main_v8 main_v12
  let main_c_4 : IVec S_ 32 := constantI S_ 32 0#32
  let main_v14 : IVec S1024 32 := broadcastInDim S1024 ![] bcast_S_S1024 main_c_4
  let main_v15 : IVec S1024 1 := cmpi .sge main_arg0 main_v14
  let main_c_5 : IVec S_ 32 := constantI S_ 32 99999#32
  fn_part1 (F := F) main_arg0 main_v13 main_v15 main_c_5
-- ==== Kernel.lean ====
abbrev S1024 : Shape := ⟨1, ![1024]⟩
abbrev S100000x400 : Shape := ⟨2, ![100000, 400]⟩
abbrev S400x64 : Shape := ⟨2, ![400, 64]⟩
abbrev S_ : Shape := ⟨0, ![]⟩
abbrev S400x128 : Shape := ⟨2, ![400, 128]⟩
abbrev S400x100000 : Shape := ⟨2, ![400, 100000]⟩
abbrev S100000x128 : Shape := ⟨2, ![100000, 128]⟩
abbrev S400x12800 : Shape := ⟨2, ![400, 12800]⟩
abbrev S12800x128 : Shape := ⟨2, ![12800, 128]⟩
abbrev S1024x128 : Shape := ⟨2, ![1024, 128]⟩
abbrev S32 : Shape := ⟨1, ![32]⟩
abbrev S32x128 : Shape := ⟨2, ![32, 128]⟩
abbrev S64x400 : Shape := ⟨2, ![64, 400]⟩
abbrev S100000x1024 : Shape := ⟨2, ![100000, 1024]⟩
abbrev S400x5120 : Shape := ⟨2, ![400, 5120]⟩
abbrev S5120x1024 : Shape := ⟨2, ![5120, 1024]⟩
abbrev S64x5120 : Shape := ⟨2, ![64, 5120]⟩
abbrev S1024x64 : Shape := ⟨2, ![1024, 64]⟩
abbrev S1024x100000 : Shape := ⟨2, ![1024, 100000]⟩

abbrev nBuf : Table → Nat
  | .hbm => 14
  | .local .tc .vmem => 11
  | .local .scVector .vmem => 2
  | _ => 0

abbrev bufTy : (tb : Table) → Fin (nBuf tb) → BufTy
  | .hbm, ⟨0, _⟩ => ⟨S1024, .i32⟩
  | .hbm, ⟨1, _⟩ => ⟨S100000x400, .f32⟩
  | .hbm, ⟨2, _⟩ => ⟨S100000x400, .f32⟩
  | .hbm, ⟨3, _⟩ => ⟨S400x64, .f32⟩
  | .hbm, ⟨4, _⟩ => ⟨S_, .i32⟩
  | .hbm, ⟨5, _⟩ => ⟨S_, .f32⟩
  | .hbm, ⟨6, _⟩ => ⟨S400x128, .f32⟩
  | .hbm, ⟨7, _⟩ => ⟨S400x100000, .f32⟩
  | .hbm, ⟨8, _⟩ => ⟨S100000x128, .f32⟩
  | .hbm, ⟨9, _⟩ => ⟨S1024x128, .f32⟩
  | .hbm, ⟨10, _⟩ => ⟨S64x400, .f32⟩
  | .hbm, ⟨11, _⟩ => ⟨S400x100000, .f32⟩
  | .hbm, ⟨12, _⟩ => ⟨S100000x1024, .f32⟩
  | .hbm, ⟨13, _⟩ => ⟨S1024x100000, .f32⟩
  | .local .tc .vmem, ⟨0, _⟩ => ⟨S400x12800, .f32⟩
  | .local .tc .vmem, ⟨1, _⟩ => ⟨S400x12800, .f32⟩
  | .local .tc .vmem, ⟨2, _⟩ => ⟨S400x128, .f32⟩
  | .local .tc .vmem, ⟨3, _⟩ => ⟨S12800x128, .f32⟩
  | .local .tc .vmem, ⟨4, _⟩ => ⟨S12800x128, .f32⟩
  | .local .tc .vmem, ⟨5, _⟩ => ⟨S64x400, .f32⟩
  | .local .tc .vmem, ⟨6, _⟩ => ⟨S1024x128, .f32⟩
  | .local .tc .vmem, ⟨7, _⟩ => ⟨S400x5120, .f32⟩
  | .local .tc .vmem, ⟨8, _⟩ => ⟨S400x5120, .f32⟩
  | .local .tc .vmem, ⟨9, _⟩ => ⟨S5120x1024, .f32⟩
  | .local .tc .vmem, ⟨10, _⟩ => ⟨S5120x1024, .f32⟩
  | .local .scVector .vmem, ⟨0, _⟩ => ⟨S32, .i32⟩
  | .local .scVector .vmem, ⟨1, _⟩ => ⟨S32x128, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v2_scv : Ref sig .scVector := ⟨.hbm, 8, rfl⟩
abbrev main_arg0_scv : Ref sig .scVector := ⟨.hbm, 0, rfl⟩
abbrev main_v3_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg2_1 : Ref sig .tc := ⟨.vmem, 8, rfl⟩
abbrev cc2_stg3_0 : Ref sig .tc := ⟨.vmem, 9, rfl⟩
abbrev cc2_stg3_1 : Ref sig .tc := ⟨.vmem, 10, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 8
abbrev cc2_sem1_0 : DmaSem sig := 9
abbrev cc2_sem2_0 : DmaSem sig := 10
abbrev cc2_sem2_1 : DmaSem sig := 11
abbrev cc2_sem3_0 : DmaSem sig := 12
abbrev cc2_sem3_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S12800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S64x400 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x5120 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5120x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  pads_S400x64_S400x128_000_0640 : S400x64.Pads (![0, 0] : Fin 2 → Nat) ![0, 64] ![0, 0] S400x128
  h_S_ : 0 < S_.numel
  transposes_S100000x400_S400x100000_1_0 : S100000x400.Transposes [1, 0] S400x100000
  inb_S400x12800_S400x12800_0_0 : ∀ a, (![0, 0] : Fin 2 → Nat) a + S400x12800.size a ≤ S400x12800.size a
  h_S400x12800 : 0 < S400x12800.numel
  shapeCasts_S400x12800_S400x12800 : S400x12800.ShapeCasts S400x12800
  inb_S400x128_S400x128_0_0 : ∀ a, (![0, 0] : Fin 2 → Nat) a + S400x128.size a ≤ S400x128.size a
  h_S400x128 : 0 < S400x128.numel
  shapeCasts_S400x128_S400x128 : S400x128.ShapeCasts S400x128
  inb_S12800x128_S12800x128_0_0 : ∀ a, (![0, 0] : Fin 2 → Nat) a + S12800x128.size a ≤ S12800x128.size a
  h_S12800x128 : 0 < S12800x128.numel
  inb_S100000x128_S100000x128_0_0 : ∀ a, (![0, 0] : Fin 2 → Nat) a + S100000x128.size a ≤ S100000x128.size a
  gathers_S100000x128_S32x128 : S100000x128.Gathers 0 S32x128
  transposes_S400x64_S64x400_1_0 : S400x64.Transposes [1, 0] S64x400
  inb_S64x400_S64x400_0_0 : ∀ a, (![0, 0] : Fin 2 → Nat) a + S64x400.size a ≤ S64x400.size a
  h_S64x400 : 0 < S64x400.numel
  shapeCasts_S64x400_S64x400 : S64x400.ShapeCasts S64x400
  inb_S400x5120_S400x5120_0_0 : ∀ a, (![0, 0] : Fin 2 → Nat) a + S400x5120.size a ≤ S400x5120.size a
  h_S400x5120 : 0 < S400x5120.numel
  shapeCasts_S400x5120_S400x5120 : S400x5120.ShapeCasts S400x5120
  inb_S1024x128_S1024x64_0_0 : ∀ a, (![0, 0] : Fin 2 → Nat) a + S1024x64.size a ≤ S1024x128.size a
  h_S1024x64 : 0 < S1024x64.numel
  shapeCasts_S1024x64_S1024x64 : S1024x64.ShapeCasts S1024x64
  inb_S5120x1024_S5120x1024_0_0 : ∀ a, (![0, 0] : Fin 2 → Nat) a + S5120x1024.size a ≤ S5120x1024.size a
  h_S5120x1024 : 0 < S5120x1024.numel
  transposes_S100000x1024_S1024x100000_1_0 : S100000x1024.Transposes [1, 0] S1024x100000
  dot_S400x12800_S400x128_S12800x128_0_0_1_1_n_n_wf : DotDims.WF S400x12800 S400x128 S12800x128 [0] [0] [1] [1] [] []
  dot_S64x400_S400x5120_S64x5120_1_0_0_1_n_n_wf : DotDims.WF S64x400 S400x5120 S64x5120 [1] [0] [0] [1] [] []
  dot_S64x5120_S1024x64_S5120x1024_0_1_1_0_n_n_wf : DotDims.WF S64x5120 S1024x64 S5120x1024 [0] [1] [1] [0] [] []
  hcc1_scratch2 : 5 + S_.numel ≤ 14
  hcc1_scoped0 : 6 + S_.numel ≤ 14
  hcc1_scoped1 : 7 + S_.numel ≤ 14
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S400x12800.size a < S400x100000.size a
  hwx0_0 : ∀ i : grid0.Coords, EltTy.bits .f32 = 32 ∨ (Rect.unit (s := S400x100000) (fun a => cc0_transform_0 i a * S400x12800.size a) (fun a => (Pipeline.Clip.of (cc0_transform_0 i a) (S400x12800.size a) (S400x100000.size a)).extent (S400x12800.size a)) fun a => Pipeline.Clip.inb (Pipeline.Clip.ok_of (hstart0_0 i a))).WholeWords (EltTy.packing .f32)
  hwxs0_0 : ∀ i : grid0.Coords, EltTy.bits .f32 = 32 ∨ (Rect.unit (s := S400x12800) (fun _ => 0) (fun a => (Pipeline.Clip.of (cc0_transform_0 i a) (S400x12800.size a) (S400x100000.size a)).extent (S400x12800.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S400x128.size a ≤ S400x128.size a
  hwx0_1 : ∀ i : grid0.Coords, EltTy.bits .f32 = 32 ∨ (Rect.block (s := S400x128) S400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S12800x128.size a < S100000x128.size a
  hwx0_2 : ∀ i : grid0.Coords, EltTy.bits .f32 = 32 ∨ (Rect.unit (s := S100000x128) (fun a => cc0_transform_2 i a * S12800x128.size a) (fun a => (Pipeline.Clip.of (cc0_transform_2 i a) (S12800x128.size a) (S100000x128.size a)).extent (S12800x128.size a)) fun a => Pipeline.Clip.inb (Pipeline.Clip.ok_of (hstart0_2 i a))).WholeWords (EltTy.packing .f32)
  hwxs0_2 : ∀ i : grid0.Coords, EltTy.bits .f32 = 32 ∨ (Rect.unit (s := S12800x128) (fun _ => 0) (fun a => (Pipeline.Clip.of (cc0_transform_2 i a) (S12800x128.size a) (S100000x128.size a)).extent (S12800x128.size a)) fun a => (Nat.zero_add _).trans_le (Pipeline.Clip.extent_le (Pipeline.Clip.ok_of (hstart0_2 i a)))).WholeWords (EltTy.packing .f32)
  hcore1 : grid1.bound 0 ≤ τ.nSC
  hsub1 : grid1.bound 1 ≤ τ.nSub
  k1_off1_inb : ∀ i : grid1.Coords, ∀ a, (k1_off1 i) a + S32.size a ≤ S1024.size a
  k1_off2_inb : ∀ i : grid1.Coords, ∀ a, (k1_off2 i) a + S32x128.size a ≤ S1024x128.size a
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x400.size a ≤ S64x400.size a
  hwx2_0 : ∀ i : grid2.Coords, EltTy.bits .f32 = 32 ∨ (Rect.block (s := S64x400) S64x400.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S1024x128.size a
  hwx2_1 : ∀ i : grid2.Coords, EltTy.bits .f32 = 32 ∨ (Rect.block (s := S1024x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S400x5120.size a < S400x100000.size a
  hwx2_2 : ∀ i : grid2.Coords, EltTy.bits .f32 = 32 ∨ (Rect.unit (s := S400x100000) (fun a => cc2_transform_2 i a * S400x5120.size a) (fun a => (Pipeline.Clip.of (cc2_transform_2 i a) (S400x5120.size a) (S400x100000.size a)).extent (S400x5120.size a)) fun a => Pipeline.Clip.inb (Pipeline.Clip.ok_of (hstart2_2 i a))).WholeWords (EltTy.packing .f32)
  hwxs2_2 : ∀ i : grid2.Coords, EltTy.bits .f32 = 32 ∨ (Rect.unit (s := S400x5120) (fun _ => 0) (fun a => (Pipeline.Clip.of (cc2_transform_2 i a) (S400x5120.size a) (S400x100000.size a)).extent (S400x5120.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S5120x1024.size a < S100000x1024.size a
  hwx2_3 : ∀ i : grid2.Coords, EltTy.bits .f32 = 32 ∨ (Rect.unit (s := S100000x1024) (fun a => cc2_transform_3 i a * S5120x1024.size a) (fun a => (Pipeline.Clip.of (cc2_transform_3 i a) (S5120x1024.size a) (S100000x1024.size a)).extent (S5120x1024.size a)) fun a => Pipeline.Clip.inb (Pipeline.Clip.ok_of (hstart2_3 i a))).WholeWords (EltTy.packing .f32)
  hwxs2_3 : ∀ i : grid2.Coords, EltTy.bits .f32 = 32 ∨ (Rect.unit (s := S5120x1024) (fun _ => 0) (fun a => (Pipeline.Clip.of (cc2_transform_3 i a) (S5120x1024.size a) (S100000x1024.size a)).extent (S5120x1024.size a)) fun a => (Nat.zero_add _).trans_le (Pipeline.Clip.extent_le (Pipeline.Clip.ok_of (hstart2_3 i a)))).WholeWords (EltTy.packing .f32)

variable [Facts₀]

abbrev cc1_scratch2 : DmaSems sig S_ := SemArray.consecutive 5 S_ hcc1_scratch2
abbrev cc1_scoped0 : DmaSems sig S_ := SemArray.consecutive 6 S_ hcc1_scoped0
abbrev cc1_scoped1 : DmaSems sig S_ := SemArray.consecutive 7 S_ hcc1_scoped1
def dot_S400x12800_S400x128_S12800x128_0_0_1_1_n_n : DotDims S400x12800 S400x128 S12800x128 where
  lhsContracting := [0]
  rhsContracting := [0]
  lhsNonContracting := [1]
  rhsNonContracting := [1]
  lhsBatch := []
  rhsBatch := []
  wf := dot_S400x12800_S400x128_S12800x128_0_0_1_1_n_n_wf
def dot_S64x400_S400x5120_S64x5120_1_0_0_1_n_n : DotDims S64x400 S400x5120 S64x5120 where
  lhsContracting := [1]
  rhsContracting := [0]
  lhsNonContracting := [0]
  rhsNonContracting := [1]
  lhsBatch := []
  rhsBatch := []
  wf := dot_S64x400_S400x5120_S64x5120_1_0_0_1_n_n_wf
def dot_S64x5120_S1024x64_S5120x1024_0_1_1_0_n_n : DotDims S64x5120 S1024x64 S5120x1024 where
  lhsContracting := [0]
  rhsContracting := [1]
  lhsNonContracting := [1]
  rhsNonContracting := [0]
  lhsBatch := []
  rhsBatch := []
  wf := dot_S64x5120_S1024x64_S5120x1024_0_1_1_0_n_n_wf

abbrev win0_0 : Pipeline.Window sig grid0 :=
  Pipeline.Window.ofSpecClip (Memref.whole main_v1) S400x12800.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S400x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v2) S12800x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpec (Memref.whole main_v4) S64x400.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpecClip (Memref.whole main_v5) S400x5120.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v6) S5120x1024.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1024 : Shape := ⟨1, ![1024]⟩
abbrev S100000x400 : Shape := ⟨2, ![100000, 400]⟩
abbrev S400x64 : Shape := ⟨2, ![400, 64]⟩
abbrev S100000x64 : Shape := ⟨2, ![100000, 64]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x64 : Shape := ⟨2, ![1024, 64]⟩
abbrev S64x100000 : Shape := ⟨2, ![64, 100000]⟩
abbrev S1024x100000 : Shape := ⟨2, ![1024, 100000]⟩

abbrev nBuf : Space → Nat
  | .hbm => 39
  | .vmem => 0
  | .smem => 0
  | _ => 0

abbrev bufTy : (tb : Table) → Fin (tcTables nBuf tb) → BufTy
  | .hbm, ⟨0, _⟩ => ⟨S1024, .i32⟩
  | .hbm, ⟨1, _⟩ => ⟨S100000x400, .f32⟩
  | .hbm, ⟨2, _⟩ => ⟨S100000x400, .f32⟩
  | .hbm, ⟨3, _⟩ => ⟨S400x64, .f32⟩
  | .hbm, ⟨4, _⟩ => ⟨S100000x64, .f32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1, .i32⟩
  | .hbm, ⟨14, _⟩ => ⟨S_, .i32⟩
  | .hbm, ⟨15, _⟩ => ⟨S1024x1, .i32⟩
  | .hbm, ⟨16, _⟩ => ⟨S1024x1, .i1⟩
  | .hbm, ⟨17, _⟩ => ⟨S1x1, .i32⟩
  | .hbm, ⟨18, _⟩ => ⟨S1024x1, .i32⟩
  | .hbm, ⟨19, _⟩ => ⟨S1024x1, .i1⟩
  | .hbm, ⟨20, _⟩ => ⟨S1024x1, .i1⟩
  | .hbm, ⟨21, _⟩ => ⟨S_, .i1⟩
  | .hbm, ⟨22, _⟩ => ⟨S1024, .i1⟩
  | .hbm, ⟨23, _⟩ => ⟨S1024x64, .f32⟩
  | .hbm, ⟨24, _⟩ => ⟨S1024x64, .i1⟩
  | .hbm, ⟨25, _⟩ => ⟨S_, .f32⟩
  | .hbm, ⟨26, _⟩ => ⟨S1024x64, .f32⟩
  | .hbm, ⟨27, _⟩ => ⟨S1024x64, .f32⟩
  | .hbm, ⟨28, _⟩ => ⟨S100000x64, .f32⟩
  | .hbm, ⟨29, _⟩ => ⟨S64x100000, .f32⟩
  | .hbm, ⟨30, _⟩ => ⟨S1024x100000, .f32⟩
  | .hbm, ⟨31, _⟩ => ⟨S1024x100000, .f32⟩
  | .hbm, ⟨32, _⟩ => ⟨S1024x100000, .f32⟩
  | .hbm, ⟨33, _⟩ => ⟨S_, .f32⟩
  | .hbm, ⟨34, _⟩ => ⟨S1024x100000, .f32⟩
  | .hbm, ⟨35, _⟩ => ⟨S1024x100000, .f32⟩
  | .hbm, ⟨36, _⟩ => ⟨S_, .f32⟩
  | .hbm, ⟨37, _⟩ => ⟨S1024x100000, .f32⟩
  | .hbm, ⟨38, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_cst_0 : Ref sig .tc := ⟨.hbm, 36, rfl⟩
abbrev main_v9 : Ref sig .tc := ⟨.hbm, 37, rfl⟩
abbrev main_v10 : Ref sig .tc := ⟨.hbm, 38, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x64_0 : S1024.BroadcastsInDim S1024x64 (![0] : Fin 1 → Fin S1024x64.rank)
  bcast_S_S1024x64 : S_.BroadcastsInDim S1024x64 (![] : Fin 0 → Fin S1024x64.rank)
  transposes_S100000x64_S64x100000_1_0 : S100000x64.Transposes [1, 0] S64x100000
  bcast_S_S1024x100000 : S_.BroadcastsInDim S1024x100000 (![] : Fin 0 → Fin S1024x100000.rank)
  dot_S100000x400_S400x64_S100000x64_1_0_0_1_n_n_wf : DotDims.WF S100000x400 S400x64 S100000x64 [1] [0] [0] [1] [] []
  gather_S100000x64_S1024x1_S1024x64_1_0_n_n_0_1_164_wf : GatherDims.WF S100000x64 S1024x1 S1024x64 [1] [0] [] [0] [] 1 ![1, 64]
  dot_S1024x64_S64x100000_S1024x100000_1_0_0_1_n_n_wf : DotDims.WF S1024x64 S64x100000 S1024x100000 [1] [0] [0] [1] [] []

variable [Facts₀]

def dot_S100000x400_S400x64_S100000x64_1_0_0_1_n_n : DotDims S100000x400 S400x64 S100000x64 where
  lhsContracting := [1]
  rhsContracting := [0]
  lhsNonContracting := [0]
  rhsNonContracting := [1]
  lhsBatch := []
  rhsBatch := []
  wf := dot_S100000x400_S400x64_S100000x64_1_0_0_1_n_n_wf
def gather_S100000x64_S1024x1_S1024x64_1_0_n_n_0_1_164 : GatherDims S100000x64 S1024x1 S1024x64 where
  offsetDims := [1]
  collapsedSliceDims := [0]
  operandBatchingDims := []
  startIndicesBatchingDims := []
  startIndexMap := [0]
  indexVectorDim := 1
  sliceSizes := ![1, 64]
  wf := gather_S100000x64_S1024x1_S1024x64_1_0_n_n_0_1_164_wf
def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf

class Facts : Prop extends Facts₀ where

variable [Facts]
-- ==== Proof.SetupB.lean ====
/-
  The program as the SparseCore launch theorem sees it, and the proof's resource algebra: the handshake
  semaphores' rounds, the two TensorCore pipelines' staging cells' rounds, and the counters of the vector
  subcores' own transfers, side by side.
-/
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«210177_g34866544509008_cont_8to1_b_1726_19_alg».proof.Proof.Gen.Kernel
import proofs.«210177_g34866544509008_cont_8to1_b_1726_19_alg».proof.Proof.Gen.Kernel.Launch

noncomputable section

namespace Cert.Kernel.Setup

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UK : Type := URounds (GSem nD τ sig) Unit
abbrev UU : Type := UH × (UK × Counters)

local notation "𝕄" => MT nD τ sig (HIx 1) (Elt F) ℕ UU ℕ

/-- The handshakes' rounds: the left factor. -/
abbrev EH : Emb UH (MT nD τ sig (HIx 1) (Elt F) ℕ UU ℕ) := embL
/-- The pipelines' staging cells' rounds: the left factor of the right factor (the counters are found by instance). -/
def EP : Emb UK (MT nD τ sig (HIx 1) (Elt F) ℕ UU ℕ) := (Emb.inl : Emb UK (UK × Counters)).trans embR

instance EP_landsIn : (EP : Emb UK 𝕄).LandsIn (upEmb : UEmb _ 𝕄) := by unfold EP; infer_instance

/-- Owning the launch element is owning its three components. -/
theorem ownU_split (a : UH) (b : UK) (c : Counters) :
    (ownU (a, (b, c)) : sProp 𝕄) ⊢ iprop(BI.own (EH a) ∗ BI.own (EP b) ∗ BI.own (((Emb.inr : Emb Counters (UK × Counters)).trans embR) c)) := by
  iintro Hu
  ihave H := (ownU_pair _ _) $$ Hu
  icases H with ⟨HH, HR⟩
  isplitl [HH]; · iexact HH
  iapply (own_pair_emb (embR : Emb (UK × Counters) 𝕄) b c); iexact HR

end Cert.Kernel.Setup

end
-- ==== Proof.BodiesB.lean ====
/-
  The two TensorCore kernels' bodies on whole staging buffers: each loads its input buffers whole, computes its one
  payload from them and stores it over the whole result buffer; the input buffers are left as found.
-/
import proofs.«210177_g34866544509008_cont_8to1_b_1726_19_alg».proof.Proof.SetupB
import proofs.«210177_g34866544509008_cont_8to1_b_1726_19_alg».proof.Proof.Gen.Kernel.Skeleton
import proofs.«210177_g34866544509008_cont_8to1_b_1726_19_alg».proof.Proof.Gen.Kernel.Points
import Idealize.ShloMosaic.Lib.Pipeline.FrameBody
import Idealize.ShloMosaic.Lib.Pipeline.Value

noncomputable section

namespace Cert.Kernel.Bodies

open Cert.Kernel Cert.Kernel.Gen Cert.Kernel.Setup

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
/-- The first kernel's body: the result buffer ends at the payload of the two input buffers' contents. -/
theorem sound_kernel0 (c : Dev nD) (E : Set ℕ) (i : grid0.Coords)
    (a1 : Memref sig .tc .vmem S400x12800 .f32) (h1 : a1.IsWhole) (a2 : Memref sig .tc .vmem S400x128 .f32) (h2 : a2.IsWhole)
    (a3 : Memref sig .tc .vmem S12800x128 .f32) (h3 : a3.IsWhole)
    (x0 : Vec F S400x12800 .f32) (x1 : Vec F S400x128 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (k0_pay1 x0 x1)) -∗ K ⟨⟩))
      ⊢ wp frame (wpE (defs₀ (F := F)) Variants.none c none) E (cc0__au_body i a1 h1 a2 h2 a3 h3) K := by
  simp only [cc0__au_body_eq_skeleton]; unfold cc0__au_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  rw [View.read_writes_eq_canon _ _ _ (View.cover_of_tiled _ S12800x128.size (by rfl)), View.canon_unit_zero hz, View.readAt_eq_ld,
    View.readAt_eq_ld, View.ld_unit_zero (S := S400x12800) hz, View.ld_unit_zero (S := S400x128) hz]

/-- The first 64 columns of a 128-wide staging buffer: what the second kernel loads of the gathered rows. -/
abbrev r64 : Rect S1024x128 := Rect.unit (s := S1024x128) ![0, 0] S1024x64.size inb_S1024x128_S1024x64_0_0

set_option maxHeartbeats 1000000 in
/-- The second kernel's body: the result buffer ends at the payload of the projection buffer, the item-block buffer and
    the first 64 columns of the gathered-rows buffer. -/
theorem sound_kernel2 (c : Dev nD) (E : Set ℕ) (i : grid2.Coords)
    (a1 : Memref sig .tc .vmem S64x400 .f32) (h1 : a1.IsWhole) (a2 : Memref sig .tc .vmem S1024x128 .f32) (h2 : a2.IsWhole)
    (a3 : Memref sig .tc .vmem S400x5120 .f32) (h3 : a3.IsWhole) (a4 : Memref sig .tc .vmem S5120x1024 .f32) (h4 : a4.IsWhole)
    (x0 : Vec F S64x400 .f32) (x1 : Vec F S1024x128 .f32) (x2 : Vec F S400x5120 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (k2_pay1 x0 x2 (View.ld x1 r64))) -∗ K ⟨⟩))
      ⊢ wp frame (wpE (defs₀ (F := F)) Variants.none c none) E (cc2__score_body i a1 h1 a2 h2 a3 h3 a4 h4) K := by
  simp only [cc2__score_body_eq_skeleton]; unfold cc2__score_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := funext fun a => by fin_cases a <;> rfl
  rw [View.read_writes_eq_canon _ _ _ (View.cover_of_tiled _ S5120x1024.size (by rfl)), View.canon_unit_zero hz, View.readAt_eq_ld,
    View.readAt_eq_ld, View.readAt_eq_ld, View.ld_unit_zero (S := S64x400) hz, View.ld_unit_zero (S := S400x5120) hz]

end Cert.Kernel.Bodies

end
-- ==== Proof.RDataB.lean ====
/-
  The two TensorCore pipelines' proof data, relational: what each kernel's body may leave in its staging buffers,
  given what it may find there. An input buffer is left as found. A result buffer is left at the body's payload of
  what the input buffers may hold: a block fetched at every grid point holds the array's block there on the part inside
  the array and anything beyond it (the last block overhangs); a block fetched once, at the first point, holds that
  block ever after.
-/
import proofs.«210177_g34866544509008_cont_8to1_b_1726_19_alg».proof.Proof.BodiesB

noncomputable section

namespace Cert.Kernel.RData

open Cert.Kernel Cert.Kernel.Gen Cert.Kernel.Setup Cert.Kernel.Bodies

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 1) (Elt F) ℕ UU ℕ

/-- No pipeline has a prefetched table. -/
abbrev adm : (p : Fin 2) → (pcfgs (F := F) p).Adm := fun p => (cfgs p).toPCfg_adm

/-! ## Pipeline 0: every user's latent row -/

section P0

variable (c : Dev nD) (V : (b : Ref sig .tc) → Buf (Elt F) ((c : Thread nD τ).loc b))
  (O : CellTallies nD τ sig (HIx 1)) (Wr : Set (SemLoc sig × HIx 1))

/-- The first point of the grid. -/
def p0_first : Fin cfg0.N := ⟨0, by rw [show cfg0.N = grid0.N from rfl, N_0]; decide⟩

/-- What the table window's buffer may hold at point `t`: its block there inside the array, anything beyond. -/
def In0_0 (t : Fin cfg0.N) (Y : (cfg0.win 0).block.Idx → Elt F (cfg0.win 0).elt) : Prop :=
  ∃ d, Y = (cfg0.win 0).fill (cfg0.grid.coords t) d (((cfg0.win 0).blk t).view.read (Elt F) (V (Pipeline.arrRef spec0 0)))
/-- What the projection window's buffer holds at every point: the block fetched at the first. -/
def In0_1 (Y : (cfg0.win 1).block.Idx → Elt F (cfg0.win 1).elt) : Prop :=
  ∃ d, Y = (cfg0.win 1).fill (cfg0.grid.coords p0_first) d (((cfg0.win 1).blk p0_first).view.read (Elt F) (V (Pipeline.arrRef spec0 1)))

def rdat0 : RDat τ (Elt F) (HIx 1) ℕ UU ℕ cfg0 c where
  A w := V (Pipeline.arrRef spec0 w)
  after w t Y X := match w with
    | ⟨0, _⟩ => X = Y
    | ⟨1, _⟩ => X = Y
    | ⟨2, _⟩ => ∃ (Y0 : Vec F S400x12800 .f32) (Y1 : Vec F S400x128 .f32), In0_0 c V t Y0 ∧ In0_1 c V Y1 ∧ X = k0_pay1 Y0 Y1
  Φ _ := Pipeline.scopedRest spec0 c
  q _ := fullShare
  owed _ := O
  recorded _ := Wr

theorem flush0_0 : ∀ t : Fin cfg0.N, (cfg0.win 0).flush t = false :=
  (by decide +kernel : ∀ t : Fin grid0.N, win0_0.flush t = false)
theorem flush0_1 : ∀ t : Fin cfg0.N, (cfg0.win 1).flush t = false :=
  (by decide +kernel : ∀ t : Fin grid0.N, win0_1.flush t = false)

/-- The table window is fetched at every point. -/
theorem finds0_0 (t : Fin cfg0.N) (Y) (h : (rdat0 c V O Wr).Finds 0 t Y) : In0_0 c V t Y :=
  ((rdat0 c V O Wr).finds_of_fetch (fetch0_0 t) Y).mp h

/-- The projection window holds the first point's fetch at every point: fetched there, left as found since. -/
theorem finds0_1 : ∀ (n : Nat) (t : Fin cfg0.N), t.val = n → ∀ Y, (rdat0 c V O Wr).Finds 1 t Y → In0_1 c V Y := by
  intro n
  induction n with
  | zero =>
    intro t ht Y h
    have e : t = p0_first := Fin.ext ht
    subst e
    exact ((rdat0 c V O Wr).finds_of_fetch ((fetch0_1 p0_first).mpr (by decide)) Y).mp h
  | succ n ih =>
    intro t ht Y h
    have hN : cfg0.N = 8 := N_0
    have hf : (cfg0.win 1).fetch t = false := by
      rcases hb : (cfg0.win 1).fetch t with _ | _
      · rfl
      · have := (fetch0_1 t).mp hb; omega
    rcases ((rdat0 c V O Wr).finds_of_pos hf (by omega) Y).mp h with hfl | ⟨Y', hY', hXY⟩
    · rw [flush0_1] at hfl; exact absurd hfl Bool.false_ne_true
    · have e : Y = Y' := hXY
      subst e
      exact ih ⟨t.val - 1, by omega⟩ (by simp only [ht]; omega) _ hY'

/-- The body obligation: whatever the three buffers may hold, the body leaves the inputs as found and the result at the
    payload of the two inputs, which are a fetched table block and the fetched projection. -/
theorem body_obligation0 : (rdat0 c V O Wr).BodyObligation (defs₀ (F := F)) Variants.none (none : HIx 1) Set.univ := fun t Y hY => by
  rw [bigSep_W0, bigSep_W0]
  have h0 := finds0_0 c V O Wr t (Y 0) (hY 0)
  have h1 := finds0_1 c V O Wr t.val t rfl (Y 1) (hY 1)
  rw [show (rdat0 c V O Wr).Φ t.succ = (rdat0 c V O Wr).Φ t.castSucc from rfl,
    show (rdat0 c V O Wr).owesAt (none : HIx 1) t.succ = (rdat0 c V O Wr).owesAt none t.castSucc from rfl]
  show iprop(_ ∗ _ ∗ _ ∗ _ ∗ _) ⊢ wp frame _ Set.univ (bodyAt0 t) _
  iintro ⟨HΦ, Ho, H0, H1, H2⟩
  iapply (sound_kernel0 (F := F) c Set.univ (grid0.coords t) _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact (rfl : Y 0 = Y 0)
    iexact H0
  isplitl [H1]
  · iexists (Y 1); isplitr; · ipureintro; exact (rfl : Y 1 = Y 1)
    iexact H1
  · iexists (k0_pay1 (Y 0) (Y 1)); isplitr; · ipureintro; exact ⟨Y 0, Y 1, h0, h1, rfl⟩
    iexact H2

end P0

/-! ## Pipeline 1: the scores -/

section P1

variable (c : Dev nD) (V : (b : Ref sig .tc) → Buf (Elt F) ((c : Thread nD τ).loc b))
  (O : CellTallies nD τ sig (HIx 1)) (Wr : Set (SemLoc sig × HIx 1))

/-- The first point of the grid. -/
def p1_first : Fin cfg2.N := ⟨0, by rw [show cfg2.N = grid2.N from rfl, N_2]; decide⟩

/-- The transposed projection's buffer and the gathered rows' buffer hold the first point's fetch at every point; -/
def In2_0 (Y : (cfg2.win 0).block.Idx → Elt F (cfg2.win 0).elt) : Prop :=
  ∃ d, Y = (cfg2.win 0).fill (cfg2.grid.coords p1_first) d (((cfg2.win 0).blk p1_first).view.read (Elt F) (V (Pipeline.arrRef spec2 0)))
def In2_1 (Y : (cfg2.win 1).block.Idx → Elt F (cfg2.win 1).elt) : Prop :=
  ∃ d, Y = (cfg2.win 1).fill (cfg2.grid.coords p1_first) d (((cfg2.win 1).blk p1_first).view.read (Elt F) (V (Pipeline.arrRef spec2 1)))
/-- the item window's buffer at point `t` its block there inside the array, anything beyond. -/
def In2_2 (t : Fin cfg2.N) (Y : (cfg2.win 2).block.Idx → Elt F (cfg2.win 2).elt) : Prop :=
  ∃ d, Y = (cfg2.win 2).fill (cfg2.grid.coords t) d (((cfg2.win 2).blk t).view.read (Elt F) (V (Pipeline.arrRef spec2 2)))

def rdat1 : RDat τ (Elt F) (HIx 1) ℕ UU ℕ cfg2 c where
  A w := V (Pipeline.arrRef spec2 w)
  after w t Y X := match w with
    | ⟨0, _⟩ => X = Y
    | ⟨1, _⟩ => X = Y
    | ⟨2, _⟩ => X = Y
    | ⟨3, _⟩ => ∃ (Y0 : Vec F S64x400 .f32) (Y1 : Vec F S1024x128 .f32) (Y2 : Vec F S400x5120 .f32),
        In2_0 c V Y0 ∧ In2_1 c V Y1 ∧ In2_2 c V t Y2 ∧ X = k2_pay1 Y0 Y2 (View.ld Y1 r64)
  Φ _ := Pipeline.scopedRest spec2 c
  q _ := fullShare
  owed _ := O
  recorded _ := Wr

theorem flush2_0 : ∀ t : Fin cfg2.N, (cfg2.win 0).flush t = false :=
  (by decide +kernel : ∀ t : Fin grid2.N, win2_0.flush t = false)
theorem flush2_1 : ∀ t : Fin cfg2.N, (cfg2.win 1).flush t = false :=
  (by decide +kernel : ∀ t : Fin grid2.N, win2_1.flush t = false)

theorem finds2_2 (t : Fin cfg2.N) (Y) (h : (rdat1 c V O Wr).Finds 2 t Y) : In2_2 c V t Y :=
  ((rdat1 c V O Wr).finds_of_fetch (fetch2_2 t) Y).mp h

theorem finds2_0 : ∀ (n : Nat) (t : Fin cfg2.N), t.val = n → ∀ Y, (rdat1 c V O Wr).Finds 0 t Y → In2_0 c V Y := by
  intro n
  induction n with
  | zero =>
    intro t ht Y h
    have e : t = p1_first := Fin.ext ht
    subst e
    exact ((rdat1 c V O Wr).finds_of_fetch ((fetch2_0 p1_first).mpr (by decide)) Y).mp h
  | succ n ih =>
    intro t ht Y h
    have hN : cfg2.N = 20 := N_2
    have hf : (cfg2.win 0).fetch t = false := by
      rcases hb : (cfg2.win 0).fetch t with _ | _
      · rfl
      · have := (fetch2_0 t).mp hb; omega
    rcases ((rdat1 c V O Wr).finds_of_pos hf (by omega) Y).mp h with hfl | ⟨Y', hY', hXY⟩
    · rw [flush2_0] at hfl; exact absurd hfl Bool.false_ne_true
    · have e : Y = Y' := hXY
      subst e
      exact ih ⟨t.val - 1, by omega⟩ (by simp only [ht]; omega) _ hY'

theorem finds2_1 : ∀ (n : Nat) (t : Fin cfg2.N), t.val = n → ∀ Y, (rdat1 c V O Wr).Finds 1 t Y → In2_1 c V Y := by
  intro n
  induction n with
  | zero =>
    intro t ht Y h
    have e : t = p1_first := Fin.ext ht
    subst e
    exact ((rdat1 c V O Wr).finds_of_fetch ((fetch2_1 p1_first).mpr (by decide)) Y).mp h
  | succ n ih =>
    intro t ht Y h
    have hN : cfg2.N = 20 := N_2
    have hf : (cfg2.win 1).fetch t = false := by
      rcases hb : (cfg2.win 1).fetch t with _ | _
      · rfl
      · have := (fetch2_1 t).mp hb; omega
    rcases ((rdat1 c V O Wr).finds_of_pos hf (by omega) Y).mp h with hfl | ⟨Y', hY', hXY⟩
    · rw [flush2_1] at hfl; exact absurd hfl Bool.false_ne_true
    · have e : Y = Y' := hXY
      subst e
      exact ih ⟨t.val - 1, by omega⟩ (by simp only [ht]; omega) _ hY'

theorem body_obligation1 : (rdat1 c V O Wr).BodyObligation (defs₀ (F := F)) Variants.none (none : HIx 1) Set.univ := fun t Y hY => by
  rw [bigSep_W2, bigSep_W2]
  have h0 := finds2_0 c V O Wr t.val t rfl (Y 0) (hY 0)
  have h1 := finds2_1 c V O Wr t.val t rfl (Y 1) (hY 1)
  have h2 := finds2_2 c V O Wr t (Y 2) (hY 2)
  rw [show (rdat1 c V O Wr).Φ t.succ = (rdat1 c V O Wr).Φ t.castSucc from rfl,
    show (rdat1 c V O Wr).owesAt (none : HIx 1) t.succ = (rdat1 c V O Wr).owesAt none t.castSucc from rfl]
  show iprop(_ ∗ _ ∗ _ ∗ _ ∗ _ ∗ _) ⊢ wp frame _ Set.univ (bodyAt2 t) _
  iintro ⟨HΦ, Ho, H0, H1, H2, H3⟩
  iapply (sound_kernel2 (F := F) c Set.univ (grid2.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; exact (rfl : Y 0 = Y 0)
    iexact H0
  isplitl [H1]
  · iexists (Y 1); isplitr; · ipureintro; exact (rfl : Y 1 = Y 1)
    iexact H1
  isplitl [H2]
  · iexists (Y 2); isplitr; · ipureintro; exact (rfl : Y 2 = Y 2)
    iexact H2
  · iexists (k2_pay1 (Y 0) (Y 2) (View.ld (Y 1) r64)); isplitr; · ipureintro; exact ⟨Y 0, Y 1, Y 2, h0, h1, h2, rfl⟩
    iexact H3

end P1

end Cert.Kernel.RData

end
-- ==== Proof.SegsB.lean ====
/-
  The two TensorCore kernel regions as segments of @main between thread states: every unscoped TensorCore buffer held
  whole at a valuation, beside what the TensorCore owes the SparseCore launch with its recorded waits bounded. A region
  takes its arrays out of the buffers at entry and puts them back at exit, the result array at some contents the
  write-backs may have left.
-/
import proofs.«210177_g34866544509008_cont_8to1_b_1726_19_alg».proof.Proof.RDataB

noncomputable section

namespace Cert.Kernel.Segs

open Cert.Kernel Cert.Kernel.Gen Cert.Kernel.Setup Cert.Kernel.Bodies Cert.Kernel.RData

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 1) (Elt F) ℕ UU ℕ

/-- The TensorCore owes the launch nothing at the kernels' own index. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

section Family

variable (V0 V1 : Valuation τ sig (Elt F)) (O0 O1 : CellTallies nD τ sig (HIx 1)) (Wr0 Wr1 : Set (SemLoc sig × HIx 1))

/-- Both pipelines' proof data, each at its region's entry valuation, what the core then owes and its recorded pairs'
    bound. -/
def rdats : (p : Fin 2) → (c : Dev nD) → RDat τ (Elt F) (HIx 1) ℕ UU ℕ (Pipeline.pin (pcfgs (F := F)) adm p) c
  | ⟨0, _⟩ => fun c => rdat0 c (fun b => V0 b) O0 Wr0
  | ⟨1, _⟩ => fun c => rdat1 c (fun b => V1 b) O1 Wr1

/-- Every window's array is held at the full share. -/
theorem share_full (p : Fin 2) (c : Dev nD) (w) : ((rdats V0 V1 O0 O1 Wr0 Wr1) p c).share w = fullShare := by
  match p with
  | ⟨0, _⟩ => unfold Pipeline.RDat.share; split <;> rfl
  | ⟨1, _⟩ => unfold Pipeline.RDat.share; split <;> rfl

/-- EXIT, the arrays' part: a pipeline's arrays at contents `Fv` and the unscoped rest at `W` are the core's unscoped
    buffers at any valuation that has the arrays at `Fv` and agrees with `W` off them. -/
theorem unscopedBufs_of_arraysR {p : Fin 2} (hw : Pipeline.WinFacts (Pipeline.pin (pcfgs (F := F)) adm p).spec)
    (harr : ∀ w, ((Pipeline.pin (pcfgs (F := F)) adm p).spec w).arr.IsWhole) (c : Dev nD)
    (W W' : (b : Ref sig .tc) → Buf (Elt F) ((c.tc : Thread nD τ).loc b))
    (Fv : (w : Fin (Pipeline.pin (pcfgs (F := F)) adm p).W) → Buf (Elt F) (((Pipeline.pin (pcfgs (F := F)) adm p).spec w).arr.view.loc (c.tc : Thread nD τ)))
    (hF : ∀ w, Fv w = W' (Pipeline.arrRef (Pipeline.pin (pcfgs (F := F)) adm p).spec w))
    (hrest : ∀ b, b ∉ Finset.univ.image (Pipeline.arrRef (Pipeline.pin (pcfgs (F := F)) adm p).spec) → W' b = W b) :
    iprop(((rdats V0 V1 O0 O1 Wr0 Wr1) p c).arrays Fv ∗ Pipeline.unscopedRest (Pipeline.pin (pcfgs (F := F)) adm p).spec c W) ⊢ (unscopedBufs c W' : sProp 𝕄) := by
  rw [Pipeline.unscopedBufs_split (Pipeline.pin (pcfgs (F := F)) adm) p hw.arr_unscoped hw.arr_inj c W',
    Pipeline.RDat.arrays_eq (pcfgs (F := F)) adm (rdats V0 V1 O0 O1 Wr0 Wr1) p c harr (share_full V0 V1 O0 O1 Wr0 Wr1 p c)]
  refine sep_mono (Entails.of_eq (bigSep_congr fun w _ => by rw [hF])) (Entails.of_eq ?_)
  unfold Pipeline.unscopedRest
  exact bigSep_congr fun b hb => by rw [hrest b (Finset.mem_sdiff.mp hb).2]

set_option backward.isDefEq.respectTransparency.types false in
/-- REGION 0: entered from the buffers at `V0`, left with the latent table at some contents the write-backs may leave. -/
def reg0 (hO0 : ∀ g, O0 g none = 0) :
    Pipeline.RDat.RegionSeg (pcfgs (F := F)) adm (rdats V0 V1 O0 O1 Wr0 Wr1) (none : HIx 1) defs₀ Variants.none (K (F := F)).L (K (F := F)).lev 0 where
  win := launch0.win.to₀
  block_pos := launch0.block_pos
  stage_whole := launch0.stage_whole
  K := PEmpty
  osem k := k.elim
  ho := Pipeline.OwnSemFacts.none _
  hbody c := body_obligation0 c (fun b => V0 b) O0 Wr0
  hwaits c := Pipeline.RDat.cellsWaits_intro _ _ _ _ c fun w s t => (K (F := F)).mayWait_none _ hO0
  pre c := iprop(StableHlo.held (c : Thread nD τ) (Pipeline.ucRefs τ sig) V0 ∗ Pipeline.owesWithin c O0 Wr0)
  post c := iprop(∃ G, ⌜(rdat0 c (fun b => V0 b) O0 Wr0).ArrAt 2 cfg0.N G⌝
    ∗ StableHlo.held (c : Thread nD τ) (Pipeline.ucRefs τ sig) (Function.update V0 (Proc.devRef .tc main_v2) G)
    ∗ Pipeline.owesWithin c O0 (Wr0 ∪ cfg0.waitPairs none))
  X c := iprop(emp)
  Y c := iprop(emp)
  Z c := Pipeline.unscopedRest (Ix := HIx 1) (Name := ℕ) (U := UU) (Lvl := ℕ) spec0 c (fun b => V0 b)
  hentry c := by
    rw [Pipeline.ownSems0_none]
    have hsplit := Pipeline.RDat.arrays_of_unscopedBufs (p := 0) (pcfgs (F := F)) adm (rdats V0 V1 O0 O1 Wr0 Wr1) launch0.win launch0.arr_whole c
      (share_full V0 V1 O0 O1 Wr0 Wr1 0 c) (fun b => V0 b) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c O0 (Set.subset_union_left (s := Wr0) (t := cfg0.waitPairs (none : HIx 1)))); iexact HO
    isplitr; · iempintro
    iexact Hrest
  hin c := by
    show _ ⊢ Pipeline.scopedRest spec0 c
    iintro ⟨-, -, Hr⟩; iexact Hr
  hout c := by
    rw [Pipeline.ownSems0_none]
    show Pipeline.scopedRest spec0 c ⊢ _
    iintro Hr
    isplitr; · iempintro
    isplitr; · iempintro
    iexact Hr
  hexit c := by
    have hin0 := Pipeline.RDat.ArrAt_in (rdat0 c (fun b => V0 b) O0 Wr0) 0 rfl cfg0.N
    have hin1 := Pipeline.RDat.ArrAt_in (rdat0 c (fun b => V0 b) O0 Wr0) 1 rfl cfg0.N
    show iprop((rdat0 c (fun b => V0 b) O0 Wr0).arraysAt cfg0.N ∗ Pipeline.owesWithin c O0 (Wr0 ∪ cfg0.waitPairs none) ∗ emp ∗ _) ⊢ _
    unfold Pipeline.RDat.arraysAt
    rw [bigSep_W0]
    iintro ⟨⟨⟨%F0, %h0, H0⟩, ⟨%F1, %h1, H1⟩, ⟨%F2, %h2, H2⟩⟩, HO, -, Hrest⟩
    rw [hin0] at h0; rw [hin1] at h1
    subst h0; subst h1
    imodintro
    iexists F2
    isplitr; · ipureintro; exact h2
    isplitr [HO]
    swap; · iexact HO
    have e0 : Function.update V0 (Proc.devRef .tc main_v2) F2 (Proc.devRef .tc main_v1) = V0 (Proc.devRef .tc main_v1) :=
      Function.update_of_ne (by decide) _ _
    have e1 : Function.update V0 (Proc.devRef .tc main_v2) F2 (Proc.devRef .tc main_v0) = V0 (Proc.devRef .tc main_v0) :=
      Function.update_of_ne (by decide) _ _
    have e2 : Function.update V0 (Proc.devRef .tc main_v2) F2 (Proc.devRef .tc main_v2) = F2 := Function.update_self _ _ _
    rw [← Pipeline.unscopedBufs_held (Ix := HIx 1) (Name := ℕ) (U := UU) (Lvl := ℕ) c (Function.update V0 (Proc.devRef .tc main_v2) F2)]
    have hjoin : iprop((rdat0 c (fun b => V0 b) O0 Wr0).arrays
          (fun w => match w with | ⟨0, _⟩ => V0 (Proc.devRef .tc main_v1) | ⟨1, _⟩ => V0 (Proc.devRef .tc main_v0) | ⟨2, _⟩ => F2)
        ∗ Pipeline.unscopedRest spec0 c (fun b => V0 b))
        ⊢ (unscopedBufs c (fun b => Function.update V0 (Proc.devRef .tc main_v2) F2 b) : sProp 𝕄) :=
      unscopedBufs_of_arraysR V0 V1 O0 O1 Wr0 Wr1 (p := 0) launch0.win launch0.arr_whole c (fun b => V0 b)
        (fun b => Function.update V0 (Proc.devRef .tc main_v2) F2 b) _
        (fun w => match w with | ⟨0, _⟩ => e0.symm | ⟨1, _⟩ => e1.symm | ⟨2, _⟩ => e2.symm)
        (fun b hb => Function.update_of_ne (StableHlo.devRef_ne_of_ne fun e : b = main_v2 =>
          hb (Finset.mem_image.mpr ⟨(2 : Fin 3), Finset.mem_univ _, e.symm⟩)) _ _)
    unfold Pipeline.RDat.arrays at hjoin
    rw [bigSep_W0] at hjoin
    iapply hjoin
    isplitr [Hrest]
    swap; · iexact Hrest
    isplitl [H0]; · iexact H0
    isplitl [H1]; · iexact H1
    iexact H2

set_option backward.isDefEq.respectTransparency.types false in
/-- REGION 1: entered from the buffers at `V1`, left with the score array at some contents the write-backs may leave. -/
def reg1 (hO1 : ∀ g, O1 g none = 0) :
    Pipeline.RDat.RegionSeg (pcfgs (F := F)) adm (rdats V0 V1 O0 O1 Wr0 Wr1) (none : HIx 1) defs₀ Variants.none (K (F := F)).L (K (F := F)).lev 1 where
  win := launch2.win.to₀
  block_pos := launch2.block_pos
  stage_whole := launch2.stage_whole
  K := PEmpty
  osem k := k.elim
  ho := Pipeline.OwnSemFacts.none _
  hbody c := body_obligation1 c (fun b => V1 b) O1 Wr1
  hwaits c := Pipeline.RDat.cellsWaits_intro _ _ _ _ c fun w s t => (K (F := F)).mayWait_none _ hO1
  pre c := iprop(StableHlo.held (c : Thread nD τ) (Pipeline.ucRefs τ sig) V1 ∗ Pipeline.owesWithin c O1 Wr1)
  post c := iprop(∃ G, ⌜(rdat1 c (fun b => V1 b) O1 Wr1).ArrAt 3 cfg2.N G⌝
    ∗ StableHlo.held (c : Thread nD τ) (Pipeline.ucRefs τ sig) (Function.update V1 (Proc.devRef .tc main_v6) G)
    ∗ Pipeline.owesWithin c O1 (Wr1 ∪ cfg2.waitPairs none))
  X c := iprop(emp)
  Y c := iprop(emp)
  Z c := Pipeline.unscopedRest (Ix := HIx 1) (Name := ℕ) (U := UU) (Lvl := ℕ) spec2 c (fun b => V1 b)
  hentry c := by
    rw [Pipeline.ownSems0_none]
    have hsplit := Pipeline.RDat.arrays_of_unscopedBufs (p := 1) (pcfgs (F := F)) adm (rdats V0 V1 O0 O1 Wr0 Wr1) launch2.win launch2.arr_whole c
      (share_full V0 V1 O0 O1 Wr0 Wr1 1 c) (fun b => V1 b) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c O1 (Set.subset_union_left (s := Wr1) (t := cfg2.waitPairs (none : HIx 1)))); iexact HO
    isplitr; · iempintro
    iexact Hrest
  hin c := by
    show _ ⊢ Pipeline.scopedRest spec2 c
    iintro ⟨-, -, Hr⟩; iexact Hr
  hout c := by
    rw [Pipeline.ownSems0_none]
    show Pipeline.scopedRest spec2 c ⊢ _
    iintro Hr
    isplitr; · iempintro
    isplitr; · iempintro
    iexact Hr
  hexit c := by
    have hin0 := Pipeline.RDat.ArrAt_in (rdat1 c (fun b => V1 b) O1 Wr1) 0 rfl cfg2.N
    have hin1 := Pipeline.RDat.ArrAt_in (rdat1 c (fun b => V1 b) O1 Wr1) 1 rfl cfg2.N
    have hin2 := Pipeline.RDat.ArrAt_in (rdat1 c (fun b => V1 b) O1 Wr1) 2 rfl cfg2.N
    show iprop((rdat1 c (fun b => V1 b) O1 Wr1).arraysAt cfg2.N ∗ Pipeline.owesWithin c O1 (Wr1 ∪ cfg2.waitPairs none) ∗ emp ∗ _) ⊢ _
    unfold Pipeline.RDat.arraysAt
    rw [bigSep_W2]
    iintro ⟨⟨⟨%F0, %h0, H0⟩, ⟨%F1, %h1, H1⟩, ⟨%F2, %h2, H2⟩, ⟨%F3, %h3, H3⟩⟩, HO, -, Hrest⟩
    rw [hin0] at h0; rw [hin1] at h1; rw [hin2] at h2
    subst h0; subst h1; subst h2
    imodintro
    iexists F3
    isplitr; · ipureintro; exact h3
    isplitr [HO]
    swap; · iexact HO
    have e0 : Function.update V1 (Proc.devRef .tc main_v6) F3 (Proc.devRef .tc main_v4) = V1 (Proc.devRef .tc main_v4) :=
      Function.update_of_ne (by decide) _ _
    have e1 : Function.update V1 (Proc.devRef .tc main_v6) F3 (Proc.devRef .tc main_v3) = V1 (Proc.devRef .tc main_v3) :=
      Function.update_of_ne (by decide) _ _
    have e2 : Function.update V1 (Proc.devRef .tc main_v6) F3 (Proc.devRef .tc main_v5) = V1 (Proc.devRef .tc main_v5) :=
      Function.update_of_ne (by decide) _ _
    have e3 : Function.update V1 (Proc.devRef .tc main_v6) F3 (Proc.devRef .tc main_v6) = F3 := Function.update_self _ _ _
    rw [← Pipeline.unscopedBufs_held (Ix := HIx 1) (Name := ℕ) (U := UU) (Lvl := ℕ) c (Function.update V1 (Proc.devRef .tc main_v6) F3)]
    have hjoin : iprop((rdat1 c (fun b => V1 b) O1 Wr1).arrays
          (fun w => match w with | ⟨0, _⟩ => V1 (Proc.devRef .tc main_v4) | ⟨1, _⟩ => V1 (Proc.devRef .tc main_v3) | ⟨2, _⟩ => V1 (Proc.devRef .tc main_v5) | ⟨3, _⟩ => F3)
        ∗ Pipeline.unscopedRest spec2 c (fun b => V1 b))
        ⊢ (unscopedBufs c (fun b => Function.update V1 (Proc.devRef .tc main_v6) F3 b) : sProp 𝕄) :=
      unscopedBufs_of_arraysR V0 V1 O0 O1 Wr0 Wr1 (p := 1) launch2.win launch2.arr_whole c (fun b => V1 b)
        (fun b => Function.update V1 (Proc.devRef .tc main_v6) F3 b) _
        (fun w => match w with | ⟨0, _⟩ => e0.symm | ⟨1, _⟩ => e1.symm | ⟨2, _⟩ => e2.symm | ⟨3, _⟩ => e3.symm)
        (fun b hb => Function.update_of_ne (StableHlo.devRef_ne_of_ne fun e : b = main_v6 =>
          hb (Finset.mem_image.mpr ⟨(3 : Fin 4), Finset.mem_univ _, e.symm⟩)) _ _)
    unfold Pipeline.RDat.arrays at hjoin
    rw [bigSep_W2] at hjoin
    iapply hjoin
    isplitr [Hrest]
    swap; · iexact Hrest
    isplitl [H0]; · iexact H0
    isplitl [H1]; · iexact H1
    isplitl [H2]; · iexact H2
    iexact H3

end Family

end Cert.Kernel.Segs

end
-- ==== Proof.Spec.lean ====
/-
  The function both programs compute, index by index, on the extended reals.

  A user's (an item's) latent vector is its 400 raw features contracted with the projection `FS`;
  the rating of item `i` for the `b`-th requested user is the logistic function of the inner product of
  the two latent vectors over the 64 latent coordinates. The requested user is named by a 32-bit word;
  `rowOf` reads it as a row number of the user table (a word below 100000 names that row).
-/
import Idealize.ShloMosaic.PureOps.Ideal
import Idealize.ShloMosaic.Lib.ValueIdx

noncomputable section

namespace Cert.Spec

open Idealize.ShloMosaic Idealize.ShloMosaic.ValueIdx

/-- The shapes of the four arguments and of the result. -/
abbrev SUsers : Shape := ⟨1, ![1024]⟩
abbrev STable : Shape := ⟨2, ![100000, 400]⟩
abbrev SProj : Shape := ⟨2, ![400, 64]⟩
abbrev SOut : Shape := ⟨2, ![1024, 100000]⟩

/-- The table row a 32-bit index word names: the word's value when it is below 100000 (reduced modulo
    100000 otherwise, so that the function is total). -/
def rowOf (w : BitVec 32) : Fin 100000 := ⟨w.toNat % 100000, Nat.mod_lt _ (by decide)⟩

theorem rowOf_val_of_lt {w : BitVec 32} (h : w.toNat < 100000) : (rowOf w).val = w.toNat := Nat.mod_eq_of_lt h

/-- Latent coordinate `l` of row `r` of a table: the row's 400 features contracted with column `l` of `FS`. -/
def latent (T : FVec Ideal STable .f32) (FS : FVec Ideal SProj .f32) (r : Fin 100000) (l : Fin 64) : EReal :=
  ∑ k : Fin 400, T (ix2 r k) * FS (ix2 k l)

/-- The rating of item `i` for the `b`-th requested user. -/
def score (users : IVec SUsers 32) (U I : FVec Ideal STable .f32) (FS : FVec Ideal SProj .f32) (b : Fin 1024) (i : Fin 100000) : EReal :=
  Ideal.logistic (∑ l : Fin 64, latent U FS (rowOf (users (ix1 b))) l * latent I FS i l)

/-- The whole result array. -/
def rating (users : IVec SUsers 32) (U I : FVec Ideal STable .f32) (FS : FVec Ideal SProj .f32) : FVec Ideal SOut .f32 :=
  fun j => score users U I FS (j 0) (j 1)

theorem rating_apply (users : IVec SUsers 32) (U I : FVec Ideal STable .f32) (FS : FVec Ideal SProj .f32) (b : Fin 1024) (i : Fin 100000) :
    rating users U I FS (ix2 b i) = score users U I FS b i := rfl

end Cert.Spec

end
-- ==== Proof.TileDefsB.lean ====
/-
  The row-gather kernel on the vector subcores: what its call hands each processor and takes back.

  The call reads two arrays whole from every vector subcore (the table of latent rows and the list of
  requested users) and writes a third by disjoint blocks of 32 rows, one block per subcore. So the table
  and the list travel as read shares (a half per group of sixteen subcores, split again among the sixteen)
  and the result travels by blocks. What is known of the table when the call is made is a predicate of
  its contents; the contents themselves are quantified in every piece that holds a share of the table, and
  the block a subcore hands back holds, at row b, the table's row named by the b-th requested user.
-/
import proofs.«210177_g34866544509008_cont_8to1_b_1726_19_alg».proof.Proof.SetupB
import proofs.«210177_g34866544509008_cont_8to1_b_1726_19_alg».proof.Proof.Spec
import proofs.«210177_g34866544509008_cont_8to1_b_1726_19_alg».proof.Proof.Gen.Kernel.Skeleton
import Idealize.ShloMosaic.Lib.SparseCore.Stream
import Idealize.ShloMosaic.Lib.SparseCore.Ops
import Idealize.ShloMosaic.Lib.Transfers

noncomputable section

namespace Cert.Kernel.Tile

open Cert.Kernel Cert.Kernel.Gen Cert.Kernel.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)

variable {F : FTy → Type}

local notation "𝕄" => MT nD τ sig (HIx 1) (Elt F) ℕ UU ℕ

/-! ## The three arrays and the kernel's memrefs -/

/-- The table, the list of requested users and the result, as locations of device `d`. -/
abbrev tLoc (d : Dev nD) : Loc nD τ sig := (SparseCore.T d).loc main_v2
abbrev uLoc (d : Dev nD) : Loc nD τ sig := (SparseCore.T d).loc main_arg0
abbrev oLoc (d : Dev nD) : Loc nD τ sig := (SparseCore.T d).loc main_v3

/-- Row `b` of the result is the table's row named by the `b`-th requested user. -/
def gathered {d : Dev nD} (t : Buf (Elt F) (tLoc d)) (u : Buf (Elt F) (uLoc d)) : Buf (Elt F) (oLoc d) :=
  fun j : S1024x128.Idx => t (ix2 (Cert.Spec.rowOf (u (ix1 (j 0)))) (j 1))

abbrev tV : Memref sig .scVector .hbm S100000x128 .f32 := Memref.whole main_v2_scv
abbrev uV : Memref sig .scVector .hbm S1024 .i32 := Memref.whole main_arg0_scv
abbrev oV : Memref sig .scVector .hbm S1024x128 .f32 := Memref.whole main_v3_scv
/-- A subcore's scratch: the fetched user words, the gathered rows. -/
abbrev sI : Memref sig .scVector .vmem S32 .i32 := Memref.whole cc1_scratch0
abbrev sR : Memref sig .scVector .vmem S32x128 .f32 := Memref.whole cc1_scratch1

/-- The grid point of SparseCore `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The 32 user words and the 32 result rows of a grid point, as the kernel slices them. -/
abbrev uSl (L : grid1.Coords) : Memref sig .scVector .hbm S32 .i32 :=
  (uV).slice (Rect.unit (s := S1024) (k1_off1 L) S32.size (k1_off1_inb L)) (fun _ => rfl)
abbrev oSl (L : grid1.Coords) : Memref sig .scVector .hbm S32x128 .f32 :=
  (oV).slice (Rect.unit (s := S1024x128) (k1_off2 L) S32x128.size (k1_off2_inb L)) (fun _ => rfl)
/-- The result's elements a grid point writes. -/
abbrev oSet (L : grid1.Coords) : Finset S1024x128.Idx := (oSl L).view.set

/-! ## The read shares -/

/-- SparseCore `c`'s share of an array every subcore reads: a half. -/
def qC (c : ℕ) : PosShare TreeShare := if c = 0 then fullShare.left else fullShare.right
/-- Subcore `i` of SparseCore `c`: the `i`-th read token of that half. -/
abbrev qT (c i : ℕ) : PosShare TreeShare := shareTokN (qC c) i

/-! ## What the handshakes carry -/

variable (m : (ℓ : Loc nD τ sig) → Buf (Elt F) ℓ)
variable (R : (d : Dev nD) → Buf (Elt F) (tLoc d) → Prop)

/-- What a subcore is handed: a share of the table (at some contents) and of the list, its block of the result. -/
def tileGo (d : Dev nD) (L : grid1.Coords) : sProp 𝕄 :=
  iprop(∃ tab : Buf (Elt F) (tLoc d), (tLoc d ↦{qT (L 0).val (L 1).val} tab) ∗ (uLoc d ↦{qT (L 0).val (L 1).val} m (uLoc d))
    ∗ ∃ f, oLoc d ↦[oSet L]{fullShare} f)
/-- What it hands back: the shares, its block holding the gathered rows of that table. -/
def tileTd (d : Dev nD) (L : grid1.Coords) : sProp 𝕄 :=
  iprop(∃ tab : Buf (Elt F) (tLoc d), (tLoc d ↦{qT (L 0).val (L 1).val} tab) ∗ (uLoc d ↦{qT (L 0).val (L 1).val} m (uLoc d))
    ∗ oLoc d ↦[oSet L]{fullShare} gathered tab (m (uLoc d)))
/-- What a SparseCore is handed: its half of the table (known to satisfy `R`) and of the list, its sixteen blocks. -/
def coreSt (d : Dev nD) (c : Fin (grid1.bound 0)) : sProp 𝕄 :=
  iprop(∃ tab : Buf (Elt F) (tLoc d), ⌜R d tab⌝ ∗ (tLoc d ↦{qC c.val} tab) ∗ (uLoc d ↦{qC c.val} m (uLoc d))
    ∗ bigSep Finset.univ fun s : Fin (grid1.bound 1) => iprop(∃ f, oLoc d ↦[oSet (coordsV c s)]{fullShare} f))
/-- What it hands back. -/
def coreDn (d : Dev nD) (c : Fin (grid1.bound 0)) : sProp 𝕄 :=
  iprop(∃ tab : Buf (Elt F) (tLoc d), ⌜R d tab⌝ ∗ (tLoc d ↦{qC c.val} tab) ∗ (uLoc d ↦{qC c.val} m (uLoc d))
    ∗ bigSep Finset.univ fun s : Fin (grid1.bound 1) => oLoc d ↦[oSet (coordsV c s)]{fullShare} gathered tab (m (uLoc d)))

def P : (K (F := F)).Pay (nD := nD) (Val := Elt F) (Name := ℕ) (U := UU) where
  st := fun q d c => match q with | 0 => coreSt m R d c
  dn := fun q d c => match q with | 0 => coreDn m R d c
  go := fun q d c i => match q with | 0 => tileGo m d (coordsV c i)
  td := fun q d c i => match q with | 0 => tileTd m d (coordsV c i)
  x := fun _ _ => iprop(emp)

theorem P_st (d : Dev nD) (c : Fin ((K (F := F)).nCore 0)) : (P m R).st 0 d c = coreSt m R d c := rfl
theorem P_dn (d : Dev nD) (c : Fin ((K (F := F)).nCore 0)) : (P m R).dn 0 d c = coreDn m R d c := rfl
theorem P_go (d : Dev nD) (c : Fin ((K (F := F)).nCore 0)) (i : Fin ((K (F := F)).nSub 0)) : (P m R).go 0 d c i = tileGo m d (coordsV c i) := rfl
theorem P_td (d : Dev nD) (c : Fin ((K (F := F)).nCore 0)) (i : Fin ((K (F := F)).nSub 0)) : (P m R).td 0 d c i = tileTd m d (coordsV c i) := rfl

instance P_storable : (P (F := F) m R).IsStorable where
  st q d c := match q with | 0 => by show BI.Storable upEmb (coreSt m R d c); unfold coreSt; infer_instance
  dn q d c := match q with | 0 => by show BI.Storable upEmb (coreDn m R d c); unfold coreDn; infer_instance
  go q d c i := match q with | 0 => by show BI.Storable upEmb (tileGo m d (coordsV c i)); unfold tileGo; infer_instance
  td q d c i := match q with | 0 => by show BI.Storable upEmb (tileTd m d (coordsV c i)); unfold tileTd; infer_instance

end Cert.Kernel.Tile

end
-- ==== Proof.MainB.lean ====
/-
  @main on the TensorCore, segment by segment: the constant, the padding and the first transpose; the first kernel region;
  the SparseCore call; two transposes; the second kernel region; the last transpose. Between segments every unscoped
  buffer is held at a valuation; what the regions and the call leave is known only up to what the write-backs may leave,
  and is carried as a predicate on the valuation.
-/
import proofs.«210177_g34866544509008_cont_8to1_b_1726_19_alg».proof.Proof.SegsB
import proofs.«210177_g34866544509008_cont_8to1_b_1726_19_alg».proof.Proof.TileDefsB

noncomputable section

namespace Cert.Kernel.Main

open Cert.Kernel Cert.Kernel.Gen Cert.Kernel.Setup Cert.Kernel.Bodies Cert.Kernel.RData Cert.Kernel.Segs Cert.Kernel.Tile

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Pipeline (RDat Cfg Window)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations -/

abbrev opC : HloOp τ sig (Elt F) := StableHlo.nullary main_c (constantI S_ 32 0#32)
abbrev opCv : HloOp τ sig (Elt F) := StableHlo.TRef.unary (.of main_c : StableHlo.TRef sig ⟨S_, .i32⟩) main_call0.v0 (sitofp .f32)
abbrev opPad : HloOp τ sig (Elt F) :=
  StableHlo.TRef.binary (.of main_arg3 : StableHlo.TRef sig ⟨S400x64, .f32⟩) main_call0.v0 main_call0.v1 (fun x v => pad S400x128 ![0, 0] ![0, 64] ![0, 0] x v Facts₀.pads_S400x64_S400x128_000_0640 Facts₀.h_S_)
abbrev opT1 : HloOp τ sig (Elt F) :=
  StableHlo.unary main_arg1 main_v1 ((transpose S400x100000 [1, 0] · Facts₀.transposes_S100000x400_S400x100000_1_0) : (⟨S100000x400, .f32⟩ : BufTy).Contents (Elt F) → (⟨S400x100000, .f32⟩ : BufTy).Contents (Elt F))
abbrev opT4 : HloOp τ sig (Elt F) :=
  StableHlo.unary main_arg3 main_v4 ((transpose S64x400 [1, 0] · Facts₀.transposes_S400x64_S64x400_1_0) : (⟨S400x64, .f32⟩ : BufTy).Contents (Elt F) → (⟨S64x400, .f32⟩ : BufTy).Contents (Elt F))
abbrev opT5 : HloOp τ sig (Elt F) :=
  StableHlo.unary main_arg2 main_v5 ((transpose S400x100000 [1, 0] · Facts₀.transposes_S100000x400_S400x100000_1_0) : (⟨S100000x400, .f32⟩ : BufTy).Contents (Elt F) → (⟨S400x100000, .f32⟩ : BufTy).Contents (Elt F))
abbrev opT7 : HloOp τ sig (Elt F) :=
  StableHlo.unary main_v6 main_v7 ((transpose S1024x100000 [1, 0] · Facts₀.transposes_S100000x1024_S1024x100000_1_0) : (⟨S100000x1024, .f32⟩ : BufTy).Contents (Elt F) → (⟨S1024x100000, .f32⟩ : BufTy).Contents (Elt F))

/-! ## The valuations between segments -/

/-- The score array, as a location of device `d`. -/
abbrev sLoc (d : Dev nD) : Loc nD τ sig := (SparseCore.T d).loc main_v6

/-- At launch; -/
def W0 (d : Dev nD) : Valuation τ sig (Elt F) := fun b => m (d, b)
/-- when the first region is entered; -/
def W1 (d : Dev nD) : Valuation τ sig (Elt F) := (opT1 (F := F)).result ((opPad (F := F)).result ((opCv (F := F)).result ((opC (F := F)).result (W0 m d))))
/-- after it, the latent table at `tab`; -/
def W2 (d : Dev nD) (tab : Buf (Elt F) (tLoc d)) : Valuation τ sig (Elt F) := Function.update (W1 m d) (Proc.devRef .tc main_v2) tab
/-- after the call, the requested rows gathered; -/
def W3 (d : Dev nD) (tab : Buf (Elt F) (tLoc d)) : Valuation τ sig (Elt F) :=
  Function.update (W2 m d tab) (Proc.devRef .tc main_v3) (gathered tab (m (uLoc d)))
/-- when the second region is entered; -/
def W4 (d : Dev nD) (tab : Buf (Elt F) (tLoc d)) : Valuation τ sig (Elt F) := (opT5 (F := F)).result ((opT4 (F := F)).result (W3 m d tab))
/-- after it, the scores at `G`; -/
def W5 (d : Dev nD) (tab : Buf (Elt F) (tLoc d)) (G : Buf (Elt F) (sLoc d)) : Valuation τ sig (Elt F) :=
  Function.update (W4 m d tab) (Proc.devRef .tc main_v6) G
/-- at the end. -/
def W6 (d : Dev nD) (tab : Buf (Elt F) (tLoc d)) (G : Buf (Elt F) (sLoc d)) : Valuation τ sig (Elt F) := (opT7 (F := F)).result (W5 m d tab G)

/-- What is known of the latent table when the call is made: contents the first region's write-backs may leave. -/
def Rtab (d : Dev nD) (tab : Buf (Elt F) (tLoc d)) : Prop :=
  (rdat0 d (fun b => W1 m d b) 0 Set.univ).ArrAt 2 cfg0.N tab
/-- What is known of the scores at the end, given the table. -/
def Rsc (d : Dev nD) (tab : Buf (Elt F) (tLoc d)) (G : Buf (Elt F) (sLoc d)) : Prop :=
  (rdat1 d (fun b => W4 m d tab b) 0 Set.univ).ArrAt 3 cfg2.N G

/-- The handshakes' payloads: the gather kernel's, over the table as the first region may leave it. -/
abbrev PP : (K (F := F)).Pay (nD := nD) (Val := Elt F) (Name := ℕ) (U := UU) := Tile.P m (Rtab m)

/-- What the launch deals @main beside its buffers: both pipelines' staging cells' ghost state and duty tokens. -/
abbrev GG (d : Dev nD) : sProp 𝕄 :=
  Pipeline.ghostOn (pcfgs (F := F)) adm EP Finset.univ d

/-- What @main leaves: every unscoped buffer at the last valuation, for some table and scores the regions may leave. -/
def FIN (d : Dev nD) : sProp 𝕄 :=
  iprop(∃ tab G, ⌜Rtab m d tab ∧ Rsc m d tab G⌝ ∗ held (SparseCore.T d) (Pipeline.ucRefs τ sig) (W6 m d tab G))

/-! ## Auxiliary facts -/

/-- The rest of the TensorCore's handshake state before call `n`, beside what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_open (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRest (F := F) d n) := rfl

/-- The pipelines' ghost state, one pipeline at a time. -/
theorem GG_eq (d : Dev nD) : (GG (F := F) d : sProp 𝕄)
    = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)) := by
  unfold GG Pipeline.ghostOn Pipeline.PerCore.ghostOn
  rw [show (Finset.univ : Finset (Fin 2)) = {0, 1} from by decide, SparseCore.bigSep_insert' (by decide), bigSep_singleton]

/-- The three arrays the SparseCore call is handed. -/
abbrev T3 : Finset (DevRef τ sig) := {Proc.devRef .tc main_v2, Proc.devRef .tc main_arg0, Proc.devRef .tc main_v3}

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem T3_sub : (T3 : Finset (DevRef τ sig)) ⊆ Pipeline.ucRefs τ sig := by
  intro b hb
  simp only [T3, Finset.mem_insert, Finset.mem_singleton] at hb
  rcases hb with rfl | rfl | rfl <;> exact mem_uc _ (by decide)

theorem held_T3 (d : Dev nD) (W : Valuation τ sig (Elt F)) :
    (held (SparseCore.T d) T3 W : sProp 𝕄)
      = iprop((tLoc d ↦{fullShare} W (Proc.devRef .tc main_v2)) ∗ (uLoc d ↦{fullShare} W (Proc.devRef .tc main_arg0)) ∗ (oLoc d ↦{fullShare} W (Proc.devRef .tc main_v3))) := by
  unfold held T3
  rw [SparseCore.bigSep_insert' (by decide), SparseCore.bigSep_insert' (by decide), bigSep_singleton]

/-- Valuations that agree off the three arrays hold the rest alike. -/
theorem held_rest_congr (d : Dev nD) (W W' : Valuation τ sig (Elt F)) (h : ∀ b, b ∉ (T3 : Finset (DevRef τ sig)) → W' b = W b) :
    (held (SparseCore.T d) (Pipeline.ucRefs τ sig \ T3) W' : sProp 𝕄) = held (SparseCore.T d) (Pipeline.ucRefs τ sig \ T3) W := by
  unfold held
  exact bigSep_congr fun b hb => by rw [h b (Finset.mem_sdiff.mp hb).2]

set_option backward.isDefEq.respectTransparency.types false in
set_option maxHeartbeats 800000 in
/-- Kernel region 0's step on the TensorCore of `d`, in the SparseCore program's signature. -/
theorem wp_region0 (rd : (p : Fin 2) → (c : Dev nD) → RDat τ (Elt F) (HIx 1) ℕ UU ℕ (Pipeline.pin (pcfgs (F := F)) adm p) c)
    (R : Pipeline.RDat.RegionSeg (pcfgs (F := F)) adm rd (none : HIx 1) defs₀ Variants.none (K (F := F)).L (K (F := F)).lev 0)
    (d : Dev nD) (Φ : PUnit → sProp 𝕄) :
    iprop(levAts (K (F := F)).L (K (F := F)).lev ∗ boundary (SparseCore.T d) ∗ R.pre d
        ∗ Pipeline.cellsGhost (Pipeline.pin (pcfgs (F := F)) adm) EP 0 d ∗ Pipeline.toksInit (Pipeline.pin (pcfgs (F := F)) adm) EP 0 d
        ∗ (iprop(boundary (SparseCore.T d) ∗ R.post d) -∗ Φ ⟨⟩))
      ⊢ wp frame (wpE ((K (F := F)).defs (D (F := F))) 𝒱 (SparseCore.T d) none) Set.univ
          (Prog.lift (.customCall (SparseCore.inner (Pipeline.entry 0)) ())) Φ := by
  have h2 := Pipeline.RDat.RegionSeg.wp (pcfgs (F := F)) adm rd (none : HIx 1) cellOf_inj EP defs₀ Variants.none _ _ R d none
    (fun u hu => (Option.not_mem_none u hu).elim) (fun _ => .ret ⟨⟩) Φ
  have h1 := (K (F := F)).wp_liftProg (nD := nD) (Val := Elt F) (Name := ℕ) (U := UU) (D (F := F)) 𝒱 (SparseCore.T d) Set.univ none (α := PUnit)
    (.op (.customCall (Pipeline.entry 0) ()) fun _ => .ret ⟨⟩) Φ
  refine BIBase.Entails.trans ?_ (h2.trans h1)
  iintro ⟨Hlev, Hb, Hpre, Hg, Ht, Hk⟩
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht

set_option backward.isDefEq.respectTransparency.types false in
set_option maxHeartbeats 800000 in
/-- Kernel region 1's step on the TensorCore of `d`, in the SparseCore program's signature. -/
theorem wp_region1 (rd : (p : Fin 2) → (c : Dev nD) → RDat τ (Elt F) (HIx 1) ℕ UU ℕ (Pipeline.pin (pcfgs (F := F)) adm p) c)
    (R : Pipeline.RDat.RegionSeg (pcfgs (F := F)) adm rd (none : HIx 1) defs₀ Variants.none (K (F := F)).L (K (F := F)).lev 1)
    (d : Dev nD) (Φ : PUnit → sProp 𝕄) :
    iprop(levAts (K (F := F)).L (K (F := F)).lev ∗ boundary (SparseCore.T d) ∗ R.pre d
        ∗ Pipeline.cellsGhost (Pipeline.pin (pcfgs (F := F)) adm) EP 1 d ∗ Pipeline.toksInit (Pipeline.pin (pcfgs (F := F)) adm) EP 1 d
        ∗ (iprop(boundary (SparseCore.T d) ∗ R.post d) -∗ Φ ⟨⟩))
      ⊢ wp frame (wpE ((K (F := F)).defs (D (F := F))) 𝒱 (SparseCore.T d) none) Set.univ
          (Prog.lift (.customCall (SparseCore.inner (Pipeline.entry 1)) ())) Φ := by
  have h2 := Pipeline.RDat.RegionSeg.wp (pcfgs (F := F)) adm rd (none : HIx 1) cellOf_inj EP defs₀ Variants.none _ _ R d none
    (fun u hu => (Option.not_mem_none u hu).elim) (fun _ => .ret ⟨⟩) Φ
  have h1 := (K (F := F)).wp_liftProg (nD := nD) (Val := Elt F) (Name := ℕ) (U := UU) (D (F := F)) 𝒱 (SparseCore.T d) Set.univ none (α := PUnit)
    (.op (.customCall (Pipeline.entry 1) ()) fun _ => .ret ⟨⟩) Φ
  refine BIBase.Entails.trans ?_ (h2.trans h1)
  iintro ⟨Hlev, Hb, Hpre, Hg, Ht, Hk⟩
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht

/-! ## The host operations' buffers -/

theorem hC : (opC (F := F)).bufs ⊆ Pipeline.ucRefs τ sig := Pipeline.sub_ucRefs _ (StableHlo.nullary_bufs_sub ..)
theorem hCv : (opCv (F := F)).bufs ⊆ Pipeline.ucRefs τ sig := Pipeline.sub_ucRefs _ (StableHlo.unary_bufs_sub ..)
theorem hPad : (opPad (F := F)).bufs ⊆ Pipeline.ucRefs τ sig := Pipeline.sub_ucRefs _ (StableHlo.binary_bufs_sub ..)
theorem hT1 : (opT1 (F := F)).bufs ⊆ Pipeline.ucRefs τ sig := Pipeline.sub_ucRefs _ (StableHlo.unary_bufs_sub ..)
theorem hT4 : (opT4 (F := F)).bufs ⊆ Pipeline.ucRefs τ sig := Pipeline.sub_ucRefs _ (StableHlo.unary_bufs_sub ..)
theorem hT5 : (opT5 (F := F)).bufs ⊆ Pipeline.ucRefs τ sig := Pipeline.sub_ucRefs _ (StableHlo.unary_bufs_sub ..)
theorem hT7 : (opT7 (F := F)).bufs ⊆ Pipeline.ucRefs τ sig := Pipeline.sub_ucRefs _ (StableHlo.unary_bufs_sub ..)

/-! ## What the valuations hold at the buffers the call is handed -/

theorem W1_users (d : Dev nD) : W1 m d (Proc.devRef .tc main_arg0) = m (uLoc d) := by
  unfold W1
  exact (StableHlo.unary_result_ne _ _ _ _ _ _ (by decide)).trans ((StableHlo.binary_result_ne _ _ _ _ _ _ _ _ (by decide)).trans
    ((StableHlo.unary_result_ne _ _ _ _ _ _ (by decide)).trans ((StableHlo.nullary_result_ne _ _ _ _ (by decide)).trans rfl)))
theorem W2_tab (d : Dev nD) (tab : Buf (Elt F) (tLoc d)) : W2 m d tab (Proc.devRef .tc main_v2) = tab := Function.update_self _ _ _
theorem W2_users (d : Dev nD) (tab : Buf (Elt F) (tLoc d)) : W2 m d tab (Proc.devRef .tc main_arg0) = m (uLoc d) :=
  (Function.update_of_ne (by decide) _ _).trans (W1_users m d)
theorem W3_tab (d : Dev nD) (tab : Buf (Elt F) (tLoc d)) : W3 m d tab (Proc.devRef .tc main_v2) = tab :=
  (Function.update_of_ne (by decide) _ _).trans (W2_tab m d tab)
theorem W3_users (d : Dev nD) (tab : Buf (Elt F) (tLoc d)) : W3 m d tab (Proc.devRef .tc main_arg0) = m (uLoc d) :=
  (Function.update_of_ne (by decide) _ _).trans (W2_users m d tab)
theorem W3_rows (d : Dev nD) (tab : Buf (Elt F) (tLoc d)) : W3 m d tab (Proc.devRef .tc main_v3) = gathered tab (m (uLoc d)) :=
  Function.update_self _ _ _
/-- Off the three arrays the call leaves the valuation as it was, whichever table came back. -/
theorem W3_off (d : Dev nD) (tab tab' : Buf (Elt F) (tLoc d)) (b : DevRef τ sig) (hb : b ∉ (T3 : Finset (DevRef τ sig))) :
    W3 m d tab' b = W2 m d tab b := by
  simp only [T3, Finset.mem_insert, Finset.mem_singleton, not_or] at hb
  unfold W3 W2
  rw [Function.update_of_ne hb.2.2, Function.update_of_ne hb.1, Function.update_of_ne hb.1]

/-- A pipeline's own waits sit at level zero: pairs recorded within the earlier ones and the pipeline's stay bounded. -/
theorem wbelow_grow {d : Dev nD} {Wt Wt' : Waits sig (HIx 1)} {b : ℕ} {B : Set (SemLoc sig × HIx 1)}
    (hWt : (K (F := F)).WBelow (SparseCore.T d) Wt b) (hB : ∀ p ∈ B, p.2 = none) (h : (↑Wt' : Set (SemLoc sig × HIx 1)) ⊆ ↑Wt ∪ B) :
    (K (F := F)).WBelow (SparseCore.T d) Wt' b := fun p hp => by
  rcases h (Finset.mem_coe.mpr hp) with h1 | h2
  · exact hWt p (Finset.mem_coe.mp h1)
  · rw [show p = (p.1, p.2) from rfl, hB p h2, SparseCore.Cfg.lev_none]; exact Nat.zero_le _

theorem waitPairs_none (cfg : Pipeline.Cfg sig Λ₀) : ∀ p ∈ cfg.waitPairs (none : HIx 1), p.2 = none := by
  rintro p ⟨w, s, rfl⟩; rfl

section RegStates
variable (V0 V1 : Valuation τ sig (Elt F)) (O0 O1 : CellTallies nD τ sig (HIx 1)) (Wr0 Wr1 : Set (SemLoc sig × HIx 1))
theorem reg0_pre (h) (c : Dev nD) : (reg0 V0 V1 O0 O1 Wr0 Wr1 h).pre c
    = iprop(held (c : Thread nD τ) (Pipeline.ucRefs τ sig) V0 ∗ Pipeline.owesWithin c O0 Wr0) := rfl
theorem reg0_post (h) (c : Dev nD) : (reg0 V0 V1 O0 O1 Wr0 Wr1 h).post c
    = iprop(∃ G, ⌜(rdat0 c (fun b => V0 b) O0 Wr0).ArrAt 2 cfg0.N G⌝
      ∗ held (c : Thread nD τ) (Pipeline.ucRefs τ sig) (Function.update V0 (Proc.devRef .tc main_v2) G)
      ∗ Pipeline.owesWithin c O0 (Wr0 ∪ cfg0.waitPairs none)) := rfl
theorem reg1_pre (h) (c : Dev nD) : (reg1 V0 V1 O0 O1 Wr0 Wr1 h).pre c
    = iprop(held (c : Thread nD τ) (Pipeline.ucRefs τ sig) V1 ∗ Pipeline.owesWithin c O1 Wr1) := rfl
theorem reg1_post (h) (c : Dev nD) : (reg1 V0 V1 O0 O1 Wr0 Wr1 h).post c
    = iprop(∃ G, ⌜(rdat1 c (fun b => V1 b) O1 Wr1).ArrAt 3 cfg2.N G⌝
      ∗ held (c : Thread nD τ) (Pipeline.ucRefs τ sig) (Function.update V1 (Proc.devRef .tc main_v6) G)
      ∗ Pipeline.owesWithin c O1 (Wr1 ∪ cfg2.waitPairs none)) := rfl
end RegStates

/-! ## @main -/

set_option backward.isDefEq.respectTransparency.types false in
set_option maxHeartbeats 2000000 in
theorem hmain
    (hst : ∀ d : Dev nD, iprop((∃ tab, ⌜Rtab m d tab⌝ ∗ (tLoc d ↦{fullShare} tab)) ∗ (uLoc d ↦{fullShare} m (uLoc d)) ∗ (∃ f, oLoc d ↦{fullShare} f))
        ⊢ (bigSep Finset.univ fun c : Fin ((K (F := F)).nCore 0) => (PP m).st 0 d c : sProp 𝕄))
    (hdn : ∀ d : Dev nD, (bigSep Finset.univ fun c : Fin ((K (F := F)).nCore 0) => (PP m).dn 0 d c : sProp 𝕄)
        ⊢ iprop(∃ tab, ⌜Rtab m d tab⌝ ∗ (tLoc d ↦{fullShare} tab) ∗ (uLoc d ↦{fullShare} m (uLoc d)) ∗ (oLoc d ↦{fullShare} gathered tab (m (uLoc d)))))
    (κ : GSem nD τ sig → ℕ) (d : Dev nD) :
    iprop((K (F := F)).ctx EH (PP m) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  simp only [main, fn_pad.body, wp_bind, wp_pure]
  rw [show (fun b : Ref sig .tc => m ((SparseCore.T d).loc b)) = (fun b : Ref sig .tc => W0 m d b) from rfl, Pipeline.unscopedBufs_held]
  iintro ⟨#Hctx, Hst, ⟨Hb, Hheld, -, -⟩, HG⟩
  -- the constant, the conversion, the padding, the transpose of the user table
  iapply (wp_hlo_within 𝒱 (SparseCore.T d) none Set.univ (op := opC (F := F)) (S := Pipeline.ucRefs τ sig) hC (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := opCv (F := F)) (S := Pipeline.ucRefs τ sig) hCv) $$ [Hb Hheld]
  · isplitl [Hb]; · iexact Hb
    iexact Hheld
  iintro ⟨Hb, Hheld⟩
  rw [wp_ret]; imodintro
  iapply (wp_hlo_within 𝒱 (SparseCore.T d) none Set.univ (op := opPad (F := F)) (S := Pipeline.ucRefs τ sig) hPad) $$ [Hb Hheld]
  · isplitl [Hb]; · iexact Hb
    iexact Hheld
  iintro ⟨Hb, Hheld⟩
  rw [wp_ret]; imodintro; imodintro
  iapply (wp_hlo_within 𝒱 (SparseCore.T d) none Set.univ (op := opT1 (F := F)) (S := Pipeline.ucRefs τ sig) hT1) $$ [Hb Hheld]
  · isplitl [Hb]; · iexact Hb
    iexact Hheld
  iintro ⟨Hb, Hheld⟩
  rw [wp_ret]; imodintro
  -- region 0: what the TensorCore owes the launch rides along, its recorded pairs bounded
  ihave Hst' := (Entails.of_eq (tcSt_open (F := F) d 0)) $$ Hst
  icases Hst' with ⟨⟨%Wt, %hWt, HO⟩, Hstr⟩
  ihave HG' := (Entails.of_eq (GG_eq (F := F) d)) $$ HG
  icases HG' with ⟨⟨Hg0, Ht0⟩, ⟨Hg1, Ht1⟩⟩
  ihave Hlev := (SparseCore.Cfg.ctx_levAts κ) $$ Hctx
  iapply (wp_region0 (rdats (W1 m d) (W1 m d) ((K (F := F)).Otc d 0) 0 (↑Wt) ∅)
    (reg0 (W1 m d) (W1 m d) ((K (F := F)).Otc d 0) 0 (↑Wt) ∅ (Otc_none d 0)) d _)
  isplitl [Hlev]; · iexact Hlev
  isplitl [Hb]; · iexact Hb
  isplitl [Hheld HO]
  · rw [reg0_pre]
    isplitl [Hheld]; · iexact Hheld
    iexists Wt; isplitr; · ipureintro; exact subset_rfl
    iexact HO
  isplitl [Hg0]; · iexact Hg0
  isplitl [Ht0]; · iexact Ht0
  iintro ⟨Hb, Hpost⟩
  ihave Hp := (Entails.of_eq (reg0_post (W1 m d) (W1 m d) ((K (F := F)).Otc d 0) 0 (↑Wt) ∅ (Otc_none d 0) d)) $$ Hpost
  icases Hp with ⟨%tab, %htab, Hheld, %Wt', %hWt', HO⟩
  -- the SparseCore call: the handshake state folded back, the three arrays handed over and taken back
  have hWB0 : (K (F := F)).WBelow (SparseCore.T d) Wt' (8 * 0) := wbelow_grow hWt (waitPairs_none cfg0) hWt'
  have hRtab : Rtab m d tab :=
    (Pipeline.RDat.arrAt_congr (rd := rdat0 d (fun b => W1 m d b) ((K (F := F)).Otc d 0) ↑Wt) (rd' := rdat0 d (fun b => W1 m d b) 0 Set.univ)
      (w := 2) rfl rfl cfg0.N tab).mpr htab
  ihave Hst := (Entails.of_eq (tcSt_open (F := F) d 0).symm) $$ [HO Hstr]
  · isplitl [HO]
    · iexists Wt'; isplitr; · ipureintro; exact hWB0
      iexact HO
    iexact Hstr
  ihave Hheld := (Entails.of_eq (show (held (d.tc : Thread nD τ) (Pipeline.ucRefs τ sig) (Function.update (W1 m d) (Proc.devRef .tc main_v2) tab) : sProp 𝕄)
      = held (SparseCore.T d) (Pipeline.ucRefs τ sig) (W2 m d tab) from rfl)) $$ Hheld
  ihave Hh := (Entails.of_eq (StableHlo.held_sub_split (SparseCore.T d) T3_sub (W2 m d tab))) $$ Hheld
  icases Hh with ⟨H3, Hrest⟩
  ihave H3' := (Entails.of_eq (held_T3 d (W2 m d tab))) $$ H3
  icases H3' with ⟨Htb, Hu, Ho⟩
  rw [W2_tab, W2_users]
  iapply ((K (F := F)).wp_run (D (F := F)) 𝒱 (EH := EH) (P := PP m) κ d 0)
  isplitr; · iexact Hctx
  isplitl [Hst]; · iexact Hst
  isplitl [Htb Hu Ho]
  · iapply (hst d)
    isplitl [Htb]
    · iexists tab; isplitr; · ipureintro; exact hRtab
      iexact Htb
    isplitl [Hu]; · iexact Hu
    iexists _; iexact Ho
  iintro ⟨Hst, Hdn⟩
  ihave Hdn' := (hdn d) $$ Hdn
  icases Hdn' with ⟨%tab', %htab', Htb, Hu, Ho⟩
  -- the three arrays back among the held buffers, at the table that came back
  ihave H3 := (Entails.of_eq (held_T3 d (W3 m d tab')).symm) $$ [Htb Hu Ho]
  · rw [W3_tab, W3_users, W3_rows]
    isplitl [Htb]; · iexact Htb
    isplitl [Hu]; · iexact Hu
    iexact Ho
  ihave Hrest' := (Entails.of_eq (held_rest_congr d (W2 m d tab) (W3 m d tab') (W3_off m d tab tab')).symm) $$ Hrest
  ihave Hheld := (Entails.of_eq (StableHlo.held_sub_split (SparseCore.T d) T3_sub (W3 m d tab')).symm) $$ [H3 Hrest']
  · isplitl [H3]; · iexact H3
    iexact Hrest'
  -- the transposes of the projection and of the item table
  iapply (wp_hlo_within 𝒱 (SparseCore.T d) none Set.univ (op := opT4 (F := F)) (S := Pipeline.ucRefs τ sig) hT4 (V := W3 m d tab')) $$ [Hb Hheld]
  · isplitl [Hb]; · iexact Hb
    iexact Hheld
  iintro ⟨Hb, Hheld⟩
  rw [wp_ret]; imodintro
  iapply (wp_hlo_within 𝒱 (SparseCore.T d) none Set.univ (op := opT5 (F := F)) (S := Pipeline.ucRefs τ sig) hT5) $$ [Hb Hheld]
  · isplitl [Hb]; · iexact Hb
    iexact Hheld
  iintro ⟨Hb, Hheld⟩
  rw [wp_ret]; imodintro
  -- region 1
  ihave Hst := (Entails.of_eq (show ((K (F := F)).tcSt EH d (((0 : Fin 1) : ℕ) + 1) : sProp 𝕄) = (K (F := F)).tcSt EH d 1 from rfl)) $$ Hst
  ihave Hst' := (Entails.of_eq (tcSt_open (F := F) d 1)) $$ Hst
  icases Hst' with ⟨⟨%Wu, %hWu, HO⟩, Hstr⟩
  iapply (wp_region1 (rdats (W1 m d) (W4 m d tab') 0 ((K (F := F)).Otc d 1) ∅ (↑Wu))
    (reg1 (W1 m d) (W4 m d tab') 0 ((K (F := F)).Otc d 1) ∅ (↑Wu) (Otc_none d 1)) d _)
  isplitl [Hlev]; · iexact Hlev
  isplitl [Hb]; · iexact Hb
  isplitl [Hheld HO]
  · rw [reg1_pre]
    isplitl [Hheld]; · iexact Hheld
    iexists Wu; isplitr; · ipureintro; exact subset_rfl
    iexact HO
  isplitl [Hg1]; · iexact Hg1
  isplitl [Ht1]; · iexact Ht1
  iintro ⟨Hb, Hpost⟩
  ihave Hp := (Entails.of_eq (reg1_post (W1 m d) (W4 m d tab') 0 ((K (F := F)).Otc d 1) ∅ (↑Wu) (Otc_none d 1) d)) $$ Hpost
  icases Hp with ⟨%G, %hG, Hheld, %Wu', %hWu', HO⟩
  have hWB1 : (K (F := F)).WBelow (SparseCore.T d) Wu' (8 * 1) := wbelow_grow hWu (waitPairs_none cfg2) hWu'
  have hRsc : Rsc m d tab' G :=
    (Pipeline.RDat.arrAt_congr (rd := rdat1 d (fun b => W4 m d tab' b) ((K (F := F)).Otc d 1) ↑Wu) (rd' := rdat1 d (fun b => W4 m d tab' b) 0 Set.univ)
      (w := 3) rfl rfl cfg2.N G).mpr hG
  ihave Hheld := (Entails.of_eq (show (held (d.tc : Thread nD τ) (Pipeline.ucRefs τ sig) (Function.update (W4 m d tab') (Proc.devRef .tc main_v6) G) : sProp 𝕄)
      = held (SparseCore.T d) (Pipeline.ucRefs τ sig) (W5 m d tab' G) from rfl)) $$ Hheld
  -- the last transpose
  iapply (wp_hlo_within 𝒱 (SparseCore.T d) none Set.univ (op := opT7 (F := F)) (S := Pipeline.ucRefs τ sig) hT7 (V := W5 m d tab' G)) $$ [Hb Hheld]
  · isplitl [Hb]; · iexact Hb
    iexact Hheld
  iintro ⟨Hb, Hheld⟩
  rw [wp_ret]; imodintro; imodintro
  isplitl [HO Hstr]
  · iapply (Entails.of_eq (tcSt_open (F := F) d 1).symm)
    isplitl [HO]
    · iexists Wu'; isplitr; · ipureintro; exact hWB1
      iexact HO
    iexact Hstr
  unfold FIN
  iexists tab', G
  isplitr; · ipureintro; exact ⟨htab', hRsc⟩
  iexact Hheld

end Cert.Kernel.Main

end
-- ==== Proof.TileValueB.lean ====
/-
  The value a vector subcore's block of the result holds after its three copies: row y of the block is the
  table's row named by the user word the subcore fetched at position y, and that word is the requested
  user of the block's row — so the block agrees with the whole-array gather on its elements.
-/
import proofs.«210177_g34866544509008_cont_8to1_b_1726_19_alg».proof.Proof.TileDefsB
import Idealize.ShloMosaic.Lib.Writes

noncomputable section

namespace Cert.Kernel.Tile

open Cert.Kernel Cert.Kernel.Gen Cert.Kernel.Setup

open Idealize.ShloMosaic Idealize.ShloMosaic.ValueIdx
open Idealize.ShloMosaic.SparseCore (S V T)

variable {F : FTy → Type}

/-- The table as the gather names its source: the whole array, sliced at offset 0 to its full extent. -/
abbrev tSl : Memref sig .scVector .hbm S100000x128 .f32 :=
  (tV).slice (Rect.unit (s := S100000x128) ![0, 0] S100000x128.size inb_S100000x128_S100000x128_0_0) (fun _ => rfl)

section Value

variable (d : Dev nD) (L : grid1.Coords)

/-- Position x of a grid point's 32 user words is word (64·subcore + 32·core + x) of the list. -/
theorem uSl_emb_val (x : S32.Idx) : (((uSl L).view.emb x) 0).val = 64 * (L 1).val + 32 * (L 0).val + (x 0).val := by
  show ((Rect.unit (s := S1024) (k1_off1 L) S32.size (k1_off1_inb L)).emb x 0).val = _
  rw [Rect.emb_apply, Rect.off_unit, Rect.stride_unit]
  have h : k1_off1 L 0 = 64 * (L 1).val + 32 * (L 0).val := by rw [k1_off1_eq]; rfl
  omega
/-- Row y 0, column y 1 of a grid point's block is row (64·subcore + 32·core + y 0), column y 1 of the result. -/
theorem oSl_emb_val0 (y : S32x128.Idx) : (((oSl L).view.emb y) 0).val = 64 * (L 1).val + 32 * (L 0).val + (y 0).val := by
  show ((Rect.unit (s := S1024x128) (k1_off2 L) S32x128.size (k1_off2_inb L)).emb y 0).val = _
  rw [Rect.emb_apply, Rect.off_unit, Rect.stride_unit]
  have h : k1_off2 L 0 = 64 * (L 1).val + 32 * (L 0).val := by rw [k1_off2_eq]; rfl
  omega
theorem oSl_emb_val1 (y : S32x128.Idx) : (((oSl L).view.emb y) 1).val = (y 1).val := by
  show ((Rect.unit (s := S1024x128) (k1_off2 L) S32x128.size (k1_off2_inb L)).emb y 1).val = _
  rw [Rect.emb_apply, Rect.off_unit, Rect.stride_unit]
  have h : k1_off2 L 1 = 0 := by rw [k1_off2_eq]; rfl
  omega
theorem tSl_emb (z : S100000x128.Idx) : (tSl).view.emb z = z := by
  funext a; apply Fin.ext
  show ((Rect.unit (s := S100000x128) ![0, 0] S100000x128.size inb_S100000x128_S100000x128_0_0).emb z a).val = _
  rw [Rect.emb_apply, Rect.off_unit, Rect.stride_unit]
  match a with
  | ⟨0, _⟩ => simp
  | ⟨1, _⟩ => simp

/-- The index a gathered row's element is read at: the row its word names, the element's own column. -/
theorem gather_idx (idx : S32.Idx → Elt F .i32) (hn : S32.numel = S32x128.size gathers_S100000x128_S32x128.axis')
    (hin : ∀ x, (idx x).toNat < S100000x128.size gathers_S100000x128_S32x128.axis) (y : S32x128.Idx) :
    gathers_S100000x128_S32x128.idx (SparseCore.rows idx hn hin) y = ix2 ⟨(idx (ix1 (y 0))).toNat, hin _⟩ (y 1) := by
  funext a; apply Fin.ext
  match a with
  | ⟨0, _⟩ =>
    show (gathers_S100000x128_S32x128.idx (SparseCore.rows idx hn hin) y gathers_S100000x128_S32x128.axis).val = _
    rw [Shape.Gathers.idx_axis]
    show (idx (S32.rowMajor.symm ((y 0).cast hn.symm))).toNat = (idx (ix1 (y 0))).toNat
    congr 2
    apply S32.rowMajor.injective
    rw [Equiv.apply_symm_apply]
    apply Fin.ext
    rw [Shape.rowMajor_val_one]
    rfl
  | ⟨1, _⟩ =>
    exact Shape.Gathers.idx_of_ne gathers_S100000x128_S32x128 (SparseCore.rows idx hn hin) y ⟨1, by decide⟩ Nat.one_ne_zero

/-- What the result's block holds after the three copies, at its own elements: the gathered rows. -/
theorem out_value (u : Buf (Elt F) (uLoc d)) (hpre : ∀ b : Fin 1024, (u (ix1 b)).toNat < 100000)
    (tab : Buf (Elt F) (tLoc d)) (fo : (oSl L).view.ty.Contents (Elt F)) (fr : (sR).view.ty.Contents (Elt F))
    (idx : S32.Idx → Elt F .i32) (hidx : ∀ x, idx x = u ((uSl L).view.emb x))
    (hn : S32.numel = S32x128.size gathers_S100000x128_S32x128.axis')
    (hin : ∀ x, (idx x).toNat < S100000x128.size gathers_S100000x128_S32x128.axis) :
    ∀ i ∈ (oSl L).view.set,
      (oSl L).view.writes (Elt F) fo [⟨Rect.whole S32x128, ReadAs.same.apply ((sR).view.read (Elt F) ((sR).view.writes (Elt F) fr
        [⟨Rect.whole S32x128, SparseCore.gatherPayload gathers_S100000x128_S32x128 ((tSl).view.read (Elt F) tab) (SparseCore.rows idx hn hin)⟩]))⟩] i
        = gathered tab u i := by
  intro i hi
  obtain ⟨y, -, rfl⟩ := Finset.mem_map.mp hi
  have e1 := View.read_writes_cons_emb (oSl L).view fo (Rect.whole S32x128)
    (ReadAs.same.apply ((sR).view.read (Elt F) ((sR).view.writes (Elt F) fr
        [⟨Rect.whole S32x128, SparseCore.gatherPayload gathers_S100000x128_S32x128 ((tSl).view.read (Elt F) tab) (SparseCore.rows idx hn hin)⟩]))) [] y
  rw [Rect.emb_whole_apply, View.read_apply, cast_eq] at e1
  refine e1.trans ?_
  have e2 := View.read_writes_cons_emb (sR).view fr (Rect.whole S32x128)
    (SparseCore.gatherPayload gathers_S100000x128_S32x128 ((tSl).view.read (Elt F) tab) (SparseCore.rows idx hn hin)) [] y
  rw [Rect.emb_whole_apply] at e2
  refine e2.trans ?_
  unfold SparseCore.gatherPayload gathered
  rw [View.read_apply, cast_eq, tSl_emb, gather_idx]
  congr 1
  funext a; apply Fin.ext
  match a with
  | ⟨0, _⟩ =>
    show (idx (ix1 (y 0))).toNat = (Cert.Spec.rowOf (u (ix1 (((oSl L).view.emb y) 0)))).val
    refine Eq.trans ?_ (Cert.Spec.rowOf_val_of_lt (hpre _)).symm
    rw [hidx]
    congr 2
    funext b; apply Fin.ext
    match b with
    | ⟨0, _⟩ => exact (uSl_emb_val L _).trans (oSl_emb_val0 L y).symm
  | ⟨1, _⟩ => exact (oSl_emb_val1 L y).symm

end Value

end Cert.Kernel.Tile

end
-- ==== Proof.TileBodyB.lean ====
/-
  The row-gather kernel's body on one vector subcore, at a symbolic grid point: the subcore fetches its 32
  user words, gathers the 32 table rows they name into its row scratch, and copies the scratch to its block
  of the result. Each of the three copies completes on a semaphore of its own before the next is issued, so
  no schedule is needed; the user words name rows of the table by the certificate's precondition.
-/
import proofs.«210177_g34866544509008_cont_8to1_b_1726_19_alg».proof.Proof.TileValueB
import Idealize.ShloMosaic.Lib.Tactic

noncomputable section

namespace Cert.Kernel.Tile

open Cert.Kernel Cert.Kernel.Gen Cert.Kernel.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid1.Coords)

abbrev cV (L : grid1.Coords) : Fin τ.nSC := (L 0).castLE hcore1
abbrev jV (L : grid1.Coords) : Fin τ.nSub := (L 1).castLE hsub1

/-- The subcore's three DMA semaphores: the fetch's, the gather's, the write-out's. -/
abbrev cA (d : Dev nD) (c : Fin τ.nSC) (i : Fin τ.nSub) : GSem nD τ sig := (V d c i, .dma cc1_scoped0.sem)
abbrev cG (d : Dev nD) (c : Fin τ.nSC) (i : Fin τ.nSub) : GSem nD τ sig := (V d c i, .dma cc1_scratch2.sem)
abbrev cB (d : Dev nD) (c : Fin τ.nSC) (i : Fin τ.nSub) : GSem nD τ sig := (V d c i, .dma cc1_scoped1.sem)

theorem ownSems0_V :
    (ownSems0 (V d (cV L) (jV L)) : sProp 𝕄)
      = iprop(semVal (cA d (cV L) (jV L)) 0 ∗ semVal (cG d (cV L) (jV L)) 0 ∗ semVal (cB d (cV L) (jV L)) 0
          ∗ bigSep ((((ownCells (V d (cV L) (jV L))).erase (cA d (cV L) (jV L))).erase (cG d (cV L) (jV L))).erase (cB d (cV L) (jV L)))
              fun g => semVal g 0) := by
  unfold SparseCore.Cfg.ownSems0
  rw [SparseCore.bigSep_erase' ((mem_ownCells (g := cA d (cV L) (jV L))).mpr ⟨rfl, by
      show (SemLoc.dma cc1_scoped0.sem : SemLoc sig).isScoped .scVector = true; decide⟩),
    SparseCore.bigSep_erase' (Finset.mem_erase.mpr ⟨by simp [cA, cG]; decide, (mem_ownCells (g := cG d (cV L) (jV L))).mpr ⟨rfl, by
      show (SemLoc.dma cc1_scratch2.sem : SemLoc sig).isScoped .scVector = true; decide⟩⟩),
    SparseCore.bigSep_erase' (Finset.mem_erase.mpr ⟨by simp [cG, cB]; decide, Finset.mem_erase.mpr ⟨by simp [cA, cB]; decide,
      (mem_ownCells (g := cB d (cV L) (jV L))).mpr ⟨rfl, by show (SemLoc.dma cc1_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The arrays as the subcore's memrefs address them are the TensorCore's arrays. -/
theorem pts_t (q : PosShare TreeShare) (f : Buf (Elt F) (tLoc d)) :
    ((tV).view.loc (V d (cV L) (jV L)) ↦{q} f : sProp 𝕄) = tLoc d ↦{q} f := rfl
theorem pts_u (q : PosShare TreeShare) (f : Buf (Elt F) (uLoc d)) :
    ((uV).view.loc (V d (cV L) (jV L)) ↦{q} f : sProp 𝕄) = uLoc d ↦{q} f := rfl
theorem pts_o (f : Buf (Elt F) (oLoc d)) :
    ((oSl L).view.loc (V d (cV L) (jV L)) ↦[(oSl L).view.set]{fullShare} f : sProp 𝕄) = oLoc d ↦[oSet L]{fullShare} f := rfl
theorem pts_sI (f : Buf (Elt F) ((V d (cV L) (jV L)).loc cc1_scratch0)) :
    ((sI).view.loc (V d (cV L) (jV L)) ↦{fullShare} f : sProp 𝕄) = (V d (cV L) (jV L)).loc cc1_scratch0 ↦{fullShare} f := rfl
theorem pts_sR (f : Buf (Elt F) ((V d (cV L) (jV L)).loc cc1_scratch1)) :
    ((sR).view.loc (V d (cV L) (jV L)) ↦{fullShare} f : sProp 𝕄) = (V d (cV L) (jV L)).loc cc1_scratch1 ↦{fullShare} f := rfl

variable [FloatOps F]

theorem tile_body (hF : (K (F := F)).Facts) (hpre : ∀ (d : Dev nD) (b : Fin 1024), (m (uLoc d) (ix1 b)).toNat < 100000)
    (O : CellTallies nD τ sig (HIx 1)) (W : Waits sig (HIx 1)) (hO : ∀ g, O g none = 0) :
    iprop(levAts (K (F := F)).L (K (F := F)).lev ∗ emp ∗ tileGo m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L tV (Memref.isWhole_whole _) uV (Memref.isWhole_whole _) oV (Memref.isWhole_whole _)
            sI (Memref.isWhole_whole _) sR (Memref.isWhole_whole _) cc1_scratch2 cc1_scoped0 cc1_scoped1)
          fun _ => iprop(tileTd m d L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  unfold tileGo
  iintro ⟨#Hlv, -, ⟨%tab, Ht, Hu, %fo, Ho⟩, ⟨⟨%fs, Hs⟩, ⟨%fr, Hr⟩, Hbufs⟩, ⟨HsemA, HsemG, HsemB, Hsems⟩, HO⟩
  ihave Hmw := ((K (F := F)).mayWaits_none (thr := V d (cV L) (jV L)) hO) $$ Hlv
  ihave Ht' := (Entails.of_eq (pts_t (F := F) d L _ _).symm) $$ Ht
  ihave Hu' := (Entails.of_eq (pts_u (F := F) d L _ _).symm) $$ Hu
  ihave Ho' := (Entails.of_eq (pts_o (F := F) d L _).symm) $$ Ho
  ihave Hs' := (Entails.of_eq (pts_sI (F := F) d L _).symm) $$ Hs
  ihave Hr' := (Entails.of_eq (pts_sR (F := F) d L _).symm) $$ Hr
  have hw : ∀ g : Buf (Elt F) ((sI).view.loc (V d (cV L) (jV L))),
      (sI).view.read (Elt F) ((sI).view.write (Elt F) g (ReadAs.same.apply ((uSl L).view.read (Elt F) (m (uLoc d)))) Finset.univ)
        = (uSl L).view.read (Elt F) (m (uLoc d)) := fun g => by
    have e : (sI).view.write (Elt F) g ((uSl L).view.read (Elt F) (m (uLoc d))) Finset.univ = (uSl L).view.read (Elt F) (m (uLoc d)) :=
      View.write_whole_univ _ _ _
    show (sI).view.read (Elt F) ((sI).view.write (Elt F) g ((uSl L).view.read (Elt F) (m (uLoc d))) Finset.univ) = _
    rw [e]; rfl
  have hin : ∀ (g : Buf (Elt F) ((sI).view.loc (V d (cV L) (jV L)))) (x : S32.Idx),
      ((sI).view.read (Elt F) ((sI).view.write (Elt F) g
          (ReadAs.same.apply ((uSl L).view.read (Elt F) (m (uLoc d)))) Finset.univ) x).toNat
        < S100000x128.size gathers_S100000x128_S32x128.axis := by
    intro g x
    rw [hw g]
    show ((uSl L).view.read (Elt F) (m (uLoc d)) x).toNat < 100000
    rw [View.read_apply, cast_eq, eq_ix1 ((uSl L).view.emb x)]
    exact hpre d _
  sl_exec
  unfold tile_body.sl.dma0_1 tile_body.sl.gather1 tile_body.sl.dma0
  sl_step
  ihave Ho2 := (Entails.of_eq (pointsTo_congr (out_value (F := F) d L (m (uLoc d)) (hpre d) tab fo fr _
    (fun x => (congrFun (hw fs) x).trans (by rw [View.read_apply, cast_eq])) _ _))) $$ Ho'
  unfold tileTd
  isplitl [Ht' Hu' Ho2]
  · iexists tab
    isplitl [Ht']; · iapply (Entails.of_eq (pts_t (F := F) d L _ _)); iexact Ht'
    isplitl [Hu']; · iapply (Entails.of_eq (pts_u (F := F) d L _ _)); iexact Hu'
    iapply (Entails.of_eq (pts_o (F := F) d L _)); iexact Ho2
  isplitl [Hs' Hr' Hbufs]
  · isplitl [Hs']; · iexists _; iapply (Entails.of_eq (pts_sI (F := F) d L _)); iexact Hs'
    isplitl [Hr']; · iexists _; iapply (Entails.of_eq (pts_sR (F := F) d L _)); iexact Hr'
    iexact Hbufs
  isplitl [HsemA HsemG HsemB Hsems]
  · isplitl [HsemA]; · iexact HsemA
    isplitl [HsemG]; · iexact HsemG
    isplitl [HsemB]; · iexact HsemB
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Tile

/-! ## The launch theorem's obligation -/

variable [FloatOps F]

theorem defs₀_vector (c : Fin τ.nSC) (s : Fin τ.nSub) :
    defs₀ (F := F) (.scVector c s) 1 ()
      = SparseCore.onTile hcore1 hsub1 (fun c s => cc1_gather_kernel (coordsV c s)
          tV (Memref.isWhole_whole _) uV (Memref.isWhole_whole _) oV (Memref.isWhole_whole _)
          sI (Memref.isWhole_whole _) sR (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (R : (d : Dev nD) → Buf (Elt F) (tLoc d) → Prop)

theorem tileObl (hpre : ∀ (d : Dev nD) (b : Fin 1024), (m (uLoc d) (ix1 b)).toNat < 100000) :
    (K (F := F)).TileObl (D (F := F)) 𝒱 (P m R) v₀ 0 := by
  intro d c i O W hO _ _
  simp only [show (P m R).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m d (coordsV ⟨_, hc.1⟩ ⟨_, hc.2⟩) facts hpre O W hO).trans (wp_mono frame _ _ fun _ => obl_post)

end Cert.Kernel.Tile

end
-- ==== Proof.TileSplitB.lean ====
/-
  How the row-gather call's operands split among the processors and come together again.

  The 32 blocks of 32 rows (block of SparseCore c, subcore s: rows 64 s + 32 c and the 31 after) are
  pairwise disjoint and cover the 1024 rows, so the result splits into them and is their join. The table
  and the list of users split by read shares: the full share into two halves, a half into sixteen read
  tokens and a remainder the split keeps until the tokens come back. Every holder of a share of the table
  names contents of its own; holders of one location agree, which identifies them when shares are joined.
-/
import proofs.«210177_g34866544509008_cont_8to1_b_1726_19_alg».proof.Proof.TileDefsB
import Idealize.ShloMosaic.Lib.Tactic

noncomputable section

namespace Cert.Kernel.Tile

open Cert.Kernel Cert.Kernel.Gen Cert.Kernel.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)

variable {F : FTy → Type}

local notation "𝕄" => MT nD τ sig (HIx 1) (Elt F) ℕ UU ℕ

/-! ## The blocks: disjoint, covering -/

theorem oSet_eq (L : grid1.Coords) : oSet L = (Rect.unit (s := S1024x128) (k1_off2 L) S32x128.size (k1_off2_inb L)).set := by
  show ((View.whole (main_v3_scv : Ref sig .scVector)).slice (Rect.unit (s := S1024x128) (k1_off2 L) S32x128.size (k1_off2_inb L))).set = _
  rw [View.set_slice]; exact Finset.map_refl

/-- A block is the rows from 64·subcore + 32·core, 32 of them, every column. -/
theorem mem_oSet (L : grid1.Coords) (i : S1024x128.Idx) :
    i ∈ oSet L ↔ 64 * (L 1).val + 32 * (L 0).val ≤ (i 0).val ∧ (i 0).val < 64 * (L 1).val + 32 * (L 0).val + 32 := by
  rw [oSet_eq, Rect.mem_set_unit]
  have h0 : k1_off2 L 0 = 64 * (L 1).val + 32 * (L 0).val := by rw [k1_off2_eq]; rfl
  have h1 : k1_off2 L 1 = 0 := by rw [k1_off2_eq]; rfl
  have s0 : S32x128.size 0 = 32 := rfl
  have s1 : S32x128.size 1 = 128 := rfl
  have hi1 : (i 1).val < 128 := (i 1).isLt
  constructor
  · intro h; have := h 0; omega
  · intro h a
    match a with
    | ⟨0, _⟩ => show k1_off2 L 0 ≤ (i 0).val ∧ (i 0).val < k1_off2 L 0 + S32x128.size 0; omega
    | ⟨1, _⟩ => show k1_off2 L 1 ≤ (i 1).val ∧ (i 1).val < k1_off2 L 1 + S32x128.size 1; omega

abbrev blockOf (cs : Fin 2 × Fin 16) : Finset S1024x128.Idx := oSet (coordsV cs.1 cs.2)

theorem blocks_disjoint : ∀ t ∈ (Finset.univ : Finset (Fin 2 × Fin 16)), ∀ t' ∈ (Finset.univ : Finset (Fin 2 × Fin 16)), t ≠ t' →
    Disjoint (blockOf t) (blockOf t') := by
  intro t _ t' _ hne
  refine Finset.disjoint_left.mpr fun i hi hi' => hne ?_
  have h := (mem_oSet _ i).mp hi
  have h' := (mem_oSet _ i).mp hi'
  have c1 : (coordsV t.1 t.2 0).val = t.1.val := rfl
  have c2 : (coordsV t.1 t.2 1).val = t.2.val := rfl
  have c1' : (coordsV t'.1 t'.2 0).val = t'.1.val := rfl
  have c2' : (coordsV t'.1 t'.2 1).val = t'.2.val := rfl
  rw [c1, c2] at h; rw [c1', c2'] at h'
  have := t.1.isLt; have := t'.1.isLt
  exact Prod.ext (Fin.ext (by omega)) (Fin.ext (by omega))

theorem blocks_cover : (Finset.univ : Finset (Fin 2 × Fin 16)).biUnion blockOf = Finset.univ := by
  refine Finset.eq_univ_iff_forall.mpr fun i => Finset.mem_biUnion.mpr ?_
  have hi : (i 0).val < 1024 := (i 0).isLt
  refine ⟨(⟨((i 0).val % 64) / 32, by omega⟩, ⟨(i 0).val / 64, by omega⟩), Finset.mem_univ _, (mem_oSet _ i).mpr ?_⟩
  show 64 * ((i 0).val / 64) + 32 * (((i 0).val % 64) / 32) ≤ (i 0).val ∧ (i 0).val < 64 * ((i 0).val / 64) + 32 * (((i 0).val % 64) / 32) + 32
  omega

/-- The whole result is its 32 blocks, at one contents. -/
theorem o_blocks (d : Dev nD) (f : Buf (Elt F) (oLoc d)) :
    (oLoc d ↦{fullShare} f : sProp 𝕄)
      = iprop((bigSep Finset.univ fun s : Fin 16 => oLoc d ↦[oSet (coordsV (0 : Fin 2) s)]{fullShare} f)
          ∗ (bigSep Finset.univ fun s : Fin 16 => oLoc d ↦[oSet (coordsV (1 : Fin 2) s)]{fullShare} f)) := by
  have e : (oLoc d ↦{fullShare} f : sProp 𝕄) = bigSep Finset.univ fun t : Fin 2 × Fin 16 => oLoc d ↦[blockOf t]{fullShare} f := by
    rw [← pointsTo_biUnion Finset.univ (ℓ := oLoc d) blockOf blocks_disjoint, blocks_cover]
  rw [e, bigSep_univ_prod, bigSep_univ_two]

/-! ## Holders of one location agree -/

theorem agree_keep {ℓ : Loc nD τ sig} {q₁ q₂ : PosShare TreeShare} {f g : Buf (Elt F) ℓ} :
    iprop((ℓ ↦{q₁} f) ∗ ℓ ↦{q₂} g) ⊢ (iprop(⌜f = g⌝ ∗ (ℓ ↦{q₁} f) ∗ ℓ ↦{q₂} g) : sProp 𝕄) := by
  refine pure_elim (f = g) (pointsTo_agree.trans (BI.pure_mono fun hh => funext fun i => (hh i (by simp)).1)) fun e => ?_
  iintro ⟨H1, H2⟩
  isplitr; · ipureintro; exact e
  isplitl [H1]; · iexact H1
  iexact H2

/-- A holder at `f` beside a family of holders, each at contents of its own: all are at `f`. -/
theorem agree_family {I : Type} [DecidableEq I] (s : Finset I) {ℓ : Loc nD τ sig} (q₀ : PosShare TreeShare) (q : I → PosShare TreeShare)
    (f : Buf (Elt F) ℓ) (Ψ : I → Buf (Elt F) ℓ → sProp 𝕄) :
    iprop((ℓ ↦{q₀} f) ∗ bigSep s fun i => iprop(∃ g, (ℓ ↦{q i} g) ∗ Ψ i g))
      ⊢ (iprop((ℓ ↦{q₀} f) ∗ bigSep s fun i => iprop((ℓ ↦{q i} f) ∗ Ψ i f)) : sProp 𝕄) := by
  induction s using Finset.induction_on with
  | empty => rw [bigSep_empty, bigSep_empty]
  | insert i s hi ih =>
    have e1 : bigSep (insert i s) (fun i => iprop(∃ g, (ℓ ↦{q i} g) ∗ Ψ i g))
        = iprop((∃ g, (ℓ ↦{q i} g) ∗ Ψ i g) ∗ bigSep s fun i => iprop(∃ g, (ℓ ↦{q i} g) ∗ Ψ i g)) := bigSep_insert hi
    have e2 : bigSep (insert i s) (fun i => iprop((ℓ ↦{q i} f) ∗ Ψ i f))
        = iprop(((ℓ ↦{q i} f) ∗ Ψ i f) ∗ bigSep s fun i => iprop((ℓ ↦{q i} f) ∗ Ψ i f)) := bigSep_insert hi
    rw [e1, e2]
    iintro ⟨H0, ⟨%g, Hg, HΨ⟩, Hs⟩
    ihave H := agree_keep $$ [H0 Hg]
    · isplitl [H0]; · iexact H0
      iexact Hg
    icases H with ⟨%e, H0, Hg⟩
    subst e
    ihave H' := ih $$ [H0 Hs]
    · isplitl [H0]; · iexact H0
      iexact Hs
    icases H' with ⟨H0, Hs⟩
    isplitl [H0]; · iexact H0
    isplitl [Hg HΨ]
    · isplitl [Hg]; · iexact Hg
      iexact HΨ
    iexact Hs

/-! ## The shares -/

theorem qC_zero : qC 0 = fullShare.left := if_pos rfl
theorem qC_one : qC 1 = fullShare.right := if_neg Nat.one_ne_zero

variable (m : (ℓ : Loc nD τ sig) → Buf (Elt F) ℓ)
variable (R : (d : Dev nD) → Buf (Elt F) (tLoc d) → Prop)

omit m R in
theorem split3 {I : Type} (s : Finset I) (A B C : I → sProp 𝕄) :
    bigSep s (fun i => iprop(A i ∗ B i ∗ C i)) ⊢ iprop(bigSep s A ∗ bigSep s B ∗ bigSep s C) := by
  rw [bigSep_sep', bigSep_sep']
omit m R in
theorem join3 {I : Type} (s : Finset I) (A B C : I → sProp 𝕄) :
    iprop(bigSep s A ∗ bigSep s B ∗ bigSep s C) ⊢ bigSep s (fun i => iprop(A i ∗ B i ∗ C i)) := by
  rw [bigSep_sep', bigSep_sep']

theorem go_one (d : Dev nD) (c : Fin 2) (i : Fin 16) (tab : Buf (Elt F) (tLoc d)) :
    iprop((tLoc d ↦{shareTok (qC c.val) 16 i} tab) ∗ (uLoc d ↦{shareTok (qC c.val) 16 i} m (uLoc d))
        ∗ ∃ f, oLoc d ↦[oSet (coordsV c i)]{fullShare} f)
      ⊢ (tileGo m d (coordsV c i) : sProp 𝕄) := by
  unfold tileGo
  iintro ⟨Ht, Hu, Ho⟩
  iexists tab
  isplitl [Ht]; · iexact Ht
  isplitl [Hu]; · iexact Hu
  iexact Ho

omit m R in
theorem some_of {ℓ : Loc nD τ sig} (I : Finset (Idx ℓ)) (f : Buf (Elt F) ℓ) :
    (ℓ ↦[I]{fullShare} f : sProp 𝕄) ⊢ iprop(∃ f, ℓ ↦[I]{fullShare} f) := by
  iintro H; iexists f; iexact H

omit m R in
theorem blocks_some (d : Dev nD) (c : Fin 2) (f : Buf (Elt F) (oLoc d)) :
    (bigSep Finset.univ fun s : Fin 16 => oLoc d ↦[oSet (coordsV c s)]{fullShare} f : sProp 𝕄)
      ⊢ bigSep Finset.univ fun s : Fin 16 => iprop(∃ f, oLoc d ↦[oSet (coordsV c s)]{fullShare} f) :=
  bigSep_mono fun s _ => some_of _ f

/-- The sixteen subcores' operands from the tokens of a SparseCore's shares and its blocks. -/
theorem go_intro (d : Dev nD) (c : Fin 2) (tab : Buf (Elt F) (tLoc d)) :
    iprop((bigSep Finset.univ fun i : Fin 16 => tLoc d ↦{shareTok (qC c.val) 16 i} tab)
        ∗ (bigSep Finset.univ fun i : Fin 16 => uLoc d ↦{shareTok (qC c.val) 16 i} m (uLoc d))
        ∗ bigSep Finset.univ fun i : Fin 16 => iprop(∃ f, oLoc d ↦[oSet (coordsV c i)]{fullShare} f))
      ⊢ (bigSep Finset.univ fun i : Fin 16 => tileGo m d (coordsV c i) : sProp 𝕄) := by
  exact (join3 _ _ _ _).trans (bigSep_mono fun i _ => go_one m d c i tab)

/-- A SparseCore's results from the remainders of its shares and its sixteen subcores' results. -/
theorem dn_intro (d : Dev nD) (c : Fin 2) (tab : Buf (Elt F) (tLoc d)) (hR : R d tab) :
    iprop((tLoc d ↦{shareDrop (qC c.val) 16} tab) ∗ (uLoc d ↦{shareDrop (qC c.val) 16} m (uLoc d))
        ∗ bigSep Finset.univ fun i : Fin 16 => tileTd m d (coordsV c i))
      ⊢ (coreDn m R d c : sProp 𝕄) := by
  unfold coreDn
  iintro ⟨Htr, Hur, Htd⟩
  ihave H := (agree_family (F := F) Finset.univ (shareDrop (qC c.val) 16) (fun i : Fin 16 => shareTok (qC c.val) 16 i) tab
      (fun i g => iprop((uLoc d ↦{shareTok (qC c.val) 16 i} m (uLoc d)) ∗ oLoc d ↦[oSet (coordsV c i)]{fullShare} gathered g (m (uLoc d))))) $$ [Htr Htd]
  · isplitl [Htr]; · iexact Htr
    iexact Htd
  icases H with ⟨Htr, Htd⟩
  ihave H2 := (split3 (F := F) _ _ _ _) $$ Htd
  icases H2 with ⟨Hts, Hus, Hos⟩
  iexists tab
  isplitr; · ipureintro; exact hR
  isplitl [Htr Hts]
  · iapply (Transfers.pointsTo_toks_join (qC c.val) 16)
    isplitl [Htr]; · iexact Htr
    iexact Hts
  isplitl [Hur Hus]
  · iapply (Transfers.pointsTo_toks_join (qC c.val) 16)
    isplitl [Hur]; · iexact Hur
    iexact Hus
  iexact Hos

theorem vecSplit' : (K (F := F)).VecSplit' (P m R) 0 := by
  intro d c
  show coreSt m R d c ⊢ |={Set.univ}=> iprop((bigSep Finset.univ fun i : Fin 16 => tileGo m d (coordsV c i))
      ∗ ((bigSep Finset.univ fun i : Fin 16 => tileTd m d (coordsV c i)) -∗ coreDn m R d c))
  unfold coreSt
  iintro ⟨%tab, %hR, Ht, Hu, Ho⟩
  ihave Ht2 := (Transfers.pointsTo_toks_split (qC c.val) 16) $$ Ht
  icases Ht2 with ⟨Htr, Hts⟩
  ihave Hu2 := (Transfers.pointsTo_toks_split (qC c.val) 16) $$ Hu
  icases Hu2 with ⟨Hur, Hus⟩
  imodintro
  isplitl [Hts Hus Ho]
  · iapply (go_intro m d c tab)
    isplitl [Hts]; · iexact Hts
    isplitl [Hus]; · iexact Hus
    iexact Ho
  iintro Htd
  iapply (dn_intro m R d c tab hR)
  isplitl [Htr]; · iexact Htr
  isplitl [Hur]; · iexact Hur
  iexact Htd

theorem vecSplit : (K (F := F)).VecSplit (P m R) 0 := SparseCore.Cfg.VecSplit.of_plain (vecSplit' m R)

/-! ## The call's operands and results, whole -/

theorem st0_intro (d : Dev nD) :
    iprop((∃ tab, ⌜R d tab⌝ ∗ (tLoc d ↦{fullShare} tab)) ∗ (uLoc d ↦{fullShare} m (uLoc d)) ∗ (∃ f, oLoc d ↦{fullShare} f))
      ⊢ (bigSep Finset.univ fun c : Fin ((K (F := F)).nCore 0) => (P m R).st 0 d c : sProp 𝕄) := by
  rw [show (bigSep Finset.univ fun c : Fin ((K (F := F)).nCore 0) => (P m R).st 0 d c : sProp 𝕄)
      = iprop(coreSt m R d (0 : Fin 2) ∗ coreSt m R d (1 : Fin 2)) from bigSep_univ_two _]
  unfold coreSt
  iintro ⟨⟨%tab, %hR, Ht⟩, Hu, ⟨%f, Ho⟩⟩
  ihave Ht2 := (pointsTo_share (PosShare.mem_left_op_right fullShare)).1 $$ Ht
  icases Ht2 with ⟨Htl, Htr⟩
  ihave Hu2 := (pointsTo_share (PosShare.mem_left_op_right fullShare)).1 $$ Hu
  icases Hu2 with ⟨Hul, Hur⟩
  ihave Ho2 := (Entails.of_eq (o_blocks (F := F) d f)) $$ Ho
  icases Ho2 with ⟨Ho0, Ho1⟩
  isplitl [Htl Hul Ho0]
  · iexists tab
    isplitr; · ipureintro; exact hR
    isplitl [Htl]; · rw [show qC (0 : Fin 2).val = fullShare.left from qC_zero]; iexact Htl
    isplitl [Hul]; · rw [show qC (0 : Fin 2).val = fullShare.left from qC_zero]; iexact Hul
    iapply (blocks_some (F := F) d (0 : Fin 2) f); iexact Ho0
  · iexists tab
    isplitr; · ipureintro; exact hR
    isplitl [Htr]; · rw [show qC (1 : Fin 2).val = fullShare.right from qC_one]; iexact Htr
    isplitl [Hur]; · rw [show qC (1 : Fin 2).val = fullShare.right from qC_one]; iexact Hur
    iapply (blocks_some (F := F) d (1 : Fin 2) f); iexact Ho1

theorem dn0_elim (d : Dev nD) :
    (bigSep Finset.univ fun c : Fin ((K (F := F)).nCore 0) => (P m R).dn 0 d c : sProp 𝕄)
      ⊢ iprop(∃ tab, ⌜R d tab⌝ ∗ (tLoc d ↦{fullShare} tab) ∗ (uLoc d ↦{fullShare} m (uLoc d))
          ∗ (oLoc d ↦{fullShare} gathered tab (m (uLoc d)))) := by
  rw [show (bigSep Finset.univ fun c : Fin ((K (F := F)).nCore 0) => (P m R).dn 0 d c : sProp 𝕄)
      = iprop(coreDn m R d (0 : Fin 2) ∗ coreDn m R d (1 : Fin 2)) from bigSep_univ_two _]
  unfold coreDn
  rw [show qC (0 : Fin 2).val = fullShare.left from qC_zero, show qC (1 : Fin 2).val = fullShare.right from qC_one]
  iintro ⟨⟨%t0, %hR0, Ht0, Hu0, Ho0⟩, ⟨%t1, %hR1, Ht1, Hu1, Ho1⟩⟩
  ihave H := (agree_keep (F := F)) $$ [Ht0 Ht1]
  · isplitl [Ht0]; · iexact Ht0
    iexact Ht1
  icases H with ⟨%e, Ht0, Ht1⟩
  subst e
  iexists t0
  isplitr; · ipureintro; exact hR0
  isplitl [Ht0 Ht1]
  · iapply (pointsTo_share (PosShare.mem_left_op_right fullShare)).2
    isplitl [Ht0]; · iexact Ht0
    iexact Ht1
  isplitl [Hu0 Hu1]
  · iapply (pointsTo_share (PosShare.mem_left_op_right fullShare)).2
    isplitl [Hu0]; · iexact Hu0
    iexact Hu1
  iapply (Entails.of_eq (o_blocks (F := F) d _).symm)
  isplitl [Ho0]; · iexact Ho0
  iexact Ho1

end Cert.Kernel.Tile

end
-- ==== Proof.LaunchElemB.lean ====
/-
  The launch's share of the proof's resource algebra, and the reading of the final memory.

  The launch element is the rounds' launch state at the handshake semaphores, beside the rounds' launch state
  at the two TensorCore pipelines' staging cells (with a duty token for every transfer their loops issue),
  beside the unit of the transfer counters. Owning it is owning the three; the second funds every device's
  pipelines' cells and tokens. At the end, buffers held whole at a valuation are read off the final memory.
-/
import proofs.«210177_g34866544509008_cont_8to1_b_1726_19_alg».proof.Proof.TileDefsB
import Idealize.ShloMosaic.Lib.Pipeline.Launch
import Idealize.ShloMosaic.Lib.Pipeline.Frame
import Idealize.ShloMosaic.Lib.Pipeline.Sound

noncomputable section

namespace Cert.Kernel.LaunchElem

open Cert.Kernel Cert.Kernel.Gen Cert.Kernel.Setup Cert.Kernel.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The launch element -/

/-- No pipeline has a prefetched table: each one's admissible contents are the trivial ones. -/
abbrev noTables : (p : Fin 2) → (pcfgs (F := F) p).Adm := fun p => (cfgs p).toPCfg_adm

/-- The handshakes' rounds at launch, the staging cells' rounds at launch, no transfer counted. -/
def u₀ : UU :=
  (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

/-- Every device's cells' launch state and duty tokens, pipeline by pipeline, are each device's pipelines' ghost state. -/
theorem ghost_join :
    iprop((bigSep Finset.univ fun c : Dev nD => bigSep Finset.univ fun p : Fin 2 => Pipeline.cellsGhost cfgs EP p c)
        ∗ (bigSep Finset.univ fun c : Dev nD => bigSep Finset.univ fun p : Fin 2 => (Pipeline.toksInit cfgs EP p c : sProp 𝕄)))
      ⊢ bigSep Finset.univ fun d : Dev nD => Pipeline.ghostOn (pcfgs (F := F)) noTables EP Finset.univ d := by
  rw [← bigSep_sep']
  exact bigSep_mono fun c _ => show iprop((bigSep Finset.univ fun p : Fin 2 => Pipeline.cellsGhost cfgs EP p c)
        ∗ bigSep Finset.univ fun p : Fin 2 => (Pipeline.toksInit cfgs EP p c : sProp 𝕄)) ⊢ Pipeline.ghostOn (pcfgs (F := F)) noTables EP Finset.univ c
    from Entails.of_eq (by unfold Pipeline.ghostOn Pipeline.PerCore.ghostOn; rw [bigSep_sep'])

variable (m : (ℓ : Loc nD τ sig) → Buf (Elt F) ℓ)
variable (R : (d : Dev nD) → Buf (Elt F) (tLoc d) → Prop)

theorem hu₀ : (ownU (u₀ (F := F)) : sProp 𝕄)
    ⊢ |={Set.univ}=> iprop(BI.own (EH (initOf (K (F := F)).hsCells (K (F := F)).hsToks))
        ∗ (bigSep Finset.univ fun d : Dev nD => Pipeline.ghostOn (pcfgs (F := F)) noTables EP Finset.univ d)
        ∗ bigSep Finset.univ fun thr : Thread nD τ => bigSep Finset.univ fun q : Fin 1 => (P m R).x q thr) := by
  unfold u₀
  iintro Hu
  ihave H := (ownU_split _ _ _) $$ Hu
  icases H with ⟨HH, HP, -⟩
  imod (Pipeline.fund_ghost cfgs EP cellOf_inj) $$ HP with ⟨Hg, Ht⟩
  imodintro
  isplitl [HH]; · iexact HH
  isplitl [Hg Ht]
  · iapply (ghost_join (F := F))
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Reading the final memory -/

theorem held_read (d : Dev nD) (W : Valuation τ sig (Elt F)) (s' : Phys nD τ sig (Elt F)) :
    iprop(StableHlo.held (SparseCore.T d) (Pipeline.ucRefs τ sig) W ∗ SI s')
      ⊢ (⌜∀ b ∈ Pipeline.ucRefs τ sig, s'.mem.mem ((d, b) : Loc nD τ sig) = W b⌝ : sProp 𝕄) := by
  unfold StableHlo.held
  iintro ⟨Hh, HSI⟩
  ihave Hr := (pointsTo_read_all (Pipeline.ucRefs τ sig) (fun b => (((SparseCore.T d : Thread nD τ).1, b) : Loc nD τ sig)) W s') $$ [Hh HSI]
  · isplitl [Hh] <;> iassumption
  icases Hr with ⟨%h, -⟩
  ipureintro
  exact h

theorem arg0_mem : Proc.devRef (τ := τ) .tc (main_arg0 : Ref sig .tc) ∈ Pipeline.ucRefs τ sig :=
  Finset.mem_filter.mpr ⟨StableHlo.devRef_mem_tcRefs _, by decide⟩
theorem arg1_mem : Proc.devRef (τ := τ) .tc (main_arg1 : Ref sig .tc) ∈ Pipeline.ucRefs τ sig :=
  Finset.mem_filter.mpr ⟨StableHlo.devRef_mem_tcRefs _, by decide⟩
theorem arg2_mem : Proc.devRef (τ := τ) .tc (main_arg2 : Ref sig .tc) ∈ Pipeline.ucRefs τ sig :=
  Finset.mem_filter.mpr ⟨StableHlo.devRef_mem_tcRefs _, by decide⟩
theorem arg3_mem : Proc.devRef (τ := τ) .tc (main_arg3 : Ref sig .tc) ∈ Pipeline.ucRefs τ sig :=
  Finset.mem_filter.mpr ⟨StableHlo.devRef_mem_tcRefs _, by decide⟩
theorem v7_mem : Proc.devRef (τ := τ) .tc (main_v7 : Ref sig .tc) ∈ Pipeline.ucRefs τ sig :=
  Finset.mem_filter.mpr ⟨StableHlo.devRef_mem_tcRefs _, by decide⟩

end Cert.Kernel.LaunchElem

end
-- ==== Proof.RunB.lean ====
/-
  The program's run: the SparseCore launch theorem applied to the gather kernel's obligation and split, @main's proof and
  the launch element. Every weakly fair execution of all the threads terminates, nothing faulting, and in every final
  memory each unscoped TensorCore buffer holds the last valuation at some table and scores the two kernel regions may leave.
-/
import proofs.«210177_g34866544509008_cont_8to1_b_1726_19_alg».proof.Proof.MainB
import proofs.«210177_g34866544509008_cont_8to1_b_1726_19_alg».proof.Proof.TileBodyB
import proofs.«210177_g34866544509008_cont_8to1_b_1726_19_alg».proof.Proof.TileSplitB
import proofs.«210177_g34866544509008_cont_8to1_b_1726_19_alg».proof.Proof.LaunchElemB

noncomputable section

namespace Cert.Kernel.Run

open Cert.Kernel Cert.Kernel.Gen Cert.Kernel.Setup Cert.Kernel.RData Cert.Kernel.Segs Cert.Kernel.Tile Cert.Kernel.Main Cert.Kernel.LaunchElem

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-- What a final state shows on device `d`: its unscoped TensorCore buffers at the last valuation, for some table and
    scores the regions may leave. -/
def fq (d : Dev nD) (s' : Phys nD τ sig (Elt F)) : Prop :=
  ∃ tab G, Rtab m d tab ∧ Rsc m d tab G ∧ ∀ b ∈ Pipeline.ucRefs τ sig, s'.mem.mem ((d, b) : Loc nD τ sig) = W6 m d tab G b

theorem hfin (d : Dev nD) (s' : Phys nD τ sig (Elt F)) : iprop(FIN m d ∗ SI s') ⊢ (⌜fq m d s'⌝ : sProp 𝕄) := by
  unfold FIN
  iintro ⟨⟨%tab, %G, %h, Hh⟩, HSI⟩
  ihave H := (held_read d (W6 m d tab G) s') $$ [Hh HSI]
  · isplitl [Hh]; · iexact Hh
    iexact HSI
  icases H with %hr
  ipureintro
  exact ⟨tab, G, h.1, h.2, hr⟩

/-- The run's post. -/
def QC : PUnit × MemSt nD τ sig (Elt F) → Prop := fun r =>
  ∀ c : Dev nD, ∃ tab G, Rtab m c tab ∧ Rsc m c tab G ∧ ∀ b ∈ Pipeline.ucRefs τ sig, r.2.mem ((c, b) : Loc nD τ sig) = W6 m c tab G b

set_option backward.isDefEq.respectTransparency.types false in
set_option maxHeartbeats 1000000 in
theorem run_main [∀ e, Nonempty (Elt F e)] (hpre : ∀ (d : Dev nD) (b : Fin 1024), (m (uLoc d) (ValueIdx.ix1 b)).toNat < 100000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => absurd hq (show scKind 0 ≠ Kind.scScalar by decide))
    (fun q _ => match q with | 0 => tileObl m (Rtab m) hpre)
    (fun q _ => match q with | 0 => vecSplit m (Rtab m))
    m ρ main (fun d => GG (F := F) d) (FIN m) (u₀ (F := F)) (sep_elim_left.trans (hu₀ m (Rtab m)))
    (hmain m ρ (st0_intro m (Rtab m)) (dn0_elim m (Rtab m))) (fq m) (hfin m) (QC m) (fun _ h => h)

end Cert.Kernel.Run

end
-- ==== Proof.KeepB.lean ====
/-
  What the valuations between @main's segments hold at the buffers the value proof reads: no operation writes
  an argument, so each argument's buffer holds its launch contents to the end; the last transpose reads the
  scores; the transposes before the second region read the projection and the item table, the gathered rows
  are as the call left them; the transpose and the padding before the first region read the user table and the
  projection (the padding value is the integer zero converted).
-/
import proofs.«210177_g34866544509008_cont_8to1_b_1726_19_alg».proof.Proof.MainB

noncomputable section

namespace Cert.Kernel.Keep

open Cert.Kernel Cert.Kernel.Gen Cert.Kernel.Setup Cert.Kernel.Tile Cert.Kernel.Main

open Idealize.ShloMosaic Idealize.ShloMosaic.TcCoe
open Idealize.ShloMosaic.SparseCore (S V T)

variable {F : FTy → Type} [FloatOps F]

variable (m : (ℓ : Loc nD τ sig) → Buf (Elt F) ℓ)

/-! ## The arguments -/

section Args

variable (d : Dev nD)

theorem W1_arg1 : W1 m d (Proc.devRef .tc main_arg1) = m ((SparseCore.T d).loc main_arg1) := by
  unfold W1
  exact (StableHlo.unary_result_ne _ _ _ _ _ _ (by decide)).trans ((StableHlo.binary_result_ne _ _ _ _ _ _ _ _ (by decide)).trans
    ((StableHlo.unary_result_ne _ _ _ _ _ _ (by decide)).trans ((StableHlo.nullary_result_ne _ _ _ _ (by decide)).trans rfl)))
theorem W1_arg2 : W1 m d (Proc.devRef .tc main_arg2) = m ((SparseCore.T d).loc main_arg2) := by
  unfold W1
  exact (StableHlo.unary_result_ne _ _ _ _ _ _ (by decide)).trans ((StableHlo.binary_result_ne _ _ _ _ _ _ _ _ (by decide)).trans
    ((StableHlo.unary_result_ne _ _ _ _ _ _ (by decide)).trans ((StableHlo.nullary_result_ne _ _ _ _ (by decide)).trans rfl)))
theorem W1_arg3 : W1 m d (Proc.devRef .tc main_arg3) = m ((SparseCore.T d).loc main_arg3) := by
  unfold W1
  exact (StableHlo.unary_result_ne _ _ _ _ _ _ (by decide)).trans ((StableHlo.binary_result_ne _ _ _ _ _ _ _ _ (by decide)).trans
    ((StableHlo.unary_result_ne _ _ _ _ _ _ (by decide)).trans ((StableHlo.nullary_result_ne _ _ _ _ (by decide)).trans rfl)))

variable (tab : Buf (Elt F) (tLoc d))

theorem W3_arg0 : W3 m d tab (Proc.devRef .tc main_arg0) = m ((SparseCore.T d).loc main_arg0) := W3_users m d tab
theorem W3_arg1 : W3 m d tab (Proc.devRef .tc main_arg1) = m ((SparseCore.T d).loc main_arg1) := by
  unfold W3 W2
  exact (Function.update_of_ne (by decide) _ _).trans ((Function.update_of_ne (by decide) _ _).trans (W1_arg1 m d))
theorem W3_arg2 : W3 m d tab (Proc.devRef .tc main_arg2) = m ((SparseCore.T d).loc main_arg2) := by
  unfold W3 W2
  exact (Function.update_of_ne (by decide) _ _).trans ((Function.update_of_ne (by decide) _ _).trans (W1_arg2 m d))
theorem W3_arg3 : W3 m d tab (Proc.devRef .tc main_arg3) = m ((SparseCore.T d).loc main_arg3) := by
  unfold W3 W2
  exact (Function.update_of_ne (by decide) _ _).trans ((Function.update_of_ne (by decide) _ _).trans (W1_arg3 m d))

theorem W4_arg0 : W4 m d tab (Proc.devRef .tc main_arg0) = m ((SparseCore.T d).loc main_arg0) := by
  unfold W4
  exact (StableHlo.unary_result_ne _ _ _ _ _ _ (by decide)).trans ((StableHlo.unary_result_ne _ _ _ _ _ _ (by decide)).trans (W3_arg0 m d tab))
theorem W4_arg1 : W4 m d tab (Proc.devRef .tc main_arg1) = m ((SparseCore.T d).loc main_arg1) := by
  unfold W4
  exact (StableHlo.unary_result_ne _ _ _ _ _ _ (by decide)).trans ((StableHlo.unary_result_ne _ _ _ _ _ _ (by decide)).trans (W3_arg1 m d tab))
theorem W4_arg2 : W4 m d tab (Proc.devRef .tc main_arg2) = m ((SparseCore.T d).loc main_arg2) := by
  unfold W4
  exact (StableHlo.unary_result_ne _ _ _ _ _ _ (by decide)).trans ((StableHlo.unary_result_ne _ _ _ _ _ _ (by decide)).trans (W3_arg2 m d tab))
theorem W4_arg3 : W4 m d tab (Proc.devRef .tc main_arg3) = m ((SparseCore.T d).loc main_arg3) := by
  unfold W4
  exact (StableHlo.unary_result_ne _ _ _ _ _ _ (by decide)).trans ((StableHlo.unary_result_ne _ _ _ _ _ _ (by decide)).trans (W3_arg3 m d tab))

variable (G : Buf (Elt F) (sLoc d))

theorem W6_arg0 : W6 m d tab G (Proc.devRef .tc main_arg0) = m ((SparseCore.T d).loc main_arg0) := by
  unfold W6 W5
  exact (StableHlo.unary_result_ne _ _ _ _ _ _ (by decide)).trans ((Function.update_of_ne (by decide) _ _).trans (W4_arg0 m d tab))
theorem W6_arg1 : W6 m d tab G (Proc.devRef .tc main_arg1) = m ((SparseCore.T d).loc main_arg1) := by
  unfold W6 W5
  exact (StableHlo.unary_result_ne _ _ _ _ _ _ (by decide)).trans ((Function.update_of_ne (by decide) _ _).trans (W4_arg1 m d tab))
theorem W6_arg2 : W6 m d tab G (Proc.devRef .tc main_arg2) = m ((SparseCore.T d).loc main_arg2) := by
  unfold W6 W5
  exact (StableHlo.unary_result_ne _ _ _ _ _ _ (by decide)).trans ((Function.update_of_ne (by decide) _ _).trans (W4_arg2 m d tab))
theorem W6_arg3 : W6 m d tab G (Proc.devRef .tc main_arg3) = m ((SparseCore.T d).loc main_arg3) := by
  unfold W6 W5
  exact (StableHlo.unary_result_ne _ _ _ _ _ _ (by decide)).trans ((Function.update_of_ne (by decide) _ _).trans (W4_arg3 m d tab))

/-! ## The result and the operands of the regions -/

/-- The result is the scores transposed. -/
theorem W6_out : W6 m d tab G (Proc.devRef .tc main_v7)
    = transpose S1024x100000 [1, 0] G Facts₀.transposes_S100000x1024_S1024x100000_1_0 := by
  unfold W6
  refine (StableHlo.unary_result _ _ _ _ _ _).trans ?_
  unfold W5
  rw [Function.update_self]

/-- The second region's operands: the projection transposed, the item table transposed, the gathered rows. -/
theorem W4_v4 : W4 m d tab (Proc.devRef .tc main_v4)
    = transpose S64x400 [1, 0] (m ((SparseCore.T d).loc main_arg3)) Facts₀.transposes_S400x64_S64x400_1_0 := by
  unfold W4
  refine (StableHlo.unary_result_ne _ _ _ _ _ _ (by decide)).trans ((StableHlo.unary_result _ _ _ _ _ _).trans ?_)
  rw [W3_arg3]
theorem W4_v5 : W4 m d tab (Proc.devRef .tc main_v5)
    = transpose S400x100000 [1, 0] (m ((SparseCore.T d).loc main_arg2)) Facts₀.transposes_S100000x400_S400x100000_1_0 := by
  unfold W4
  refine (StableHlo.unary_result _ _ _ _ _ _).trans ?_
  rw [StableHlo.unary_result_ne _ _ _ _ _ _ (by decide), W3_arg2]
theorem W4_v3 : W4 m d tab (Proc.devRef .tc main_v3) = gathered tab (m (uLoc d)) := by
  unfold W4
  exact (StableHlo.unary_result_ne _ _ _ _ _ _ (by decide)).trans ((StableHlo.unary_result_ne _ _ _ _ _ _ (by decide)).trans (W3_rows m d tab))

end Args

/-- The first region's operands: the user table transposed, the projection padded with the integer zero converted. -/
theorem W1_v1 (d : Dev nD) : W1 m d (Proc.devRef .tc main_v1)
    = transpose S400x100000 [1, 0] (m ((SparseCore.T d).loc main_arg1)) Facts₀.transposes_S100000x400_S400x100000_1_0 := by
  unfold W1
  refine (StableHlo.unary_result _ _ _ _ _ _).trans ?_
  rw [StableHlo.binary_result_ne _ _ _ _ _ _ _ _ (by decide), StableHlo.unary_result_ne _ _ _ _ _ _ (by decide),
    StableHlo.nullary_result_ne _ _ _ _ (by decide)]
  rfl
theorem W1_v0 (d : Dev nD) : W1 m d (Proc.devRef .tc main_v0)
    = pad S400x128 ![0, 0] ![0, 64] ![0, 0] (m ((SparseCore.T d).loc main_arg3)) (sitofp (F := F) .f32 (constantI S_ 32 0#32))
        Facts₀.pads_S400x64_S400x128_000_0640 Facts₀.h_S_ := by
  unfold W1
  refine (StableHlo.unary_result_ne _ _ _ _ _ _ (by decide)).trans ((StableHlo.binary_result _ _ _ _ _ _ _ _).trans ?_)
  rw [StableHlo.unary_result_ne _ _ _ _ _ _ (by decide), StableHlo.nullary_result_ne _ _ _ _ (by decide),
    StableHlo.unary_result, StableHlo.nullary_result]
  rfl

end Cert.Kernel.Keep

end
-- ==== Proof.PreFacts.lean ====
/-
  The precondition decoded: every requested user word names a row of the user table.

  The printed predicate is a conjunction, the last conjunct of which says that every one of the 1024 index words w
  satisfies 0 <= w and w <= 99999, both read signed on 32 bits. A word that is nonnegative signed reads the same
  unsigned, so its unsigned value is at most 99999.
-/
import proofs.«210177_g34866544509008_cont_8to1_b_1726_19_alg».proof.Proof.Gen.Pre_input_domain
import Idealize.ShloMosaic.Lib.ReduceAll
import Idealize.ShloMosaic.Lib.ValueIdx

noncomputable section

namespace Cert.PreFacts

open Idealize.ShloMosaic Idealize.ShloMosaic.ValueIdx
open Cert.Pre_input_domain

/-- The rank-0 shape has one index. -/
instance : Subsingleton S_.Idx := ⟨fun a b => funext fun d => d.elim0⟩

/-- A 32-bit word between 0 and 99999 signed is below 100000 unsigned. -/
theorem toNat_lt_of_signed (w : BitVec 32) (h0 : IntOp.cmpi .sge w 0#32 = 1#1) (h1 : IntOp.cmpi .sle w 99999#32 = 1#1) :
    w.toNat < 100000 := by
  rw [IntOp.cmpi_sge] at h0
  rw [IntOp.cmpi_sle] at h1
  rw [show (0#32 : BitVec 32).toInt = 0 from by decide] at h0
  rw [show (99999#32 : BitVec 32).toInt = 99999 from by decide] at h1
  have h32 := w.isLt
  unfold BitVec.toInt at h0 h1
  split at h1 <;> omega

/-- Under the precondition every index word is below 100000. -/
theorem users_lt {F : FTy → Type} [FloatOps F] [Cert.Pre_input_domain.Facts]
    (x0 : IVec S1024 32) (x1 x2 : FVec F S100000x400 .f32) (x3 : FVec F S400x64 .f32)
    (h : Cert.Pre_input_domain.fn (F := F) x0 x1 x2 x3 = fun _ => 1#1) :
    ∀ b : Fin 1024, (x0 (ix1 b)).toNat < 100000 := by
  intro b
  have e := congrFun h ix0
  dsimp only [fn, fn_part1] at e
  have e19 := (IntOp.andi_eq_one.1 e).2
  have e18 := Host.reduce_andi_all _ _ _ _ _ e19 (ix1 b)
  obtain ⟨e15, e17⟩ := IntOp.andi_eq_one.1 e18
  exact toNat_lt_of_signed _ e15 e17

end Cert.PreFacts

end
-- ==== Proof.FrameB.lean ====
/-
  The frame of the kernel as printed: the run's final memories hold the last valuation, which no operation, region or call ever
  changed at an argument.
-/
import proofs.«210177_g34866544509008_cont_8to1_b_1726_19_alg».proof.Defs
import proofs.«210177_g34866544509008_cont_8to1_b_1726_19_alg».proof.Proof.RunB
import proofs.«210177_g34866544509008_cont_8to1_b_1726_19_alg».proof.Proof.KeepB
import proofs.«210177_g34866544509008_cont_8to1_b_1726_19_alg».proof.Proof.PreFacts
import proofs.«210177_g34866544509008_cont_8to1_b_1726_19_alg».proof.Proof.Gen.Pre_input_domain

noncomputable section

namespace Cert.Proof.FrameB

open Idealize.ShloMosaic Idealize.SL.Sem
open Cert.Kernel Cert.Kernel.Main Cert.Kernel.Run Cert.Kernel.Keep Cert.Kernel.LaunchElem Cert.Kernel.Tile

/-- The requested users are in range, from the precondition. -/
theorem users_ok (m : (ℓ : Loc nD τ sig) → Buf (Elt Bits) ℓ)
    (hpre : Cert.Pre_Kernel (hPre_input_domain := Cert.Pre_input_domain.Gen.facts) m) :
    ∀ (d : Dev nD) (b : Fin 1024), (m (uLoc d) (ValueIdx.ix1 b)).toNat < 100000 :=
  fun d b => Cert.PreFacts.users_lt _ _ _ _ (hpre d) b

theorem frame : Cert.frame_Kernel (hKernel := Cert.Kernel.Gen.facts) (hPre_input_domain := Cert.Pre_input_domain.Gen.facts) := fun m ρ hpre =>
  (θ_run (Cert.Kernel.defs (F := Bits)) _ _).mono (fun r h c => by
      obtain ⟨tab, G, -, -, hr⟩ := h c
      exact ⟨(hr _ arg0_mem).trans (W6_arg0 m c tab G), (hr _ arg1_mem).trans (W6_arg1 m c tab G),
        (hr _ arg2_mem).trans (W6_arg2 m c tab G), (hr _ arg3_mem).trans (W6_arg3 m c tab G)⟩)
    (run_main (F := Bits) m ρ (users_ok m hpre))

end Cert.Proof.FrameB

end
-- ==== Proof.SetupI.lean ====
/-
  The program as the SparseCore launch theorem sees it, and the proof's resource algebra: the handshake
  semaphores' rounds, the two TensorCore pipelines' staging cells' rounds, and the counters of the vector
  subcores' own transfers, side by side.
-/
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«210177_g34866544509008_cont_8to1_b_1726_19_alg».proof.Proof.Gen.KernelIdeal
import proofs.«210177_g34866544509008_cont_8to1_b_1726_19_alg».proof.Proof.Gen.KernelIdeal.Launch

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UK : Type := URounds (GSem nD τ sig) Unit
abbrev UU : Type := UH × (UK × Counters)

local notation "𝕄" => MT nD τ sig (HIx 1) (Elt F) ℕ UU ℕ

/-- The handshakes' rounds: the left factor. -/
abbrev EH : Emb UH (MT nD τ sig (HIx 1) (Elt F) ℕ UU ℕ) := embL
/-- The pipelines' staging cells' rounds: the left factor of the right factor (the counters are found by instance). -/
def EP : Emb UK (MT nD τ sig (HIx 1) (Elt F) ℕ UU ℕ) := (Emb.inl : Emb UK (UK × Counters)).trans embR

instance EP_landsIn : (EP : Emb UK 𝕄).LandsIn (upEmb : UEmb _ 𝕄) := by unfold EP; infer_instance

/-- Owning the launch element is owning its three components. -/
theorem ownU_split (a : UH) (b : UK) (c : Counters) :
    (ownU (a, (b, c)) : sProp 𝕄) ⊢ iprop(BI.own (EH a) ∗ BI.own (EP b) ∗ BI.own (((Emb.inr : Emb Counters (UK × Counters)).trans embR) c)) := by
  iintro Hu
  ihave H := (ownU_pair _ _) $$ Hu
  icases H with ⟨HH, HR⟩
  isplitl [HH]; · iexact HH
  iapply (own_pair_emb (embR : Emb (UK × Counters) 𝕄) b c); iexact HR

end Cert.KernelIdeal.Setup

end
-- ==== Proof.BodiesI.lean ====
/-
  The two TensorCore kernels' bodies on whole staging buffers: each loads its input buffers whole, computes its one
  payload from them and stores it over the whole result buffer; the input buffers are left as found.
-/
import proofs.«210177_g34866544509008_cont_8to1_b_1726_19_alg».proof.Proof.SetupI
import proofs.«210177_g34866544509008_cont_8to1_b_1726_19_alg».proof.Proof.Gen.KernelIdeal.Skeleton
import proofs.«210177_g34866544509008_cont_8to1_b_1726_19_alg».proof.Proof.Gen.KernelIdeal.Points
import Idealize.ShloMosaic.Lib.Pipeline.FrameBody
import Idealize.ShloMosaic.Lib.Pipeline.Value

noncomputable section

namespace Cert.KernelIdeal.Bodies

open Cert.KernelIdeal Cert.KernelIdeal.Gen Cert.KernelIdeal.Setup

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
/-- The first kernel's body: the result buffer ends at the payload of the two input buffers' contents. -/
theorem sound_kernel0 (c : Dev nD) (E : Set ℕ) (i : grid0.Coords)
    (a1 : Memref sig .tc .vmem S400x12800 .f32) (h1 : a1.IsWhole) (a2 : Memref sig .tc .vmem S400x128 .f32) (h2 : a2.IsWhole)
    (a3 : Memref sig .tc .vmem S12800x128 .f32) (h3 : a3.IsWhole)
    (x0 : Vec F S400x12800 .f32) (x1 : Vec F S400x128 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (k0_pay1 x0 x1)) -∗ K ⟨⟩))
      ⊢ wp frame (wpE (defs₀ (F := F)) Variants.none c none) E (cc0__au_body i a1 h1 a2 h2 a3 h3) K := by
  simp only [cc0__au_body_eq_skeleton]; unfold cc0__au_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  rw [View.read_writes_eq_canon _ _ _ (View.cover_of_tiled _ S12800x128.size (by rfl)), View.canon_unit_zero hz, View.readAt_eq_ld,
    View.readAt_eq_ld, View.ld_unit_zero (S := S400x12800) hz, View.ld_unit_zero (S := S400x128) hz]

/-- The first 64 columns of a 128-wide staging buffer: what the second kernel loads of the gathered rows. -/
abbrev r64 : Rect S1024x128 := Rect.unit (s := S1024x128) ![0, 0] S1024x64.size inb_S1024x128_S1024x64_0_0

set_option maxHeartbeats 1000000 in
/-- The second kernel's body: the result buffer ends at the payload of the projection buffer, the item-block buffer and
    the first 64 columns of the gathered-rows buffer. -/
theorem sound_kernel2 (c : Dev nD) (E : Set ℕ) (i : grid2.Coords)
    (a1 : Memref sig .tc .vmem S64x400 .f32) (h1 : a1.IsWhole) (a2 : Memref sig .tc .vmem S1024x128 .f32) (h2 : a2.IsWhole)
    (a3 : Memref sig .tc .vmem S400x5120 .f32) (h3 : a3.IsWhole) (a4 : Memref sig .tc .vmem S5120x1024 .f32) (h4 : a4.IsWhole)
    (x0 : Vec F S64x400 .f32) (x1 : Vec F S1024x128 .f32) (x2 : Vec F S400x5120 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (k2_pay1 x0 x2 (View.ld x1 r64))) -∗ K ⟨⟩))
      ⊢ wp frame (wpE (defs₀ (F := F)) Variants.none c none) E (cc2__score_body i a1 h1 a2 h2 a3 h3 a4 h4) K := by
  simp only [cc2__score_body_eq_skeleton]; unfold cc2__score_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := funext fun a => by fin_cases a <;> rfl
  rw [View.read_writes_eq_canon _ _ _ (View.cover_of_tiled _ S5120x1024.size (by rfl)), View.canon_unit_zero hz, View.readAt_eq_ld,
    View.readAt_eq_ld, View.readAt_eq_ld, View.ld_unit_zero (S := S64x400) hz, View.ld_unit_zero (S := S400x5120) hz]

end Cert.KernelIdeal.Bodies

end
-- ==== Proof.RDataI.lean ====
/-
  The two TensorCore pipelines' proof data, relational: what each kernel's body may leave in its staging buffers,
  given what it may find there. An input buffer is left as found. A result buffer is left at the body's payload of
  what the input buffers may hold: a block fetched at every grid point holds the array's block there on the part inside
  the array and anything beyond it (the last block overhangs); a block fetched once, at the first point, holds that
  block ever after.
-/
import proofs.«210177_g34866544509008_cont_8to1_b_1726_19_alg».proof.Proof.BodiesI

noncomputable section

namespace Cert.KernelIdeal.RData

open Cert.KernelIdeal Cert.KernelIdeal.Gen Cert.KernelIdeal.Setup Cert.KernelIdeal.Bodies

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 1) (Elt F) ℕ UU ℕ

/-- No pipeline has a prefetched table. -/
abbrev adm : (p : Fin 2) → (pcfgs (F := F) p).Adm := fun p => (cfgs p).toPCfg_adm

/-! ## Pipeline 0: every user's latent row -/

section P0

variable (c : Dev nD) (V : (b : Ref sig .tc) → Buf (Elt F) ((c : Thread nD τ).loc b))
  (O : CellTallies nD τ sig (HIx 1)) (Wr : Set (SemLoc sig × HIx 1))

/-- The first point of the grid. -/
def p0_first : Fin cfg0.N := ⟨0, by rw [show cfg0.N = grid0.N from rfl, N_0]; decide⟩

/-- What the table window's buffer may hold at point `t`: its block there inside the array, anything beyond. -/
def In0_0 (t : Fin cfg0.N) (Y : (cfg0.win 0).block.Idx → Elt F (cfg0.win 0).elt) : Prop :=
  ∃ d, Y = (cfg0.win 0).fill (cfg0.grid.coords t) d (((cfg0.win 0).blk t).view.read (Elt F) (V (Pipeline.arrRef spec0 0)))
/-- What the projection window's buffer holds at every point: the block fetched at the first. -/
def In0_1 (Y : (cfg0.win 1).block.Idx → Elt F (cfg0.win 1).elt) : Prop :=
  ∃ d, Y = (cfg0.win 1).fill (cfg0.grid.coords p0_first) d (((cfg0.win 1).blk p0_first).view.read (Elt F) (V (Pipeline.arrRef spec0 1)))

def rdat0 : RDat τ (Elt F) (HIx 1) ℕ UU ℕ cfg0 c where
  A w := V (Pipeline.arrRef spec0 w)
  after w t Y X := match w with
    | ⟨0, _⟩ => X = Y
    | ⟨1, _⟩ => X = Y
    | ⟨2, _⟩ => ∃ (Y0 : Vec F S400x12800 .f32) (Y1 : Vec F S400x128 .f32), In0_0 c V t Y0 ∧ In0_1 c V Y1 ∧ X = k0_pay1 Y0 Y1
  Φ _ := Pipeline.scopedRest spec0 c
  q _ := fullShare
  owed _ := O
  recorded _ := Wr

theorem flush0_0 : ∀ t : Fin cfg0.N, (cfg0.win 0).flush t = false :=
  (by decide +kernel : ∀ t : Fin grid0.N, win0_0.flush t = false)
theorem flush0_1 : ∀ t : Fin cfg0.N, (cfg0.win 1).flush t = false :=
  (by decide +kernel : ∀ t : Fin grid0.N, win0_1.flush t = false)

/-- The table window is fetched at every point. -/
theorem finds0_0 (t : Fin cfg0.N) (Y) (h : (rdat0 c V O Wr).Finds 0 t Y) : In0_0 c V t Y :=
  ((rdat0 c V O Wr).finds_of_fetch (fetch0_0 t) Y).mp h

/-- The projection window holds the first point's fetch at every point: fetched there, left as found since. -/
theorem finds0_1 : ∀ (n : Nat) (t : Fin cfg0.N), t.val = n → ∀ Y, (rdat0 c V O Wr).Finds 1 t Y → In0_1 c V Y := by
  intro n
  induction n with
  | zero =>
    intro t ht Y h
    have e : t = p0_first := Fin.ext ht
    subst e
    exact ((rdat0 c V O Wr).finds_of_fetch ((fetch0_1 p0_first).mpr (by decide)) Y).mp h
  | succ n ih =>
    intro t ht Y h
    have hN : cfg0.N = 8 := N_0
    have hf : (cfg0.win 1).fetch t = false := by
      rcases hb : (cfg0.win 1).fetch t with _ | _
      · rfl
      · have := (fetch0_1 t).mp hb; omega
    rcases ((rdat0 c V O Wr).finds_of_pos hf (by omega) Y).mp h with hfl | ⟨Y', hY', hXY⟩
    · rw [flush0_1] at hfl; exact absurd hfl Bool.false_ne_true
    · have e : Y = Y' := hXY
      subst e
      exact ih ⟨t.val - 1, by omega⟩ (by simp only [ht]; omega) _ hY'

/-- The body obligation: whatever the three buffers may hold, the body leaves the inputs as found and the result at the
    payload of the two inputs, which are a fetched table block and the fetched projection. -/
theorem body_obligation0 : (rdat0 c V O Wr).BodyObligation (defs₀ (F := F)) Variants.none (none : HIx 1) Set.univ := fun t Y hY => by
  rw [bigSep_W0, bigSep_W0]
  have h0 := finds0_0 c V O Wr t (Y 0) (hY 0)
  have h1 := finds0_1 c V O Wr t.val t rfl (Y 1) (hY 1)
  rw [show (rdat0 c V O Wr).Φ t.succ = (rdat0 c V O Wr).Φ t.castSucc from rfl,
    show (rdat0 c V O Wr).owesAt (none : HIx 1) t.succ = (rdat0 c V O Wr).owesAt none t.castSucc from rfl]
  show iprop(_ ∗ _ ∗ _ ∗ _ ∗ _) ⊢ wp frame _ Set.univ (bodyAt0 t) _
  iintro ⟨HΦ, Ho, H0, H1, H2⟩
  iapply (sound_kernel0 (F := F) c Set.univ (grid0.coords t) _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact (rfl : Y 0 = Y 0)
    iexact H0
  isplitl [H1]
  · iexists (Y 1); isplitr; · ipureintro; exact (rfl : Y 1 = Y 1)
    iexact H1
  · iexists (k0_pay1 (Y 0) (Y 1)); isplitr; · ipureintro; exact ⟨Y 0, Y 1, h0, h1, rfl⟩
    iexact H2

end P0

/-! ## Pipeline 1: the scores -/

section P1

variable (c : Dev nD) (V : (b : Ref sig .tc) → Buf (Elt F) ((c : Thread nD τ).loc b))
  (O : CellTallies nD τ sig (HIx 1)) (Wr : Set (SemLoc sig × HIx 1))

/-- The first point of the grid. -/
def p1_first : Fin cfg2.N := ⟨0, by rw [show cfg2.N = grid2.N from rfl, N_2]; decide⟩

/-- The transposed projection's buffer and the gathered rows' buffer hold the first point's fetch at every point; -/
def In2_0 (Y : (cfg2.win 0).block.Idx → Elt F (cfg2.win 0).elt) : Prop :=
  ∃ d, Y = (cfg2.win 0).fill (cfg2.grid.coords p1_first) d (((cfg2.win 0).blk p1_first).view.read (Elt F) (V (Pipeline.arrRef spec2 0)))
def In2_1 (Y : (cfg2.win 1).block.Idx → Elt F (cfg2.win 1).elt) : Prop :=
  ∃ d, Y = (cfg2.win 1).fill (cfg2.grid.coords p1_first) d (((cfg2.win 1).blk p1_first).view.read (Elt F) (V (Pipeline.arrRef spec2 1)))
/-- the item window's buffer at point `t` its block there inside the array, anything beyond. -/
def In2_2 (t : Fin cfg2.N) (Y : (cfg2.win 2).block.Idx → Elt F (cfg2.win 2).elt) : Prop :=
  ∃ d, Y = (cfg2.win 2).fill (cfg2.grid.coords t) d (((cfg2.win 2).blk t).view.read (Elt F) (V (Pipeline.arrRef spec2 2)))

def rdat1 : RDat τ (Elt F) (HIx 1) ℕ UU ℕ cfg2 c where
  A w := V (Pipeline.arrRef spec2 w)
  after w t Y X := match w with
    | ⟨0, _⟩ => X = Y
    | ⟨1, _⟩ => X = Y
    | ⟨2, _⟩ => X = Y
    | ⟨3, _⟩ => ∃ (Y0 : Vec F S64x400 .f32) (Y1 : Vec F S1024x128 .f32) (Y2 : Vec F S400x5120 .f32),
        In2_0 c V Y0 ∧ In2_1 c V Y1 ∧ In2_2 c V t Y2 ∧ X = k2_pay1 Y0 Y2 (View.ld Y1 r64)
  Φ _ := Pipeline.scopedRest spec2 c
  q _ := fullShare
  owed _ := O
  recorded _ := Wr

theorem flush2_0 : ∀ t : Fin cfg2.N, (cfg2.win 0).flush t = false :=
  (by decide +kernel : ∀ t : Fin grid2.N, win2_0.flush t = false)
theorem flush2_1 : ∀ t : Fin cfg2.N, (cfg2.win 1).flush t = false :=
  (by decide +kernel : ∀ t : Fin grid2.N, win2_1.flush t = false)

theorem finds2_2 (t : Fin cfg2.N) (Y) (h : (rdat1 c V O Wr).Finds 2 t Y) : In2_2 c V t Y :=
  ((rdat1 c V O Wr).finds_of_fetch (fetch2_2 t) Y).mp h

theorem finds2_0 : ∀ (n : Nat) (t : Fin cfg2.N), t.val = n → ∀ Y, (rdat1 c V O Wr).Finds 0 t Y → In2_0 c V Y := by
  intro n
  induction n with
  | zero =>
    intro t ht Y h
    have e : t = p1_first := Fin.ext ht
    subst e
    exact ((rdat1 c V O Wr).finds_of_fetch ((fetch2_0 p1_first).mpr (by decide)) Y).mp h
  | succ n ih =>
    intro t ht Y h
    have hN : cfg2.N = 20 := N_2
    have hf : (cfg2.win 0).fetch t = false := by
      rcases hb : (cfg2.win 0).fetch t with _ | _
      · rfl
      · have := (fetch2_0 t).mp hb; omega
    rcases ((rdat1 c V O Wr).finds_of_pos hf (by omega) Y).mp h with hfl | ⟨Y', hY', hXY⟩
    · rw [flush2_0] at hfl; exact absurd hfl Bool.false_ne_true
    · have e : Y = Y' := hXY
      subst e
      exact ih ⟨t.val - 1, by omega⟩ (by simp only [ht]; omega) _ hY'

theorem finds2_1 : ∀ (n : Nat) (t : Fin cfg2.N), t.val = n → ∀ Y, (rdat1 c V O Wr).Finds 1 t Y → In2_1 c V Y := by
  intro n
  induction n with
  | zero =>
    intro t ht Y h
    have e : t = p1_first := Fin.ext ht
    subst e
    exact ((rdat1 c V O Wr).finds_of_fetch ((fetch2_1 p1_first).mpr (by decide)) Y).mp h
  | succ n ih =>
    intro t ht Y h
    have hN : cfg2.N = 20 := N_2
    have hf : (cfg2.win 1).fetch t = false := by
      rcases hb : (cfg2.win 1).fetch t with _ | _
      · rfl
      · have := (fetch2_1 t).mp hb; omega
    rcases ((rdat1 c V O Wr).finds_of_pos hf (by omega) Y).mp h with hfl | ⟨Y', hY', hXY⟩
    · rw [flush2_1] at hfl; exact absurd hfl Bool.false_ne_true
    · have e : Y = Y' := hXY
      subst e
      exact ih ⟨t.val - 1, by omega⟩ (by simp only [ht]; omega) _ hY'

theorem body_obligation1 : (rdat1 c V O Wr).BodyObligation (defs₀ (F := F)) Variants.none (none : HIx 1) Set.univ := fun t Y hY => by
  rw [bigSep_W2, bigSep_W2]
  have h0 := finds2_0 c V O Wr t.val t rfl (Y 0) (hY 0)
  have h1 := finds2_1 c V O Wr t.val t rfl (Y 1) (hY 1)
  have h2 := finds2_2 c V O Wr t (Y 2) (hY 2)
  rw [show (rdat1 c V O Wr).Φ t.succ = (rdat1 c V O Wr).Φ t.castSucc from rfl,
    show (rdat1 c V O Wr).owesAt (none : HIx 1) t.succ = (rdat1 c V O Wr).owesAt none t.castSucc from rfl]
  show iprop(_ ∗ _ ∗ _ ∗ _ ∗ _ ∗ _) ⊢ wp frame _ Set.univ (bodyAt2 t) _
  iintro ⟨HΦ, Ho, H0, H1, H2, H3⟩
  iapply (sound_kernel2 (F := F) c Set.univ (grid2.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; exact (rfl : Y 0 = Y 0)
    iexact H0
  isplitl [H1]
  · iexists (Y 1); isplitr; · ipureintro; exact (rfl : Y 1 = Y 1)
    iexact H1
  isplitl [H2]
  · iexists (Y 2); isplitr; · ipureintro; exact (rfl : Y 2 = Y 2)
    iexact H2
  · iexists (k2_pay1 (Y 0) (Y 2) (View.ld (Y 1) r64)); isplitr; · ipureintro; exact ⟨Y 0, Y 1, Y 2, h0, h1, h2, rfl⟩
    iexact H3

end P1

end Cert.KernelIdeal.RData

end
-- ==== Proof.SegsI.lean ====
/-
  The two TensorCore kernel regions as segments of @main between thread states: every unscoped TensorCore buffer held
  whole at a valuation, beside what the TensorCore owes the SparseCore launch with its recorded waits bounded. A region
  takes its arrays out of the buffers at entry and puts them back at exit, the result array at some contents the
  write-backs may have left.
-/
import proofs.«210177_g34866544509008_cont_8to1_b_1726_19_alg».proof.Proof.RDataI

noncomputable section

namespace Cert.KernelIdeal.Segs

open Cert.KernelIdeal Cert.KernelIdeal.Gen Cert.KernelIdeal.Setup Cert.KernelIdeal.Bodies Cert.KernelIdeal.RData

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 1) (Elt F) ℕ UU ℕ

/-- The TensorCore owes the launch nothing at the kernels' own index. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

section Family

variable (V0 V1 : Valuation τ sig (Elt F)) (O0 O1 : CellTallies nD τ sig (HIx 1)) (Wr0 Wr1 : Set (SemLoc sig × HIx 1))

/-- Both pipelines' proof data, each at its region's entry valuation, what the core then owes and its recorded pairs'
    bound. -/
def rdats : (p : Fin 2) → (c : Dev nD) → RDat τ (Elt F) (HIx 1) ℕ UU ℕ (Pipeline.pin (pcfgs (F := F)) adm p) c
  | ⟨0, _⟩ => fun c => rdat0 c (fun b => V0 b) O0 Wr0
  | ⟨1, _⟩ => fun c => rdat1 c (fun b => V1 b) O1 Wr1

/-- Every window's array is held at the full share. -/
theorem share_full (p : Fin 2) (c : Dev nD) (w) : ((rdats V0 V1 O0 O1 Wr0 Wr1) p c).share w = fullShare := by
  match p with
  | ⟨0, _⟩ => unfold Pipeline.RDat.share; split <;> rfl
  | ⟨1, _⟩ => unfold Pipeline.RDat.share; split <;> rfl

/-- EXIT, the arrays' part: a pipeline's arrays at contents `Fv` and the unscoped rest at `W` are the core's unscoped
    buffers at any valuation that has the arrays at `Fv` and agrees with `W` off them. -/
theorem unscopedBufs_of_arraysR {p : Fin 2} (hw : Pipeline.WinFacts (Pipeline.pin (pcfgs (F := F)) adm p).spec)
    (harr : ∀ w, ((Pipeline.pin (pcfgs (F := F)) adm p).spec w).arr.IsWhole) (c : Dev nD)
    (W W' : (b : Ref sig .tc) → Buf (Elt F) ((c.tc : Thread nD τ).loc b))
    (Fv : (w : Fin (Pipeline.pin (pcfgs (F := F)) adm p).W) → Buf (Elt F) (((Pipeline.pin (pcfgs (F := F)) adm p).spec w).arr.view.loc (c.tc : Thread nD τ)))
    (hF : ∀ w, Fv w = W' (Pipeline.arrRef (Pipeline.pin (pcfgs (F := F)) adm p).spec w))
    (hrest : ∀ b, b ∉ Finset.univ.image (Pipeline.arrRef (Pipeline.pin (pcfgs (F := F)) adm p).spec) → W' b = W b) :
    iprop(((rdats V0 V1 O0 O1 Wr0 Wr1) p c).arrays Fv ∗ Pipeline.unscopedRest (Pipeline.pin (pcfgs (F := F)) adm p).spec c W) ⊢ (unscopedBufs c W' : sProp 𝕄) := by
  rw [Pipeline.unscopedBufs_split (Pipeline.pin (pcfgs (F := F)) adm) p hw.arr_unscoped hw.arr_inj c W',
    Pipeline.RDat.arrays_eq (pcfgs (F := F)) adm (rdats V0 V1 O0 O1 Wr0 Wr1) p c harr (share_full V0 V1 O0 O1 Wr0 Wr1 p c)]
  refine sep_mono (Entails.of_eq (bigSep_congr fun w _ => by rw [hF])) (Entails.of_eq ?_)
  unfold Pipeline.unscopedRest
  exact bigSep_congr fun b hb => by rw [hrest b (Finset.mem_sdiff.mp hb).2]

set_option backward.isDefEq.respectTransparency.types false in
/-- REGION 0: entered from the buffers at `V0`, left with the latent table at some contents the write-backs may leave. -/
def reg0 (hO0 : ∀ g, O0 g none = 0) :
    Pipeline.RDat.RegionSeg (pcfgs (F := F)) adm (rdats V0 V1 O0 O1 Wr0 Wr1) (none : HIx 1) defs₀ Variants.none (K (F := F)).L (K (F := F)).lev 0 where
  win := launch0.win.to₀
  block_pos := launch0.block_pos
  stage_whole := launch0.stage_whole
  K := PEmpty
  osem k := k.elim
  ho := Pipeline.OwnSemFacts.none _
  hbody c := body_obligation0 c (fun b => V0 b) O0 Wr0
  hwaits c := Pipeline.RDat.cellsWaits_intro _ _ _ _ c fun w s t => (K (F := F)).mayWait_none _ hO0
  pre c := iprop(StableHlo.held (c : Thread nD τ) (Pipeline.ucRefs τ sig) V0 ∗ Pipeline.owesWithin c O0 Wr0)
  post c := iprop(∃ G, ⌜(rdat0 c (fun b => V0 b) O0 Wr0).ArrAt 2 cfg0.N G⌝
    ∗ StableHlo.held (c : Thread nD τ) (Pipeline.ucRefs τ sig) (Function.update V0 (Proc.devRef .tc main_v2) G)
    ∗ Pipeline.owesWithin c O0 (Wr0 ∪ cfg0.waitPairs none))
  X c := iprop(emp)
  Y c := iprop(emp)
  Z c := Pipeline.unscopedRest (Ix := HIx 1) (Name := ℕ) (U := UU) (Lvl := ℕ) spec0 c (fun b => V0 b)
  hentry c := by
    rw [Pipeline.ownSems0_none]
    have hsplit := Pipeline.RDat.arrays_of_unscopedBufs (p := 0) (pcfgs (F := F)) adm (rdats V0 V1 O0 O1 Wr0 Wr1) launch0.win launch0.arr_whole c
      (share_full V0 V1 O0 O1 Wr0 Wr1 0 c) (fun b => V0 b) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c O0 (Set.subset_union_left (s := Wr0) (t := cfg0.waitPairs (none : HIx 1)))); iexact HO
    isplitr; · iempintro
    iexact Hrest
  hin c := by
    show _ ⊢ Pipeline.scopedRest spec0 c
    iintro ⟨-, -, Hr⟩; iexact Hr
  hout c := by
    rw [Pipeline.ownSems0_none]
    show Pipeline.scopedRest spec0 c ⊢ _
    iintro Hr
    isplitr; · iempintro
    isplitr; · iempintro
    iexact Hr
  hexit c := by
    have hin0 := Pipeline.RDat.ArrAt_in (rdat0 c (fun b => V0 b) O0 Wr0) 0 rfl cfg0.N
    have hin1 := Pipeline.RDat.ArrAt_in (rdat0 c (fun b => V0 b) O0 Wr0) 1 rfl cfg0.N
    show iprop((rdat0 c (fun b => V0 b) O0 Wr0).arraysAt cfg0.N ∗ Pipeline.owesWithin c O0 (Wr0 ∪ cfg0.waitPairs none) ∗ emp ∗ _) ⊢ _
    unfold Pipeline.RDat.arraysAt
    rw [bigSep_W0]
    iintro ⟨⟨⟨%F0, %h0, H0⟩, ⟨%F1, %h1, H1⟩, ⟨%F2, %h2, H2⟩⟩, HO, -, Hrest⟩
    rw [hin0] at h0; rw [hin1] at h1
    subst h0; subst h1
    imodintro
    iexists F2
    isplitr; · ipureintro; exact h2
    isplitr [HO]
    swap; · iexact HO
    have e0 : Function.update V0 (Proc.devRef .tc main_v2) F2 (Proc.devRef .tc main_v1) = V0 (Proc.devRef .tc main_v1) :=
      Function.update_of_ne (by decide) _ _
    have e1 : Function.update V0 (Proc.devRef .tc main_v2) F2 (Proc.devRef .tc main_v0) = V0 (Proc.devRef .tc main_v0) :=
      Function.update_of_ne (by decide) _ _
    have e2 : Function.update V0 (Proc.devRef .tc main_v2) F2 (Proc.devRef .tc main_v2) = F2 := Function.update_self _ _ _
    rw [← Pipeline.unscopedBufs_held (Ix := HIx 1) (Name := ℕ) (U := UU) (Lvl := ℕ) c (Function.update V0 (Proc.devRef .tc main_v2) F2)]
    have hjoin : iprop((rdat0 c (fun b => V0 b) O0 Wr0).arrays
          (fun w => match w with | ⟨0, _⟩ => V0 (Proc.devRef .tc main_v1) | ⟨1, _⟩ => V0 (Proc.devRef .tc main_v0) | ⟨2, _⟩ => F2)
        ∗ Pipeline.unscopedRest spec0 c (fun b => V0 b))
        ⊢ (unscopedBufs c (fun b => Function.update V0 (Proc.devRef .tc main_v2) F2 b) : sProp 𝕄) :=
      unscopedBufs_of_arraysR V0 V1 O0 O1 Wr0 Wr1 (p := 0) launch0.win launch0.arr_whole c (fun b => V0 b)
        (fun b => Function.update V0 (Proc.devRef .tc main_v2) F2 b) _
        (fun w => match w with | ⟨0, _⟩ => e0.symm | ⟨1, _⟩ => e1.symm | ⟨2, _⟩ => e2.symm)
        (fun b hb => Function.update_of_ne (StableHlo.devRef_ne_of_ne fun e : b = main_v2 =>
          hb (Finset.mem_image.mpr ⟨(2 : Fin 3), Finset.mem_univ _, e.symm⟩)) _ _)
    unfold Pipeline.RDat.arrays at hjoin
    rw [bigSep_W0] at hjoin
    iapply hjoin
    isplitr [Hrest]
    swap; · iexact Hrest
    isplitl [H0]; · iexact H0
    isplitl [H1]; · iexact H1
    iexact H2

set_option backward.isDefEq.respectTransparency.types false in
/-- REGION 1: entered from the buffers at `V1`, left with the score array at some contents the write-backs may leave. -/
def reg1 (hO1 : ∀ g, O1 g none = 0) :
    Pipeline.RDat.RegionSeg (pcfgs (F := F)) adm (rdats V0 V1 O0 O1 Wr0 Wr1) (none : HIx 1) defs₀ Variants.none (K (F := F)).L (K (F := F)).lev 1 where
  win := launch2.win.to₀
  block_pos := launch2.block_pos
  stage_whole := launch2.stage_whole
  K := PEmpty
  osem k := k.elim
  ho := Pipeline.OwnSemFacts.none _
  hbody c := body_obligation1 c (fun b => V1 b) O1 Wr1
  hwaits c := Pipeline.RDat.cellsWaits_intro _ _ _ _ c fun w s t => (K (F := F)).mayWait_none _ hO1
  pre c := iprop(StableHlo.held (c : Thread nD τ) (Pipeline.ucRefs τ sig) V1 ∗ Pipeline.owesWithin c O1 Wr1)
  post c := iprop(∃ G, ⌜(rdat1 c (fun b => V1 b) O1 Wr1).ArrAt 3 cfg2.N G⌝
    ∗ StableHlo.held (c : Thread nD τ) (Pipeline.ucRefs τ sig) (Function.update V1 (Proc.devRef .tc main_v6) G)
    ∗ Pipeline.owesWithin c O1 (Wr1 ∪ cfg2.waitPairs none))
  X c := iprop(emp)
  Y c := iprop(emp)
  Z c := Pipeline.unscopedRest (Ix := HIx 1) (Name := ℕ) (U := UU) (Lvl := ℕ) spec2 c (fun b => V1 b)
  hentry c := by
    rw [Pipeline.ownSems0_none]
    have hsplit := Pipeline.RDat.arrays_of_unscopedBufs (p := 1) (pcfgs (F := F)) adm (rdats V0 V1 O0 O1 Wr0 Wr1) launch2.win launch2.arr_whole c
      (share_full V0 V1 O0 O1 Wr0 Wr1 1 c) (fun b => V1 b) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c O1 (Set.subset_union_left (s := Wr1) (t := cfg2.waitPairs (none : HIx 1)))); iexact HO
    isplitr; · iempintro
    iexact Hrest
  hin c := by
    show _ ⊢ Pipeline.scopedRest spec2 c
    iintro ⟨-, -, Hr⟩; iexact Hr
  hout c := by
    rw [Pipeline.ownSems0_none]
    show Pipeline.scopedRest spec2 c ⊢ _
    iintro Hr
    isplitr; · iempintro
    isplitr; · iempintro
    iexact Hr
  hexit c := by
    have hin0 := Pipeline.RDat.ArrAt_in (rdat1 c (fun b => V1 b) O1 Wr1) 0 rfl cfg2.N
    have hin1 := Pipeline.RDat.ArrAt_in (rdat1 c (fun b => V1 b) O1 Wr1) 1 rfl cfg2.N
    have hin2 := Pipeline.RDat.ArrAt_in (rdat1 c (fun b => V1 b) O1 Wr1) 2 rfl cfg2.N
    show iprop((rdat1 c (fun b => V1 b) O1 Wr1).arraysAt cfg2.N ∗ Pipeline.owesWithin c O1 (Wr1 ∪ cfg2.waitPairs none) ∗ emp ∗ _) ⊢ _
    unfold Pipeline.RDat.arraysAt
    rw [bigSep_W2]
    iintro ⟨⟨⟨%F0, %h0, H0⟩, ⟨%F1, %h1, H1⟩, ⟨%F2, %h2, H2⟩, ⟨%F3, %h3, H3⟩⟩, HO, -, Hrest⟩
    rw [hin0] at h0; rw [hin1] at h1; rw [hin2] at h2
    subst h0; subst h1; subst h2
    imodintro
    iexists F3
    isplitr; · ipureintro; exact h3
    isplitr [HO]
    swap; · iexact HO
    have e0 : Function.update V1 (Proc.devRef .tc main_v6) F3 (Proc.devRef .tc main_v4) = V1 (Proc.devRef .tc main_v4) :=
      Function.update_of_ne (by decide) _ _
    have e1 : Function.update V1 (Proc.devRef .tc main_v6) F3 (Proc.devRef .tc main_v3) = V1 (Proc.devRef .tc main_v3) :=
      Function.update_of_ne (by decide) _ _
    have e2 : Function.update V1 (Proc.devRef .tc main_v6) F3 (Proc.devRef .tc main_v5) = V1 (Proc.devRef .tc main_v5) :=
      Function.update_of_ne (by decide) _ _
    have e3 : Function.update V1 (Proc.devRef .tc main_v6) F3 (Proc.devRef .tc main_v6) = F3 := Function.update_self _ _ _
    rw [← Pipeline.unscopedBufs_held (Ix := HIx 1) (Name := ℕ) (U := UU) (Lvl := ℕ) c (Function.update V1 (Proc.devRef .tc main_v6) F3)]
    have hjoin : iprop((rdat1 c (fun b => V1 b) O1 Wr1).arrays
          (fun w => match w with | ⟨0, _⟩ => V1 (Proc.devRef .tc main_v4) | ⟨1, _⟩ => V1 (Proc.devRef .tc main_v3) | ⟨2, _⟩ => V1 (Proc.devRef .tc main_v5) | ⟨3, _⟩ => F3)
        ∗ Pipeline.unscopedRest spec2 c (fun b => V1 b))
        ⊢ (unscopedBufs c (fun b => Function.update V1 (Proc.devRef .tc main_v6) F3 b) : sProp 𝕄) :=
      unscopedBufs_of_arraysR V0 V1 O0 O1 Wr0 Wr1 (p := 1) launch2.win launch2.arr_whole c (fun b => V1 b)
        (fun b => Function.update V1 (Proc.devRef .tc main_v6) F3 b) _
        (fun w => match w with | ⟨0, _⟩ => e0.symm | ⟨1, _⟩ => e1.symm | ⟨2, _⟩ => e2.symm | ⟨3, _⟩ => e3.symm)
        (fun b hb => Function.update_of_ne (StableHlo.devRef_ne_of_ne fun e : b = main_v6 =>
          hb (Finset.mem_image.mpr ⟨(3 : Fin 4), Finset.mem_univ _, e.symm⟩)) _ _)
    unfold Pipeline.RDat.arrays at hjoin
    rw [bigSep_W2] at hjoin
    iapply hjoin
    isplitr [Hrest]
    swap; · iexact Hrest
    isplitl [H0]; · iexact H0
    isplitl [H1]; · iexact H1
    isplitl [H2]; · iexact H2
    iexact H3

end Family

end Cert.KernelIdeal.Segs

end
-- ==== Proof.TileDefsI.lean ====
/-
  The row-gather kernel on the vector subcores: what its call hands each processor and takes back.

  The call reads two arrays whole from every vector subcore (the table of latent rows and the list of
  requested users) and writes a third by disjoint blocks of 32 rows, one block per subcore. So the table
  and the list travel as read shares (a half per group of sixteen subcores, split again among the sixteen)
  and the result travels by blocks. What is known of the table when the call is made is a predicate of
  its contents; the contents themselves are quantified in every piece that holds a share of the table, and
  the block a subcore hands back holds, at row b, the table's row named by the b-th requested user.
-/
import proofs.«210177_g34866544509008_cont_8to1_b_1726_19_alg».proof.Proof.SetupI
import proofs.«210177_g34866544509008_cont_8to1_b_1726_19_alg».proof.Proof.Spec
import proofs.«210177_g34866544509008_cont_8to1_b_1726_19_alg».proof.Proof.Gen.KernelIdeal.Skeleton
import Idealize.ShloMosaic.Lib.SparseCore.Stream
import Idealize.ShloMosaic.Lib.SparseCore.Ops
import Idealize.ShloMosaic.Lib.Transfers

noncomputable section

namespace Cert.KernelIdeal.Tile

open Cert.KernelIdeal Cert.KernelIdeal.Gen Cert.KernelIdeal.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)

variable {F : FTy → Type}

local notation "𝕄" => MT nD τ sig (HIx 1) (Elt F) ℕ UU ℕ

/-! ## The three arrays and the kernel's memrefs -/

/-- The table, the list of requested users and the result, as locations of device `d`. -/
abbrev tLoc (d : Dev nD) : Loc nD τ sig := (SparseCore.T d).loc main_v2
abbrev uLoc (d : Dev nD) : Loc nD τ sig := (SparseCore.T d).loc main_arg0
abbrev oLoc (d : Dev nD) : Loc nD τ sig := (SparseCore.T d).loc main_v3

/-- Row `b` of the result is the table's row named by the `b`-th requested user. -/
def gathered {d : Dev nD} (t : Buf (Elt F) (tLoc d)) (u : Buf (Elt F) (uLoc d)) : Buf (Elt F) (oLoc d) :=
  fun j : S1024x128.Idx => t (ix2 (Cert.Spec.rowOf (u (ix1 (j 0)))) (j 1))

abbrev tV : Memref sig .scVector .hbm S100000x128 .f32 := Memref.whole main_v2_scv
abbrev uV : Memref sig .scVector .hbm S1024 .i32 := Memref.whole main_arg0_scv
abbrev oV : Memref sig .scVector .hbm S1024x128 .f32 := Memref.whole main_v3_scv
/-- A subcore's scratch: the fetched user words, the gathered rows. -/
abbrev sI : Memref sig .scVector .vmem S32 .i32 := Memref.whole cc1_scratch0
abbrev sR : Memref sig .scVector .vmem S32x128 .f32 := Memref.whole cc1_scratch1

/-- The grid point of SparseCore `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The 32 user words and the 32 result rows of a grid point, as the kernel slices them. -/
abbrev uSl (L : grid1.Coords) : Memref sig .scVector .hbm S32 .i32 :=
  (uV).slice (Rect.unit (s := S1024) (k1_off1 L) S32.size (k1_off1_inb L)) (fun _ => rfl)
abbrev oSl (L : grid1.Coords) : Memref sig .scVector .hbm S32x128 .f32 :=
  (oV).slice (Rect.unit (s := S1024x128) (k1_off2 L) S32x128.size (k1_off2_inb L)) (fun _ => rfl)
/-- The result's elements a grid point writes. -/
abbrev oSet (L : grid1.Coords) : Finset S1024x128.Idx := (oSl L).view.set

/-! ## The read shares -/

/-- SparseCore `c`'s share of an array every subcore reads: a half. -/
def qC (c : ℕ) : PosShare TreeShare := if c = 0 then fullShare.left else fullShare.right
/-- Subcore `i` of SparseCore `c`: the `i`-th read token of that half. -/
abbrev qT (c i : ℕ) : PosShare TreeShare := shareTokN (qC c) i

/-! ## What the handshakes carry -/

variable (m : (ℓ : Loc nD τ sig) → Buf (Elt F) ℓ)
variable (R : (d : Dev nD) → Buf (Elt F) (tLoc d) → Prop)

/-- What a subcore is handed: a share of the table (at some contents) and of the list, its block of the result. -/
def tileGo (d : Dev nD) (L : grid1.Coords) : sProp 𝕄 :=
  iprop(∃ tab : Buf (Elt F) (tLoc d), (tLoc d ↦{qT (L 0).val (L 1).val} tab) ∗ (uLoc d ↦{qT (L 0).val (L 1).val} m (uLoc d))
    ∗ ∃ f, oLoc d ↦[oSet L]{fullShare} f)
/-- What it hands back: the shares, its block holding the gathered rows of that table. -/
def tileTd (d : Dev nD) (L : grid1.Coords) : sProp 𝕄 :=
  iprop(∃ tab : Buf (Elt F) (tLoc d), (tLoc d ↦{qT (L 0).val (L 1).val} tab) ∗ (uLoc d ↦{qT (L 0).val (L 1).val} m (uLoc d))
    ∗ oLoc d ↦[oSet L]{fullShare} gathered tab (m (uLoc d)))
/-- What a SparseCore is handed: its half of the table (known to satisfy `R`) and of the list, its sixteen blocks. -/
def coreSt (d : Dev nD) (c : Fin (grid1.bound 0)) : sProp 𝕄 :=
  iprop(∃ tab : Buf (Elt F) (tLoc d), ⌜R d tab⌝ ∗ (tLoc d ↦{qC c.val} tab) ∗ (uLoc d ↦{qC c.val} m (uLoc d))
    ∗ bigSep Finset.univ fun s : Fin (grid1.bound 1) => iprop(∃ f, oLoc d ↦[oSet (coordsV c s)]{fullShare} f))
/-- What it hands back. -/
def coreDn (d : Dev nD) (c : Fin (grid1.bound 0)) : sProp 𝕄 :=
  iprop(∃ tab : Buf (Elt F) (tLoc d), ⌜R d tab⌝ ∗ (tLoc d ↦{qC c.val} tab) ∗ (uLoc d ↦{qC c.val} m (uLoc d))
    ∗ bigSep Finset.univ fun s : Fin (grid1.bound 1) => oLoc d ↦[oSet (coordsV c s)]{fullShare} gathered tab (m (uLoc d)))

def P : (K (F := F)).Pay (nD := nD) (Val := Elt F) (Name := ℕ) (U := UU) where
  st := fun q d c => match q with | 0 => coreSt m R d c
  dn := fun q d c => match q with | 0 => coreDn m R d c
  go := fun q d c i => match q with | 0 => tileGo m d (coordsV c i)
  td := fun q d c i => match q with | 0 => tileTd m d (coordsV c i)
  x := fun _ _ => iprop(emp)

theorem P_st (d : Dev nD) (c : Fin ((K (F := F)).nCore 0)) : (P m R).st 0 d c = coreSt m R d c := rfl
theorem P_dn (d : Dev nD) (c : Fin ((K (F := F)).nCore 0)) : (P m R).dn 0 d c = coreDn m R d c := rfl
theorem P_go (d : Dev nD) (c : Fin ((K (F := F)).nCore 0)) (i : Fin ((K (F := F)).nSub 0)) : (P m R).go 0 d c i = tileGo m d (coordsV c i) := rfl
theorem P_td (d : Dev nD) (c : Fin ((K (F := F)).nCore 0)) (i : Fin ((K (F := F)).nSub 0)) : (P m R).td 0 d c i = tileTd m d (coordsV c i) := rfl

instance P_storable : (P (F := F) m R).IsStorable where
  st q d c := match q with | 0 => by show BI.Storable upEmb (coreSt m R d c); unfold coreSt; infer_instance
  dn q d c := match q with | 0 => by show BI.Storable upEmb (coreDn m R d c); unfold coreDn; infer_instance
  go q d c i := match q with | 0 => by show BI.Storable upEmb (tileGo m d (coordsV c i)); unfold tileGo; infer_instance
  td q d c i := match q with | 0 => by show BI.Storable upEmb (tileTd m d (coordsV c i)); unfold tileTd; infer_instance

end Cert.KernelIdeal.Tile

end
-- ==== Proof.MainI.lean ====
/-
  @main on the TensorCore, segment by segment: the constant, the padding and the first transpose; the first kernel region;
  the SparseCore call; two transposes; the second kernel region; the last transpose. Between segments every unscoped
  buffer is held at a valuation; what the regions and the call leave is known only up to what the write-backs may leave,
  and is carried as a predicate on the valuation.
-/
import proofs.«210177_g34866544509008_cont_8to1_b_1726_19_alg».proof.Proof.SegsI
import proofs.«210177_g34866544509008_cont_8to1_b_1726_19_alg».proof.Proof.TileDefsI

noncomputable section

namespace Cert.KernelIdeal.Main

open Cert.KernelIdeal Cert.KernelIdeal.Gen Cert.KernelIdeal.Setup Cert.KernelIdeal.Bodies Cert.KernelIdeal.RData Cert.KernelIdeal.Segs Cert.KernelIdeal.Tile

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Pipeline (RDat Cfg Window)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations -/

abbrev opC : HloOp τ sig (Elt F) := StableHlo.nullary main_c (constantI S_ 32 0#32)
abbrev opCv : HloOp τ sig (Elt F) := StableHlo.TRef.unary (.of main_c : StableHlo.TRef sig ⟨S_, .i32⟩) main_call0.v0 (sitofp .f32)
abbrev opPad : HloOp τ sig (Elt F) :=
  StableHlo.TRef.binary (.of main_arg3 : StableHlo.TRef sig ⟨S400x64, .f32⟩) main_call0.v0 main_call0.v1 (fun x v => pad S400x128 ![0, 0] ![0, 64] ![0, 0] x v Facts₀.pads_S400x64_S400x128_000_0640 Facts₀.h_S_)
abbrev opT1 : HloOp τ sig (Elt F) :=
  StableHlo.unary main_arg1 main_v1 ((transpose S400x100000 [1, 0] · Facts₀.transposes_S100000x400_S400x100000_1_0) : (⟨S100000x400, .f32⟩ : BufTy).Contents (Elt F) → (⟨S400x100000, .f32⟩ : BufTy).Contents (Elt F))
abbrev opT4 : HloOp τ sig (Elt F) :=
  StableHlo.unary main_arg3 main_v4 ((transpose S64x400 [1, 0] · Facts₀.transposes_S400x64_S64x400_1_0) : (⟨S400x64, .f32⟩ : BufTy).Contents (Elt F) → (⟨S64x400, .f32⟩ : BufTy).Contents (Elt F))
abbrev opT5 : HloOp τ sig (Elt F) :=
  StableHlo.unary main_arg2 main_v5 ((transpose S400x100000 [1, 0] · Facts₀.transposes_S100000x400_S400x100000_1_0) : (⟨S100000x400, .f32⟩ : BufTy).Contents (Elt F) → (⟨S400x100000, .f32⟩ : BufTy).Contents (Elt F))
abbrev opT7 : HloOp τ sig (Elt F) :=
  StableHlo.unary main_v6 main_v7 ((transpose S1024x100000 [1, 0] · Facts₀.transposes_S100000x1024_S1024x100000_1_0) : (⟨S100000x1024, .f32⟩ : BufTy).Contents (Elt F) → (⟨S1024x100000, .f32⟩ : BufTy).Contents (Elt F))

/-! ## The valuations between segments -/

/-- The score array, as a location of device `d`. -/
abbrev sLoc (d : Dev nD) : Loc nD τ sig := (SparseCore.T d).loc main_v6

/-- At launch; -/
def W0 (d : Dev nD) : Valuation τ sig (Elt F) := fun b => m (d, b)
/-- when the first region is entered; -/
def W1 (d : Dev nD) : Valuation τ sig (Elt F) := (opT1 (F := F)).result ((opPad (F := F)).result ((opCv (F := F)).result ((opC (F := F)).result (W0 m d))))
/-- after it, the latent table at `tab`; -/
def W2 (d : Dev nD) (tab : Buf (Elt F) (tLoc d)) : Valuation τ sig (Elt F) := Function.update (W1 m d) (Proc.devRef .tc main_v2) tab
/-- after the call, the requested rows gathered; -/
def W3 (d : Dev nD) (tab : Buf (Elt F) (tLoc d)) : Valuation τ sig (Elt F) :=
  Function.update (W2 m d tab) (Proc.devRef .tc main_v3) (gathered tab (m (uLoc d)))
/-- when the second region is entered; -/
def W4 (d : Dev nD) (tab : Buf (Elt F) (tLoc d)) : Valuation τ sig (Elt F) := (opT5 (F := F)).result ((opT4 (F := F)).result (W3 m d tab))
/-- after it, the scores at `G`; -/
def W5 (d : Dev nD) (tab : Buf (Elt F) (tLoc d)) (G : Buf (Elt F) (sLoc d)) : Valuation τ sig (Elt F) :=
  Function.update (W4 m d tab) (Proc.devRef .tc main_v6) G
/-- at the end. -/
def W6 (d : Dev nD) (tab : Buf (Elt F) (tLoc d)) (G : Buf (Elt F) (sLoc d)) : Valuation τ sig (Elt F) := (opT7 (F := F)).result (W5 m d tab G)

/-- What is known of the latent table when the call is made: contents the first region's write-backs may leave. -/
def Rtab (d : Dev nD) (tab : Buf (Elt F) (tLoc d)) : Prop :=
  (rdat0 d (fun b => W1 m d b) 0 Set.univ).ArrAt 2 cfg0.N tab
/-- What is known of the scores at the end, given the table. -/
def Rsc (d : Dev nD) (tab : Buf (Elt F) (tLoc d)) (G : Buf (Elt F) (sLoc d)) : Prop :=
  (rdat1 d (fun b => W4 m d tab b) 0 Set.univ).ArrAt 3 cfg2.N G

/-- The handshakes' payloads: the gather kernel's, over the table as the first region may leave it. -/
abbrev PP : (K (F := F)).Pay (nD := nD) (Val := Elt F) (Name := ℕ) (U := UU) := Tile.P m (Rtab m)

/-- What the launch deals @main beside its buffers: both pipelines' staging cells' ghost state and duty tokens. -/
abbrev GG (d : Dev nD) : sProp 𝕄 :=
  Pipeline.ghostOn (pcfgs (F := F)) adm EP Finset.univ d

/-- What @main leaves: every unscoped buffer at the last valuation, for some table and scores the regions may leave. -/
def FIN (d : Dev nD) : sProp 𝕄 :=
  iprop(∃ tab G, ⌜Rtab m d tab ∧ Rsc m d tab G⌝ ∗ held (SparseCore.T d) (Pipeline.ucRefs τ sig) (W6 m d tab G))

/-! ## Auxiliary facts -/

/-- The rest of the TensorCore's handshake state before call `n`, beside what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_open (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ tcRest (F := F) d n) := rfl

/-- The pipelines' ghost state, one pipeline at a time. -/
theorem GG_eq (d : Dev nD) : (GG (F := F) d : sProp 𝕄)
    = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)) := by
  unfold GG Pipeline.ghostOn Pipeline.PerCore.ghostOn
  rw [show (Finset.univ : Finset (Fin 2)) = {0, 1} from by decide, SparseCore.bigSep_insert' (by decide), bigSep_singleton]

/-- The three arrays the SparseCore call is handed. -/
abbrev T3 : Finset (DevRef τ sig) := {Proc.devRef .tc main_v2, Proc.devRef .tc main_arg0, Proc.devRef .tc main_v3}

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem T3_sub : (T3 : Finset (DevRef τ sig)) ⊆ Pipeline.ucRefs τ sig := by
  intro b hb
  simp only [T3, Finset.mem_insert, Finset.mem_singleton] at hb
  rcases hb with rfl | rfl | rfl <;> exact mem_uc _ (by decide)

theorem held_T3 (d : Dev nD) (W : Valuation τ sig (Elt F)) :
    (held (SparseCore.T d) T3 W : sProp 𝕄)
      = iprop((tLoc d ↦{fullShare} W (Proc.devRef .tc main_v2)) ∗ (uLoc d ↦{fullShare} W (Proc.devRef .tc main_arg0)) ∗ (oLoc d ↦{fullShare} W (Proc.devRef .tc main_v3))) := by
  unfold held T3
  rw [SparseCore.bigSep_insert' (by decide), SparseCore.bigSep_insert' (by decide), bigSep_singleton]

/-- Valuations that agree off the three arrays hold the rest alike. -/
theorem held_rest_congr (d : Dev nD) (W W' : Valuation τ sig (Elt F)) (h : ∀ b, b ∉ (T3 : Finset (DevRef τ sig)) → W' b = W b) :
    (held (SparseCore.T d) (Pipeline.ucRefs τ sig \ T3) W' : sProp 𝕄) = held (SparseCore.T d) (Pipeline.ucRefs τ sig \ T3) W := by
  unfold held
  exact bigSep_congr fun b hb => by rw [h b (Finset.mem_sdiff.mp hb).2]

set_option backward.isDefEq.respectTransparency.types false in
set_option maxHeartbeats 800000 in
/-- Kernel region 0's step on the TensorCore of `d`, in the SparseCore program's signature. -/
theorem wp_region0 (rd : (p : Fin 2) → (c : Dev nD) → RDat τ (Elt F) (HIx 1) ℕ UU ℕ (Pipeline.pin (pcfgs (F := F)) adm p) c)
    (R : Pipeline.RDat.RegionSeg (pcfgs (F := F)) adm rd (none : HIx 1) defs₀ Variants.none (K (F := F)).L (K (F := F)).lev 0)
    (d : Dev nD) (Φ : PUnit → sProp 𝕄) :
    iprop(levAts (K (F := F)).L (K (F := F)).lev ∗ boundary (SparseCore.T d) ∗ R.pre d
        ∗ Pipeline.cellsGhost (Pipeline.pin (pcfgs (F := F)) adm) EP 0 d ∗ Pipeline.toksInit (Pipeline.pin (pcfgs (F := F)) adm) EP 0 d
        ∗ (iprop(boundary (SparseCore.T d) ∗ R.post d) -∗ Φ ⟨⟩))
      ⊢ wp frame (wpE ((K (F := F)).defs (D (F := F))) 𝒱 (SparseCore.T d) none) Set.univ
          (Prog.lift (.customCall (SparseCore.inner (Pipeline.entry 0)) ())) Φ := by
  have h2 := Pipeline.RDat.RegionSeg.wp (pcfgs (F := F)) adm rd (none : HIx 1) cellOf_inj EP defs₀ Variants.none _ _ R d none
    (fun u hu => (Option.not_mem_none u hu).elim) (fun _ => .ret ⟨⟩) Φ
  have h1 := (K (F := F)).wp_liftProg (nD := nD) (Val := Elt F) (Name := ℕ) (U := UU) (D (F := F)) 𝒱 (SparseCore.T d) Set.univ none (α := PUnit)
    (.op (.customCall (Pipeline.entry 0) ()) fun _ => .ret ⟨⟩) Φ
  refine BIBase.Entails.trans ?_ (h2.trans h1)
  iintro ⟨Hlev, Hb, Hpre, Hg, Ht, Hk⟩
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht

set_option backward.isDefEq.respectTransparency.types false in
set_option maxHeartbeats 800000 in
/-- Kernel region 1's step on the TensorCore of `d`, in the SparseCore program's signature. -/
theorem wp_region1 (rd : (p : Fin 2) → (c : Dev nD) → RDat τ (Elt F) (HIx 1) ℕ UU ℕ (Pipeline.pin (pcfgs (F := F)) adm p) c)
    (R : Pipeline.RDat.RegionSeg (pcfgs (F := F)) adm rd (none : HIx 1) defs₀ Variants.none (K (F := F)).L (K (F := F)).lev 1)
    (d : Dev nD) (Φ : PUnit → sProp 𝕄) :
    iprop(levAts (K (F := F)).L (K (F := F)).lev ∗ boundary (SparseCore.T d) ∗ R.pre d
        ∗ Pipeline.cellsGhost (Pipeline.pin (pcfgs (F := F)) adm) EP 1 d ∗ Pipeline.toksInit (Pipeline.pin (pcfgs (F := F)) adm) EP 1 d
        ∗ (iprop(boundary (SparseCore.T d) ∗ R.post d) -∗ Φ ⟨⟩))
      ⊢ wp frame (wpE ((K (F := F)).defs (D (F := F))) 𝒱 (SparseCore.T d) none) Set.univ
          (Prog.lift (.customCall (SparseCore.inner (Pipeline.entry 1)) ())) Φ := by
  have h2 := Pipeline.RDat.RegionSeg.wp (pcfgs (F := F)) adm rd (none : HIx 1) cellOf_inj EP defs₀ Variants.none _ _ R d none
    (fun u hu => (Option.not_mem_none u hu).elim) (fun _ => .ret ⟨⟩) Φ
  have h1 := (K (F := F)).wp_liftProg (nD := nD) (Val := Elt F) (Name := ℕ) (U := UU) (D (F := F)) 𝒱 (SparseCore.T d) Set.univ none (α := PUnit)
    (.op (.customCall (Pipeline.entry 1) ()) fun _ => .ret ⟨⟩) Φ
  refine BIBase.Entails.trans ?_ (h2.trans h1)
  iintro ⟨Hlev, Hb, Hpre, Hg, Ht, Hk⟩
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht

/-! ## The host operations' buffers -/

theorem hC : (opC (F := F)).bufs ⊆ Pipeline.ucRefs τ sig := Pipeline.sub_ucRefs _ (StableHlo.nullary_bufs_sub ..)
theorem hCv : (opCv (F := F)).bufs ⊆ Pipeline.ucRefs τ sig := Pipeline.sub_ucRefs _ (StableHlo.unary_bufs_sub ..)
theorem hPad : (opPad (F := F)).bufs ⊆ Pipeline.ucRefs τ sig := Pipeline.sub_ucRefs _ (StableHlo.binary_bufs_sub ..)
theorem hT1 : (opT1 (F := F)).bufs ⊆ Pipeline.ucRefs τ sig := Pipeline.sub_ucRefs _ (StableHlo.unary_bufs_sub ..)
theorem hT4 : (opT4 (F := F)).bufs ⊆ Pipeline.ucRefs τ sig := Pipeline.sub_ucRefs _ (StableHlo.unary_bufs_sub ..)
theorem hT5 : (opT5 (F := F)).bufs ⊆ Pipeline.ucRefs τ sig := Pipeline.sub_ucRefs _ (StableHlo.unary_bufs_sub ..)
theorem hT7 : (opT7 (F := F)).bufs ⊆ Pipeline.ucRefs τ sig := Pipeline.sub_ucRefs _ (StableHlo.unary_bufs_sub ..)

/-! ## What the valuations hold at the buffers the call is handed -/

theorem W1_users (d : Dev nD) : W1 m d (Proc.devRef .tc main_arg0) = m (uLoc d) := by
  unfold W1
  exact (StableHlo.unary_result_ne _ _ _ _ _ _ (by decide)).trans ((StableHlo.binary_result_ne _ _ _ _ _ _ _ _ (by decide)).trans
    ((StableHlo.unary_result_ne _ _ _ _ _ _ (by decide)).trans ((StableHlo.nullary_result_ne _ _ _ _ (by decide)).trans rfl)))
theorem W2_tab (d : Dev nD) (tab : Buf (Elt F) (tLoc d)) : W2 m d tab (Proc.devRef .tc main_v2) = tab := Function.update_self _ _ _
theorem W2_users (d : Dev nD) (tab : Buf (Elt F) (tLoc d)) : W2 m d tab (Proc.devRef .tc main_arg0) = m (uLoc d) :=
  (Function.update_of_ne (by decide) _ _).trans (W1_users m d)
theorem W3_tab (d : Dev nD) (tab : Buf (Elt F) (tLoc d)) : W3 m d tab (Proc.devRef .tc main_v2) = tab :=
  (Function.update_of_ne (by decide) _ _).trans (W2_tab m d tab)
theorem W3_users (d : Dev nD) (tab : Buf (Elt F) (tLoc d)) : W3 m d tab (Proc.devRef .tc main_arg0) = m (uLoc d) :=
  (Function.update_of_ne (by decide) _ _).trans (W2_users m d tab)
theorem W3_rows (d : Dev nD) (tab : Buf (Elt F) (tLoc d)) : W3 m d tab (Proc.devRef .tc main_v3) = gathered tab (m (uLoc d)) :=
  Function.update_self _ _ _
/-- Off the three arrays the call leaves the valuation as it was, whichever table came back. -/
theorem W3_off (d : Dev nD) (tab tab' : Buf (Elt F) (tLoc d)) (b : DevRef τ sig) (hb : b ∉ (T3 : Finset (DevRef τ sig))) :
    W3 m d tab' b = W2 m d tab b := by
  simp only [T3, Finset.mem_insert, Finset.mem_singleton, not_or] at hb
  unfold W3 W2
  rw [Function.update_of_ne hb.2.2, Function.update_of_ne hb.1, Function.update_of_ne hb.1]

/-- A pipeline's own waits sit at level zero: pairs recorded within the earlier ones and the pipeline's stay bounded. -/
theorem wbelow_grow {d : Dev nD} {Wt Wt' : Waits sig (HIx 1)} {b : ℕ} {B : Set (SemLoc sig × HIx 1)}
    (hWt : (K (F := F)).WBelow (SparseCore.T d) Wt b) (hB : ∀ p ∈ B, p.2 = none) (h : (↑Wt' : Set (SemLoc sig × HIx 1)) ⊆ ↑Wt ∪ B) :
    (K (F := F)).WBelow (SparseCore.T d) Wt' b := fun p hp => by
  rcases h (Finset.mem_coe.mpr hp) with h1 | h2
  · exact hWt p (Finset.mem_coe.mp h1)
  · rw [show p = (p.1, p.2) from rfl, hB p h2, SparseCore.Cfg.lev_none]; exact Nat.zero_le _

theorem waitPairs_none (cfg : Pipeline.Cfg sig Λ₀) : ∀ p ∈ cfg.waitPairs (none : HIx 1), p.2 = none := by
  rintro p ⟨w, s, rfl⟩; rfl

section RegStates
variable (V0 V1 : Valuation τ sig (Elt F)) (O0 O1 : CellTallies nD τ sig (HIx 1)) (Wr0 Wr1 : Set (SemLoc sig × HIx 1))
theorem reg0_pre (h) (c : Dev nD) : (reg0 V0 V1 O0 O1 Wr0 Wr1 h).pre c
    = iprop(held (c : Thread nD τ) (Pipeline.ucRefs τ sig) V0 ∗ Pipeline.owesWithin c O0 Wr0) := rfl
theorem reg0_post (h) (c : Dev nD) : (reg0 V0 V1 O0 O1 Wr0 Wr1 h).post c
    = iprop(∃ G, ⌜(rdat0 c (fun b => V0 b) O0 Wr0).ArrAt 2 cfg0.N G⌝
      ∗ held (c : Thread nD τ) (Pipeline.ucRefs τ sig) (Function.update V0 (Proc.devRef .tc main_v2) G)
      ∗ Pipeline.owesWithin c O0 (Wr0 ∪ cfg0.waitPairs none)) := rfl
theorem reg1_pre (h) (c : Dev nD) : (reg1 V0 V1 O0 O1 Wr0 Wr1 h).pre c
    = iprop(held (c : Thread nD τ) (Pipeline.ucRefs τ sig) V1 ∗ Pipeline.owesWithin c O1 Wr1) := rfl
theorem reg1_post (h) (c : Dev nD) : (reg1 V0 V1 O0 O1 Wr0 Wr1 h).post c
    = iprop(∃ G, ⌜(rdat1 c (fun b => V1 b) O1 Wr1).ArrAt 3 cfg2.N G⌝
      ∗ held (c : Thread nD τ) (Pipeline.ucRefs τ sig) (Function.update V1 (Proc.devRef .tc main_v6) G)
      ∗ Pipeline.owesWithin c O1 (Wr1 ∪ cfg2.waitPairs none)) := rfl
end RegStates

/-! ## @main -/

set_option backward.isDefEq.respectTransparency.types false in
set_option maxHeartbeats 2000000 in
theorem hmain
    (hst : ∀ d : Dev nD, iprop((∃ tab, ⌜Rtab m d tab⌝ ∗ (tLoc d ↦{fullShare} tab)) ∗ (uLoc d ↦{fullShare} m (uLoc d)) ∗ (∃ f, oLoc d ↦{fullShare} f))
        ⊢ (bigSep Finset.univ fun c : Fin ((K (F := F)).nCore 0) => (PP m).st 0 d c : sProp 𝕄))
    (hdn : ∀ d : Dev nD, (bigSep Finset.univ fun c : Fin ((K (F := F)).nCore 0) => (PP m).dn 0 d c : sProp 𝕄)
        ⊢ iprop(∃ tab, ⌜Rtab m d tab⌝ ∗ (tLoc d ↦{fullShare} tab) ∗ (uLoc d ↦{fullShare} m (uLoc d)) ∗ (oLoc d ↦{fullShare} gathered tab (m (uLoc d)))))
    (κ : GSem nD τ sig → ℕ) (d : Dev nD) :
    iprop((K (F := F)).ctx EH (PP m) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  simp only [main, fn_pad.body, wp_bind, wp_pure]
  rw [show (fun b : Ref sig .tc => m ((SparseCore.T d).loc b)) = (fun b : Ref sig .tc => W0 m d b) from rfl, Pipeline.unscopedBufs_held]
  iintro ⟨#Hctx, Hst, ⟨Hb, Hheld, -, -⟩, HG⟩
  -- the constant, the conversion, the padding, the transpose of the user table
  iapply (wp_hlo_within 𝒱 (SparseCore.T d) none Set.univ (op := opC (F := F)) (S := Pipeline.ucRefs τ sig) hC (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := opCv (F := F)) (S := Pipeline.ucRefs τ sig) hCv) $$ [Hb Hheld]
  · isplitl [Hb]; · iexact Hb
    iexact Hheld
  iintro ⟨Hb, Hheld⟩
  rw [wp_ret]; imodintro
  iapply (wp_hlo_within 𝒱 (SparseCore.T d) none Set.univ (op := opPad (F := F)) (S := Pipeline.ucRefs τ sig) hPad) $$ [Hb Hheld]
  · isplitl [Hb]; · iexact Hb
    iexact Hheld
  iintro ⟨Hb, Hheld⟩
  rw [wp_ret]; imodintro; imodintro
  iapply (wp_hlo_within 𝒱 (SparseCore.T d) none Set.univ (op := opT1 (F := F)) (S := Pipeline.ucRefs τ sig) hT1) $$ [Hb Hheld]
  · isplitl [Hb]; · iexact Hb
    iexact Hheld
  iintro ⟨Hb, Hheld⟩
  rw [wp_ret]; imodintro
  -- region 0: what the TensorCore owes the launch rides along, its recorded pairs bounded
  ihave Hst' := (Entails.of_eq (tcSt_open (F := F) d 0)) $$ Hst
  icases Hst' with ⟨⟨%Wt, %hWt, HO⟩, Hstr⟩
  ihave HG' := (Entails.of_eq (GG_eq (F := F) d)) $$ HG
  icases HG' with ⟨⟨Hg0, Ht0⟩, ⟨Hg1, Ht1⟩⟩
  ihave Hlev := (SparseCore.Cfg.ctx_levAts κ) $$ Hctx
  iapply (wp_region0 (rdats (W1 m d) (W1 m d) ((K (F := F)).Otc d 0) 0 (↑Wt) ∅)
    (reg0 (W1 m d) (W1 m d) ((K (F := F)).Otc d 0) 0 (↑Wt) ∅ (Otc_none d 0)) d _)
  isplitl [Hlev]; · iexact Hlev
  isplitl [Hb]; · iexact Hb
  isplitl [Hheld HO]
  · rw [reg0_pre]
    isplitl [Hheld]; · iexact Hheld
    iexists Wt; isplitr; · ipureintro; exact subset_rfl
    iexact HO
  isplitl [Hg0]; · iexact Hg0
  isplitl [Ht0]; · iexact Ht0
  iintro ⟨Hb, Hpost⟩
  ihave Hp := (Entails.of_eq (reg0_post (W1 m d) (W1 m d) ((K (F := F)).Otc d 0) 0 (↑Wt) ∅ (Otc_none d 0) d)) $$ Hpost
  icases Hp with ⟨%tab, %htab, Hheld, %Wt', %hWt', HO⟩
  -- the SparseCore call: the handshake state folded back, the three arrays handed over and taken back
  have hWB0 : (K (F := F)).WBelow (SparseCore.T d) Wt' (8 * 0) := wbelow_grow hWt (waitPairs_none cfg0) hWt'
  have hRtab : Rtab m d tab :=
    (Pipeline.RDat.arrAt_congr (rd := rdat0 d (fun b => W1 m d b) ((K (F := F)).Otc d 0) ↑Wt) (rd' := rdat0 d (fun b => W1 m d b) 0 Set.univ)
      (w := 2) rfl rfl cfg0.N tab).mpr htab
  ihave Hst := (Entails.of_eq (tcSt_open (F := F) d 0).symm) $$ [HO Hstr]
  · isplitl [HO]
    · iexists Wt'; isplitr; · ipureintro; exact hWB0
      iexact HO
    iexact Hstr
  ihave Hheld := (Entails.of_eq (show (held (d.tc : Thread nD τ) (Pipeline.ucRefs τ sig) (Function.update (W1 m d) (Proc.devRef .tc main_v2) tab) : sProp 𝕄)
      = held (SparseCore.T d) (Pipeline.ucRefs τ sig) (W2 m d tab) from rfl)) $$ Hheld
  ihave Hh := (Entails.of_eq (StableHlo.held_sub_split (SparseCore.T d) T3_sub (W2 m d tab))) $$ Hheld
  icases Hh with ⟨H3, Hrest⟩
  ihave H3' := (Entails.of_eq (held_T3 d (W2 m d tab))) $$ H3
  icases H3' with ⟨Htb, Hu, Ho⟩
  rw [W2_tab, W2_users]
  iapply ((K (F := F)).wp_run (D (F := F)) 𝒱 (EH := EH) (P := PP m) κ d 0)
  isplitr; · iexact Hctx
  isplitl [Hst]; · iexact Hst
  isplitl [Htb Hu Ho]
  · iapply (hst d)
    isplitl [Htb]
    · iexists tab; isplitr; · ipureintro; exact hRtab
      iexact Htb
    isplitl [Hu]; · iexact Hu
    iexists _; iexact Ho
  iintro ⟨Hst, Hdn⟩
  ihave Hdn' := (hdn d) $$ Hdn
  icases Hdn' with ⟨%tab', %htab', Htb, Hu, Ho⟩
  -- the three arrays back among the held buffers, at the table that came back
  ihave H3 := (Entails.of_eq (held_T3 d (W3 m d tab')).symm) $$ [Htb Hu Ho]
  · rw [W3_tab, W3_users, W3_rows]
    isplitl [Htb]; · iexact Htb
    isplitl [Hu]; · iexact Hu
    iexact Ho
  ihave Hrest' := (Entails.of_eq (held_rest_congr d (W2 m d tab) (W3 m d tab') (W3_off m d tab tab')).symm) $$ Hrest
  ihave Hheld := (Entails.of_eq (StableHlo.held_sub_split (SparseCore.T d) T3_sub (W3 m d tab')).symm) $$ [H3 Hrest']
  · isplitl [H3]; · iexact H3
    iexact Hrest'
  -- the transposes of the projection and of the item table
  iapply (wp_hlo_within 𝒱 (SparseCore.T d) none Set.univ (op := opT4 (F := F)) (S := Pipeline.ucRefs τ sig) hT4 (V := W3 m d tab')) $$ [Hb Hheld]
  · isplitl [Hb]; · iexact Hb
    iexact Hheld
  iintro ⟨Hb, Hheld⟩
  rw [wp_ret]; imodintro
  iapply (wp_hlo_within 𝒱 (SparseCore.T d) none Set.univ (op := opT5 (F := F)) (S := Pipeline.ucRefs τ sig) hT5) $$ [Hb Hheld]
  · isplitl [Hb]; · iexact Hb
    iexact Hheld
  iintro ⟨Hb, Hheld⟩
  rw [wp_ret]; imodintro
  -- region 1
  ihave Hst := (Entails.of_eq (show ((K (F := F)).tcSt EH d (((0 : Fin 1) : ℕ) + 1) : sProp 𝕄) = (K (F := F)).tcSt EH d 1 from rfl)) $$ Hst
  ihave Hst' := (Entails.of_eq (tcSt_open (F := F) d 1)) $$ Hst
  icases Hst' with ⟨⟨%Wu, %hWu, HO⟩, Hstr⟩
  iapply (wp_region1 (rdats (W1 m d) (W4 m d tab') 0 ((K (F := F)).Otc d 1) ∅ (↑Wu))
    (reg1 (W1 m d) (W4 m d tab') 0 ((K (F := F)).Otc d 1) ∅ (↑Wu) (Otc_none d 1)) d _)
  isplitl [Hlev]; · iexact Hlev
  isplitl [Hb]; · iexact Hb
  isplitl [Hheld HO]
  · rw [reg1_pre]
    isplitl [Hheld]; · iexact Hheld
    iexists Wu; isplitr; · ipureintro; exact subset_rfl
    iexact HO
  isplitl [Hg1]; · iexact Hg1
  isplitl [Ht1]; · iexact Ht1
  iintro ⟨Hb, Hpost⟩
  ihave Hp := (Entails.of_eq (reg1_post (W1 m d) (W4 m d tab') 0 ((K (F := F)).Otc d 1) ∅ (↑Wu) (Otc_none d 1) d)) $$ Hpost
  icases Hp with ⟨%G, %hG, Hheld, %Wu', %hWu', HO⟩
  have hWB1 : (K (F := F)).WBelow (SparseCore.T d) Wu' (8 * 1) := wbelow_grow hWu (waitPairs_none cfg2) hWu'
  have hRsc : Rsc m d tab' G :=
    (Pipeline.RDat.arrAt_congr (rd := rdat1 d (fun b => W4 m d tab' b) ((K (F := F)).Otc d 1) ↑Wu) (rd' := rdat1 d (fun b => W4 m d tab' b) 0 Set.univ)
      (w := 3) rfl rfl cfg2.N G).mpr hG
  ihave Hheld := (Entails.of_eq (show (held (d.tc : Thread nD τ) (Pipeline.ucRefs τ sig) (Function.update (W4 m d tab') (Proc.devRef .tc main_v6) G) : sProp 𝕄)
      = held (SparseCore.T d) (Pipeline.ucRefs τ sig) (W5 m d tab' G) from rfl)) $$ Hheld
  -- the last transpose
  iapply (wp_hlo_within 𝒱 (SparseCore.T d) none Set.univ (op := opT7 (F := F)) (S := Pipeline.ucRefs τ sig) hT7 (V := W5 m d tab' G)) $$ [Hb Hheld]
  · isplitl [Hb]; · iexact Hb
    iexact Hheld
  iintro ⟨Hb, Hheld⟩
  rw [wp_ret]; imodintro; imodintro
  isplitl [HO Hstr]
  · iapply (Entails.of_eq (tcSt_open (F := F) d 1).symm)
    isplitl [HO]
    · iexists Wu'; isplitr; · ipureintro; exact hWB1
      iexact HO
    iexact Hstr
  unfold FIN
  iexists tab', G
  isplitr; · ipureintro; exact ⟨htab', hRsc⟩
  iexact Hheld

end Cert.KernelIdeal.Main

end
-- ==== Proof.TileValueI.lean ====
/-
  The value a vector subcore's block of the result holds after its three copies: row y of the block is the
  table's row named by the user word the subcore fetched at position y, and that word is the requested
  user of the block's row — so the block agrees with the whole-array gather on its elements.
-/
import proofs.«210177_g34866544509008_cont_8to1_b_1726_19_alg».proof.Proof.TileDefsI
import Idealize.ShloMosaic.Lib.Writes

noncomputable section

namespace Cert.KernelIdeal.Tile

open Cert.KernelIdeal Cert.KernelIdeal.Gen Cert.KernelIdeal.Setup

open Idealize.ShloMosaic Idealize.ShloMosaic.ValueIdx
open Idealize.ShloMosaic.SparseCore (S V T)

variable {F : FTy → Type}

/-- The table as the gather names its source: the whole array, sliced at offset 0 to its full extent. -/
abbrev tSl : Memref sig .scVector .hbm S100000x128 .f32 :=
  (tV).slice (Rect.unit (s := S100000x128) ![0, 0] S100000x128.size inb_S100000x128_S100000x128_0_0) (fun _ => rfl)

section Value

variable (d : Dev nD) (L : grid1.Coords)

/-- Position x of a grid point's 32 user words is word (64·subcore + 32·core + x) of the list. -/
theorem uSl_emb_val (x : S32.Idx) : (((uSl L).view.emb x) 0).val = 64 * (L 1).val + 32 * (L 0).val + (x 0).val := by
  show ((Rect.unit (s := S1024) (k1_off1 L) S32.size (k1_off1_inb L)).emb x 0).val = _
  rw [Rect.emb_apply, Rect.off_unit, Rect.stride_unit]
  have h : k1_off1 L 0 = 64 * (L 1).val + 32 * (L 0).val := by rw [k1_off1_eq]; rfl
  omega
/-- Row y 0, column y 1 of a grid point's block is row (64·subcore + 32·core + y 0), column y 1 of the result. -/
theorem oSl_emb_val0 (y : S32x128.Idx) : (((oSl L).view.emb y) 0).val = 64 * (L 1).val + 32 * (L 0).val + (y 0).val := by
  show ((Rect.unit (s := S1024x128) (k1_off2 L) S32x128.size (k1_off2_inb L)).emb y 0).val = _
  rw [Rect.emb_apply, Rect.off_unit, Rect.stride_unit]
  have h : k1_off2 L 0 = 64 * (L 1).val + 32 * (L 0).val := by rw [k1_off2_eq]; rfl
  omega
theorem oSl_emb_val1 (y : S32x128.Idx) : (((oSl L).view.emb y) 1).val = (y 1).val := by
  show ((Rect.unit (s := S1024x128) (k1_off2 L) S32x128.size (k1_off2_inb L)).emb y 1).val = _
  rw [Rect.emb_apply, Rect.off_unit, Rect.stride_unit]
  have h : k1_off2 L 1 = 0 := by rw [k1_off2_eq]; rfl
  omega
theorem tSl_emb (z : S100000x128.Idx) : (tSl).view.emb z = z := by
  funext a; apply Fin.ext
  show ((Rect.unit (s := S100000x128) ![0, 0] S100000x128.size inb_S100000x128_S100000x128_0_0).emb z a).val = _
  rw [Rect.emb_apply, Rect.off_unit, Rect.stride_unit]
  match a with
  | ⟨0, _⟩ => simp
  | ⟨1, _⟩ => simp

/-- The index a gathered row's element is read at: the row its word names, the element's own column. -/
theorem gather_idx (idx : S32.Idx → Elt F .i32) (hn : S32.numel = S32x128.size gathers_S100000x128_S32x128.axis')
    (hin : ∀ x, (idx x).toNat < S100000x128.size gathers_S100000x128_S32x128.axis) (y : S32x128.Idx) :
    gathers_S100000x128_S32x128.idx (SparseCore.rows idx hn hin) y = ix2 ⟨(idx (ix1 (y 0))).toNat, hin _⟩ (y 1) := by
  funext a; apply Fin.ext
  match a with
  | ⟨0, _⟩ =>
    show (gathers_S100000x128_S32x128.idx (SparseCore.rows idx hn hin) y gathers_S100000x128_S32x128.axis).val = _
    rw [Shape.Gathers.idx_axis]
    show (idx (S32.rowMajor.symm ((y 0).cast hn.symm))).toNat = (idx (ix1 (y 0))).toNat
    congr 2
    apply S32.rowMajor.injective
    rw [Equiv.apply_symm_apply]
    apply Fin.ext
    rw [Shape.rowMajor_val_one]
    rfl
  | ⟨1, _⟩ =>
    exact Shape.Gathers.idx_of_ne gathers_S100000x128_S32x128 (SparseCore.rows idx hn hin) y ⟨1, by decide⟩ Nat.one_ne_zero

/-- What the result's block holds after the three copies, at its own elements: the gathered rows. -/
theorem out_value (u : Buf (Elt F) (uLoc d)) (hpre : ∀ b : Fin 1024, (u (ix1 b)).toNat < 100000)
    (tab : Buf (Elt F) (tLoc d)) (fo : (oSl L).view.ty.Contents (Elt F)) (fr : (sR).view.ty.Contents (Elt F))
    (idx : S32.Idx → Elt F .i32) (hidx : ∀ x, idx x = u ((uSl L).view.emb x))
    (hn : S32.numel = S32x128.size gathers_S100000x128_S32x128.axis')
    (hin : ∀ x, (idx x).toNat < S100000x128.size gathers_S100000x128_S32x128.axis) :
    ∀ i ∈ (oSl L).view.set,
      (oSl L).view.writes (Elt F) fo [⟨Rect.whole S32x128, ReadAs.same.apply ((sR).view.read (Elt F) ((sR).view.writes (Elt F) fr
        [⟨Rect.whole S32x128, SparseCore.gatherPayload gathers_S100000x128_S32x128 ((tSl).view.read (Elt F) tab) (SparseCore.rows idx hn hin)⟩]))⟩] i
        = gathered tab u i := by
  intro i hi
  obtain ⟨y, -, rfl⟩ := Finset.mem_map.mp hi
  have e1 := View.read_writes_cons_emb (oSl L).view fo (Rect.whole S32x128)
    (ReadAs.same.apply ((sR).view.read (Elt F) ((sR).view.writes (Elt F) fr
        [⟨Rect.whole S32x128, SparseCore.gatherPayload gathers_S100000x128_S32x128 ((tSl).view.read (Elt F) tab) (SparseCore.rows idx hn hin)⟩]))) [] y
  rw [Rect.emb_whole_apply, View.read_apply, cast_eq] at e1
  refine e1.trans ?_
  have e2 := View.read_writes_cons_emb (sR).view fr (Rect.whole S32x128)
    (SparseCore.gatherPayload gathers_S100000x128_S32x128 ((tSl).view.read (Elt F) tab) (SparseCore.rows idx hn hin)) [] y
  rw [Rect.emb_whole_apply] at e2
  refine e2.trans ?_
  unfold SparseCore.gatherPayload gathered
  rw [View.read_apply, cast_eq, tSl_emb, gather_idx]
  congr 1
  funext a; apply Fin.ext
  match a with
  | ⟨0, _⟩ =>
    show (idx (ix1 (y 0))).toNat = (Cert.Spec.rowOf (u (ix1 (((oSl L).view.emb y) 0)))).val
    refine Eq.trans ?_ (Cert.Spec.rowOf_val_of_lt (hpre _)).symm
    rw [hidx]
    congr 2
    funext b; apply Fin.ext
    match b with
    | ⟨0, _⟩ => exact (uSl_emb_val L _).trans (oSl_emb_val0 L y).symm
  | ⟨1, _⟩ => exact (oSl_emb_val1 L y).symm

end Value

end Cert.KernelIdeal.Tile

end
-- ==== Proof.TileBodyI.lean ====
/-
  The row-gather kernel's body on one vector subcore, at a symbolic grid point: the subcore fetches its 32
  user words, gathers the 32 table rows they name into its row scratch, and copies the scratch to its block
  of the result. Each of the three copies completes on a semaphore of its own before the next is issued, so
  no schedule is needed; the user words name rows of the table by the certificate's precondition.
-/
import proofs.«210177_g34866544509008_cont_8to1_b_1726_19_alg».proof.Proof.TileValueI
import Idealize.ShloMosaic.Lib.Tactic

noncomputable section

namespace Cert.KernelIdeal.Tile

open Cert.KernelIdeal Cert.KernelIdeal.Gen Cert.KernelIdeal.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid1.Coords)

abbrev cV (L : grid1.Coords) : Fin τ.nSC := (L 0).castLE hcore1
abbrev jV (L : grid1.Coords) : Fin τ.nSub := (L 1).castLE hsub1

/-- The subcore's three DMA semaphores: the fetch's, the gather's, the write-out's. -/
abbrev cA (d : Dev nD) (c : Fin τ.nSC) (i : Fin τ.nSub) : GSem nD τ sig := (V d c i, .dma cc1_scoped0.sem)
abbrev cG (d : Dev nD) (c : Fin τ.nSC) (i : Fin τ.nSub) : GSem nD τ sig := (V d c i, .dma cc1_scratch2.sem)
abbrev cB (d : Dev nD) (c : Fin τ.nSC) (i : Fin τ.nSub) : GSem nD τ sig := (V d c i, .dma cc1_scoped1.sem)

theorem ownSems0_V :
    (ownSems0 (V d (cV L) (jV L)) : sProp 𝕄)
      = iprop(semVal (cA d (cV L) (jV L)) 0 ∗ semVal (cG d (cV L) (jV L)) 0 ∗ semVal (cB d (cV L) (jV L)) 0
          ∗ bigSep ((((ownCells (V d (cV L) (jV L))).erase (cA d (cV L) (jV L))).erase (cG d (cV L) (jV L))).erase (cB d (cV L) (jV L)))
              fun g => semVal g 0) := by
  unfold SparseCore.Cfg.ownSems0
  rw [SparseCore.bigSep_erase' ((mem_ownCells (g := cA d (cV L) (jV L))).mpr ⟨rfl, by
      show (SemLoc.dma cc1_scoped0.sem : SemLoc sig).isScoped .scVector = true; decide⟩),
    SparseCore.bigSep_erase' (Finset.mem_erase.mpr ⟨by simp [cA, cG]; decide, (mem_ownCells (g := cG d (cV L) (jV L))).mpr ⟨rfl, by
      show (SemLoc.dma cc1_scratch2.sem : SemLoc sig).isScoped .scVector = true; decide⟩⟩),
    SparseCore.bigSep_erase' (Finset.mem_erase.mpr ⟨by simp [cG, cB]; decide, Finset.mem_erase.mpr ⟨by simp [cA, cB]; decide,
      (mem_ownCells (g := cB d (cV L) (jV L))).mpr ⟨rfl, by show (SemLoc.dma cc1_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The arrays as the subcore's memrefs address them are the TensorCore's arrays. -/
theorem pts_t (q : PosShare TreeShare) (f : Buf (Elt F) (tLoc d)) :
    ((tV).view.loc (V d (cV L) (jV L)) ↦{q} f : sProp 𝕄) = tLoc d ↦{q} f := rfl
theorem pts_u (q : PosShare TreeShare) (f : Buf (Elt F) (uLoc d)) :
    ((uV).view.loc (V d (cV L) (jV L)) ↦{q} f : sProp 𝕄) = uLoc d ↦{q} f := rfl
theorem pts_o (f : Buf (Elt F) (oLoc d)) :
    ((oSl L).view.loc (V d (cV L) (jV L)) ↦[(oSl L).view.set]{fullShare} f : sProp 𝕄) = oLoc d ↦[oSet L]{fullShare} f := rfl
theorem pts_sI (f : Buf (Elt F) ((V d (cV L) (jV L)).loc cc1_scratch0)) :
    ((sI).view.loc (V d (cV L) (jV L)) ↦{fullShare} f : sProp 𝕄) = (V d (cV L) (jV L)).loc cc1_scratch0 ↦{fullShare} f := rfl
theorem pts_sR (f : Buf (Elt F) ((V d (cV L) (jV L)).loc cc1_scratch1)) :
    ((sR).view.loc (V d (cV L) (jV L)) ↦{fullShare} f : sProp 𝕄) = (V d (cV L) (jV L)).loc cc1_scratch1 ↦{fullShare} f := rfl

variable [FloatOps F]

theorem tile_body (hF : (K (F := F)).Facts) (hpre : ∀ (d : Dev nD) (b : Fin 1024), (m (uLoc d) (ix1 b)).toNat < 100000)
    (O : CellTallies nD τ sig (HIx 1)) (W : Waits sig (HIx 1)) (hO : ∀ g, O g none = 0) :
    iprop(levAts (K (F := F)).L (K (F := F)).lev ∗ emp ∗ tileGo m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L tV (Memref.isWhole_whole _) uV (Memref.isWhole_whole _) oV (Memref.isWhole_whole _)
            sI (Memref.isWhole_whole _) sR (Memref.isWhole_whole _) cc1_scratch2 cc1_scoped0 cc1_scoped1)
          fun _ => iprop(tileTd m d L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  unfold tileGo
  iintro ⟨#Hlv, -, ⟨%tab, Ht, Hu, %fo, Ho⟩, ⟨⟨%fs, Hs⟩, ⟨%fr, Hr⟩, Hbufs⟩, ⟨HsemA, HsemG, HsemB, Hsems⟩, HO⟩
  ihave Hmw := ((K (F := F)).mayWaits_none (thr := V d (cV L) (jV L)) hO) $$ Hlv
  ihave Ht' := (Entails.of_eq (pts_t (F := F) d L _ _).symm) $$ Ht
  ihave Hu' := (Entails.of_eq (pts_u (F := F) d L _ _).symm) $$ Hu
  ihave Ho' := (Entails.of_eq (pts_o (F := F) d L _).symm) $$ Ho
  ihave Hs' := (Entails.of_eq (pts_sI (F := F) d L _).symm) $$ Hs
  ihave Hr' := (Entails.of_eq (pts_sR (F := F) d L _).symm) $$ Hr
  have hw : ∀ g : Buf (Elt F) ((sI).view.loc (V d (cV L) (jV L))),
      (sI).view.read (Elt F) ((sI).view.write (Elt F) g (ReadAs.same.apply ((uSl L).view.read (Elt F) (m (uLoc d)))) Finset.univ)
        = (uSl L).view.read (Elt F) (m (uLoc d)) := fun g => by
    have e : (sI).view.write (Elt F) g ((uSl L).view.read (Elt F) (m (uLoc d))) Finset.univ = (uSl L).view.read (Elt F) (m (uLoc d)) :=
      View.write_whole_univ _ _ _
    show (sI).view.read (Elt F) ((sI).view.write (Elt F) g ((uSl L).view.read (Elt F) (m (uLoc d))) Finset.univ) = _
    rw [e]; rfl
  have hin : ∀ (g : Buf (Elt F) ((sI).view.loc (V d (cV L) (jV L)))) (x : S32.Idx),
      ((sI).view.read (Elt F) ((sI).view.write (Elt F) g
          (ReadAs.same.apply ((uSl L).view.read (Elt F) (m (uLoc d)))) Finset.univ) x).toNat
        < S100000x128.size gathers_S100000x128_S32x128.axis := by
    intro g x
    rw [hw g]
    show ((uSl L).view.read (Elt F) (m (uLoc d)) x).toNat < 100000
    rw [View.read_apply, cast_eq, eq_ix1 ((uSl L).view.emb x)]
    exact hpre d _
  sl_exec
  unfold tile_body.sl.dma0_1 tile_body.sl.gather1 tile_body.sl.dma0
  sl_step
  ihave Ho2 := (Entails.of_eq (pointsTo_congr (out_value (F := F) d L (m (uLoc d)) (hpre d) tab fo fr _
    (fun x => (congrFun (hw fs) x).trans (by rw [View.read_apply, cast_eq])) _ _))) $$ Ho'
  unfold tileTd
  isplitl [Ht' Hu' Ho2]
  · iexists tab
    isplitl [Ht']; · iapply (Entails.of_eq (pts_t (F := F) d L _ _)); iexact Ht'
    isplitl [Hu']; · iapply (Entails.of_eq (pts_u (F := F) d L _ _)); iexact Hu'
    iapply (Entails.of_eq (pts_o (F := F) d L _)); iexact Ho2
  isplitl [Hs' Hr' Hbufs]
  · isplitl [Hs']; · iexists _; iapply (Entails.of_eq (pts_sI (F := F) d L _)); iexact Hs'
    isplitl [Hr']; · iexists _; iapply (Entails.of_eq (pts_sR (F := F) d L _)); iexact Hr'
    iexact Hbufs
  isplitl [HsemA HsemG HsemB Hsems]
  · isplitl [HsemA]; · iexact HsemA
    isplitl [HsemG]; · iexact HsemG
    isplitl [HsemB]; · iexact HsemB
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Tile

/-! ## The launch theorem's obligation -/

variable [FloatOps F]

theorem defs₀_vector (c : Fin τ.nSC) (s : Fin τ.nSub) :
    defs₀ (F := F) (.scVector c s) 1 ()
      = SparseCore.onTile hcore1 hsub1 (fun c s => cc1_gather_kernel (coordsV c s)
          tV (Memref.isWhole_whole _) uV (Memref.isWhole_whole _) oV (Memref.isWhole_whole _)
          sI (Memref.isWhole_whole _) sR (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (R : (d : Dev nD) → Buf (Elt F) (tLoc d) → Prop)

theorem tileObl (hpre : ∀ (d : Dev nD) (b : Fin 1024), (m (uLoc d) (ix1 b)).toNat < 100000) :
    (K (F := F)).TileObl (D (F := F)) 𝒱 (P m R) v₀ 0 := by
  intro d c i O W hO _ _
  simp only [show (P m R).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m d (coordsV ⟨_, hc.1⟩ ⟨_, hc.2⟩) facts hpre O W hO).trans (wp_mono frame _ _ fun _ => obl_post)

end Cert.KernelIdeal.Tile

end
-- ==== Proof.TileSplitI.lean ====
/-
  How the row-gather call's operands split among the processors and come together again.

  The 32 blocks of 32 rows (block of SparseCore c, subcore s: rows 64 s + 32 c and the 31 after) are
  pairwise disjoint and cover the 1024 rows, so the result splits into them and is their join. The table
  and the list of users split by read shares: the full share into two halves, a half into sixteen read
  tokens and a remainder the split keeps until the tokens come back. Every holder of a share of the table
  names contents of its own; holders of one location agree, which identifies them when shares are joined.
-/
import proofs.«210177_g34866544509008_cont_8to1_b_1726_19_alg».proof.Proof.TileDefsI
import Idealize.ShloMosaic.Lib.Tactic

noncomputable section

namespace Cert.KernelIdeal.Tile

open Cert.KernelIdeal Cert.KernelIdeal.Gen Cert.KernelIdeal.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok)

variable {F : FTy → Type}

local notation "𝕄" => MT nD τ sig (HIx 1) (Elt F) ℕ UU ℕ

/-! ## The blocks: disjoint, covering -/

theorem oSet_eq (L : grid1.Coords) : oSet L = (Rect.unit (s := S1024x128) (k1_off2 L) S32x128.size (k1_off2_inb L)).set := by
  show ((View.whole (main_v3_scv : Ref sig .scVector)).slice (Rect.unit (s := S1024x128) (k1_off2 L) S32x128.size (k1_off2_inb L))).set = _
  rw [View.set_slice]; exact Finset.map_refl

/-- A block is the rows from 64·subcore + 32·core, 32 of them, every column. -/
theorem mem_oSet (L : grid1.Coords) (i : S1024x128.Idx) :
    i ∈ oSet L ↔ 64 * (L 1).val + 32 * (L 0).val ≤ (i 0).val ∧ (i 0).val < 64 * (L 1).val + 32 * (L 0).val + 32 := by
  rw [oSet_eq, Rect.mem_set_unit]
  have h0 : k1_off2 L 0 = 64 * (L 1).val + 32 * (L 0).val := by rw [k1_off2_eq]; rfl
  have h1 : k1_off2 L 1 = 0 := by rw [k1_off2_eq]; rfl
  have s0 : S32x128.size 0 = 32 := rfl
  have s1 : S32x128.size 1 = 128 := rfl
  have hi1 : (i 1).val < 128 := (i 1).isLt
  constructor
  · intro h; have := h 0; omega
  · intro h a
    match a with
    | ⟨0, _⟩ => show k1_off2 L 0 ≤ (i 0).val ∧ (i 0).val < k1_off2 L 0 + S32x128.size 0; omega
    | ⟨1, _⟩ => show k1_off2 L 1 ≤ (i 1).val ∧ (i 1).val < k1_off2 L 1 + S32x128.size 1; omega

abbrev blockOf (cs : Fin 2 × Fin 16) : Finset S1024x128.Idx := oSet (coordsV cs.1 cs.2)

theorem blocks_disjoint : ∀ t ∈ (Finset.univ : Finset (Fin 2 × Fin 16)), ∀ t' ∈ (Finset.univ : Finset (Fin 2 × Fin 16)), t ≠ t' →
    Disjoint (blockOf t) (blockOf t') := by
  intro t _ t' _ hne
  refine Finset.disjoint_left.mpr fun i hi hi' => hne ?_
  have h := (mem_oSet _ i).mp hi
  have h' := (mem_oSet _ i).mp hi'
  have c1 : (coordsV t.1 t.2 0).val = t.1.val := rfl
  have c2 : (coordsV t.1 t.2 1).val = t.2.val := rfl
  have c1' : (coordsV t'.1 t'.2 0).val = t'.1.val := rfl
  have c2' : (coordsV t'.1 t'.2 1).val = t'.2.val := rfl
  rw [c1, c2] at h; rw [c1', c2'] at h'
  have := t.1.isLt; have := t'.1.isLt
  exact Prod.ext (Fin.ext (by omega)) (Fin.ext (by omega))

theorem blocks_cover : (Finset.univ : Finset (Fin 2 × Fin 16)).biUnion blockOf = Finset.univ := by
  refine Finset.eq_univ_iff_forall.mpr fun i => Finset.mem_biUnion.mpr ?_
  have hi : (i 0).val < 1024 := (i 0).isLt
  refine ⟨(⟨((i 0).val % 64) / 32, by omega⟩, ⟨(i 0).val / 64, by omega⟩), Finset.mem_univ _, (mem_oSet _ i).mpr ?_⟩
  show 64 * ((i 0).val / 64) + 32 * (((i 0).val % 64) / 32) ≤ (i 0).val ∧ (i 0).val < 64 * ((i 0).val / 64) + 32 * (((i 0).val % 64) / 32) + 32
  omega

/-- The whole result is its 32 blocks, at one contents. -/
theorem o_blocks (d : Dev nD) (f : Buf (Elt F) (oLoc d)) :
    (oLoc d ↦{fullShare} f : sProp 𝕄)
      = iprop((bigSep Finset.univ fun s : Fin 16 => oLoc d ↦[oSet (coordsV (0 : Fin 2) s)]{fullShare} f)
          ∗ (bigSep Finset.univ fun s : Fin 16 => oLoc d ↦[oSet (coordsV (1 : Fin 2) s)]{fullShare} f)) := by
  have e : (oLoc d ↦{fullShare} f : sProp 𝕄) = bigSep Finset.univ fun t : Fin 2 × Fin 16 => oLoc d ↦[blockOf t]{fullShare} f := by
    rw [← pointsTo_biUnion Finset.univ (ℓ := oLoc d) blockOf blocks_disjoint, blocks_cover]
  rw [e, bigSep_univ_prod, bigSep_univ_two]

/-! ## Holders of one location agree -/

theorem agree_keep {ℓ : Loc nD τ sig} {q₁ q₂ : PosShare TreeShare} {f g : Buf (Elt F) ℓ} :
    iprop((ℓ ↦{q₁} f) ∗ ℓ ↦{q₂} g) ⊢ (iprop(⌜f = g⌝ ∗ (ℓ ↦{q₁} f) ∗ ℓ ↦{q₂} g) : sProp 𝕄) := by
  refine pure_elim (f = g) (pointsTo_agree.trans (BI.pure_mono fun hh => funext fun i => (hh i (by simp)).1)) fun e => ?_
  iintro ⟨H1, H2⟩
  isplitr; · ipureintro; exact e
  isplitl [H1]; · iexact H1
  iexact H2

/-- A holder at `f` beside a family of holders, each at contents of its own: all are at `f`. -/
theorem agree_family {I : Type} [DecidableEq I] (s : Finset I) {ℓ : Loc nD τ sig} (q₀ : PosShare TreeShare) (q : I → PosShare TreeShare)
    (f : Buf (Elt F) ℓ) (Ψ : I → Buf (Elt F) ℓ → sProp 𝕄) :
    iprop((ℓ ↦{q₀} f) ∗ bigSep s fun i => iprop(∃ g, (ℓ ↦{q i} g) ∗ Ψ i g))
      ⊢ (iprop((ℓ ↦{q₀} f) ∗ bigSep s fun i => iprop((ℓ ↦{q i} f) ∗ Ψ i f)) : sProp 𝕄) := by
  induction s using Finset.induction_on with
  | empty => rw [bigSep_empty, bigSep_empty]
  | insert i s hi ih =>
    have e1 : bigSep (insert i s) (fun i => iprop(∃ g, (ℓ ↦{q i} g) ∗ Ψ i g))
        = iprop((∃ g, (ℓ ↦{q i} g) ∗ Ψ i g) ∗ bigSep s fun i => iprop(∃ g, (ℓ ↦{q i} g) ∗ Ψ i g)) := bigSep_insert hi
    have e2 : bigSep (insert i s) (fun i => iprop((ℓ ↦{q i} f) ∗ Ψ i f))
        = iprop(((ℓ ↦{q i} f) ∗ Ψ i f) ∗ bigSep s fun i => iprop((ℓ ↦{q i} f) ∗ Ψ i f)) := bigSep_insert hi
    rw [e1, e2]
    iintro ⟨H0, ⟨%g, Hg, HΨ⟩, Hs⟩
    ihave H := agree_keep $$ [H0 Hg]
    · isplitl [H0]; · iexact H0
      iexact Hg
    icases H with ⟨%e, H0, Hg⟩
    subst e
    ihave H' := ih $$ [H0 Hs]
    · isplitl [H0]; · iexact H0
      iexact Hs
    icases H' with ⟨H0, Hs⟩
    isplitl [H0]; · iexact H0
    isplitl [Hg HΨ]
    · isplitl [Hg]; · iexact Hg
      iexact HΨ
    iexact Hs

/-! ## The shares -/

theorem qC_zero : qC 0 = fullShare.left := if_pos rfl
theorem qC_one : qC 1 = fullShare.right := if_neg Nat.one_ne_zero

variable (m : (ℓ : Loc nD τ sig) → Buf (Elt F) ℓ)
variable (R : (d : Dev nD) → Buf (Elt F) (tLoc d) → Prop)

omit m R in
theorem split3 {I : Type} (s : Finset I) (A B C : I → sProp 𝕄) :
    bigSep s (fun i => iprop(A i ∗ B i ∗ C i)) ⊢ iprop(bigSep s A ∗ bigSep s B ∗ bigSep s C) := by
  rw [bigSep_sep', bigSep_sep']
omit m R in
theorem join3 {I : Type} (s : Finset I) (A B C : I → sProp 𝕄) :
    iprop(bigSep s A ∗ bigSep s B ∗ bigSep s C) ⊢ bigSep s (fun i => iprop(A i ∗ B i ∗ C i)) := by
  rw [bigSep_sep', bigSep_sep']

theorem go_one (d : Dev nD) (c : Fin 2) (i : Fin 16) (tab : Buf (Elt F) (tLoc d)) :
    iprop((tLoc d ↦{shareTok (qC c.val) 16 i} tab) ∗ (uLoc d ↦{shareTok (qC c.val) 16 i} m (uLoc d))
        ∗ ∃ f, oLoc d ↦[oSet (coordsV c i)]{fullShare} f)
      ⊢ (tileGo m d (coordsV c i) : sProp 𝕄) := by
  unfold tileGo
  iintro ⟨Ht, Hu, Ho⟩
  iexists tab
  isplitl [Ht]; · iexact Ht
  isplitl [Hu]; · iexact Hu
  iexact Ho

omit m R in
theorem some_of {ℓ : Loc nD τ sig} (I : Finset (Idx ℓ)) (f : Buf (Elt F) ℓ) :
    (ℓ ↦[I]{fullShare} f : sProp 𝕄) ⊢ iprop(∃ f, ℓ ↦[I]{fullShare} f) := by
  iintro H; iexists f; iexact H

omit m R in
theorem blocks_some (d : Dev nD) (c : Fin 2) (f : Buf (Elt F) (oLoc d)) :
    (bigSep Finset.univ fun s : Fin 16 => oLoc d ↦[oSet (coordsV c s)]{fullShare} f : sProp 𝕄)
      ⊢ bigSep Finset.univ fun s : Fin 16 => iprop(∃ f, oLoc d ↦[oSet (coordsV c s)]{fullShare} f) :=
  bigSep_mono fun s _ => some_of _ f

/-- The sixteen subcores' operands from the tokens of a SparseCore's shares and its blocks. -/
theorem go_intro (d : Dev nD) (c : Fin 2) (tab : Buf (Elt F) (tLoc d)) :
    iprop((bigSep Finset.univ fun i : Fin 16 => tLoc d ↦{shareTok (qC c.val) 16 i} tab)
        ∗ (bigSep Finset.univ fun i : Fin 16 => uLoc d ↦{shareTok (qC c.val) 16 i} m (uLoc d))
        ∗ bigSep Finset.univ fun i : Fin 16 => iprop(∃ f, oLoc d ↦[oSet (coordsV c i)]{fullShare} f))
      ⊢ (bigSep Finset.univ fun i : Fin 16 => tileGo m d (coordsV c i) : sProp 𝕄) := by
  exact (join3 _ _ _ _).trans (bigSep_mono fun i _ => go_one m d c i tab)

/-- A SparseCore's results from the remainders of its shares and its sixteen subcores' results. -/
theorem dn_intro (d : Dev nD) (c : Fin 2) (tab : Buf (Elt F) (tLoc d)) (hR : R d tab) :
    iprop((tLoc d ↦{shareDrop (qC c.val) 16} tab) ∗ (uLoc d ↦{shareDrop (qC c.val) 16} m (uLoc d))
        ∗ bigSep Finset.univ fun i : Fin 16 => tileTd m d (coordsV c i))
      ⊢ (coreDn m R d c : sProp 𝕄) := by
  unfold coreDn
  iintro ⟨Htr, Hur, Htd⟩
  ihave H := (agree_family (F := F) Finset.univ (shareDrop (qC c.val) 16) (fun i : Fin 16 => shareTok (qC c.val) 16 i) tab
      (fun i g => iprop((uLoc d ↦{shareTok (qC c.val) 16 i} m (uLoc d)) ∗ oLoc d ↦[oSet (coordsV c i)]{fullShare} gathered g (m (uLoc d))))) $$ [Htr Htd]
  · isplitl [Htr]; · iexact Htr
    iexact Htd
  icases H with ⟨Htr, Htd⟩
  ihave H2 := (split3 (F := F) _ _ _ _) $$ Htd
  icases H2 with ⟨Hts, Hus, Hos⟩
  iexists tab
  isplitr; · ipureintro; exact hR
  isplitl [Htr Hts]
  · iapply (Transfers.pointsTo_toks_join (qC c.val) 16)
    isplitl [Htr]; · iexact Htr
    iexact Hts
  isplitl [Hur Hus]
  · iapply (Transfers.pointsTo_toks_join (qC c.val) 16)
    isplitl [Hur]; · iexact Hur
    iexact Hus
  iexact Hos

theorem vecSplit' : (K (F := F)).VecSplit' (P m R) 0 := by
  intro d c
  show coreSt m R d c ⊢ |={Set.univ}=> iprop((bigSep Finset.univ fun i : Fin 16 => tileGo m d (coordsV c i))
      ∗ ((bigSep Finset.univ fun i : Fin 16 => tileTd m d (coordsV c i)) -∗ coreDn m R d c))
  unfold coreSt
  iintro ⟨%tab, %hR, Ht, Hu, Ho⟩
  ihave Ht2 := (Transfers.pointsTo_toks_split (qC c.val) 16) $$ Ht
  icases Ht2 with ⟨Htr, Hts⟩
  ihave Hu2 := (Transfers.pointsTo_toks_split (qC c.val) 16) $$ Hu
  icases Hu2 with ⟨Hur, Hus⟩
  imodintro
  isplitl [Hts Hus Ho]
  · iapply (go_intro m d c tab)
    isplitl [Hts]; · iexact Hts
    isplitl [Hus]; · iexact Hus
    iexact Ho
  iintro Htd
  iapply (dn_intro m R d c tab hR)
  isplitl [Htr]; · iexact Htr
  isplitl [Hur]; · iexact Hur
  iexact Htd

theorem vecSplit : (K (F := F)).VecSplit (P m R) 0 := SparseCore.Cfg.VecSplit.of_plain (vecSplit' m R)

/-! ## The call's operands and results, whole -/

theorem st0_intro (d : Dev nD) :
    iprop((∃ tab, ⌜R d tab⌝ ∗ (tLoc d ↦{fullShare} tab)) ∗ (uLoc d ↦{fullShare} m (uLoc d)) ∗ (∃ f, oLoc d ↦{fullShare} f))
      ⊢ (bigSep Finset.univ fun c : Fin ((K (F := F)).nCore 0) => (P m R).st 0 d c : sProp 𝕄) := by
  rw [show (bigSep Finset.univ fun c : Fin ((K (F := F)).nCore 0) => (P m R).st 0 d c : sProp 𝕄)
      = iprop(coreSt m R d (0 : Fin 2) ∗ coreSt m R d (1 : Fin 2)) from bigSep_univ_two _]
  unfold coreSt
  iintro ⟨⟨%tab, %hR, Ht⟩, Hu, ⟨%f, Ho⟩⟩
  ihave Ht2 := (pointsTo_share (PosShare.mem_left_op_right fullShare)).1 $$ Ht
  icases Ht2 with ⟨Htl, Htr⟩
  ihave Hu2 := (pointsTo_share (PosShare.mem_left_op_right fullShare)).1 $$ Hu
  icases Hu2 with ⟨Hul, Hur⟩
  ihave Ho2 := (Entails.of_eq (o_blocks (F := F) d f)) $$ Ho
  icases Ho2 with ⟨Ho0, Ho1⟩
  isplitl [Htl Hul Ho0]
  · iexists tab
    isplitr; · ipureintro; exact hR
    isplitl [Htl]; · rw [show qC (0 : Fin 2).val = fullShare.left from qC_zero]; iexact Htl
    isplitl [Hul]; · rw [show qC (0 : Fin 2).val = fullShare.left from qC_zero]; iexact Hul
    iapply (blocks_some (F := F) d (0 : Fin 2) f); iexact Ho0
  · iexists tab
    isplitr; · ipureintro; exact hR
    isplitl [Htr]; · rw [show qC (1 : Fin 2).val = fullShare.right from qC_one]; iexact Htr
    isplitl [Hur]; · rw [show qC (1 : Fin 2).val = fullShare.right from qC_one]; iexact Hur
    iapply (blocks_some (F := F) d (1 : Fin 2) f); iexact Ho1

theorem dn0_elim (d : Dev nD) :
    (bigSep Finset.univ fun c : Fin ((K (F := F)).nCore 0) => (P m R).dn 0 d c : sProp 𝕄)
      ⊢ iprop(∃ tab, ⌜R d tab⌝ ∗ (tLoc d ↦{fullShare} tab) ∗ (uLoc d ↦{fullShare} m (uLoc d))
          ∗ (oLoc d ↦{fullShare} gathered tab (m (uLoc d)))) := by
  rw [show (bigSep Finset.univ fun c : Fin ((K (F := F)).nCore 0) => (P m R).dn 0 d c : sProp 𝕄)
      = iprop(coreDn m R d (0 : Fin 2) ∗ coreDn m R d (1 : Fin 2)) from bigSep_univ_two _]
  unfold coreDn
  rw [show qC (0 : Fin 2).val = fullShare.left from qC_zero, show qC (1 : Fin 2).val = fullShare.right from qC_one]
  iintro ⟨⟨%t0, %hR0, Ht0, Hu0, Ho0⟩, ⟨%t1, %hR1, Ht1, Hu1, Ho1⟩⟩
  ihave H := (agree_keep (F := F)) $$ [Ht0 Ht1]
  · isplitl [Ht0]; · iexact Ht0
    iexact Ht1
  icases H with ⟨%e, Ht0, Ht1⟩
  subst e
  iexists t0
  isplitr; · ipureintro; exact hR0
  isplitl [Ht0 Ht1]
  · iapply (pointsTo_share (PosShare.mem_left_op_right fullShare)).2
    isplitl [Ht0]; · iexact Ht0
    iexact Ht1
  isplitl [Hu0 Hu1]
  · iapply (pointsTo_share (PosShare.mem_left_op_right fullShare)).2
    isplitl [Hu0]; · iexact Hu0
    iexact Hu1
  iapply (Entails.of_eq (o_blocks (F := F) d _).symm)
  isplitl [Ho0]; · iexact Ho0
  iexact Ho1

end Cert.KernelIdeal.Tile

end
-- ==== Proof.LaunchElemI.lean ====
/-
  The launch's share of the proof's resource algebra, and the reading of the final memory.

  The launch element is the rounds' launch state at the handshake semaphores, beside the rounds' launch state
  at the two TensorCore pipelines' staging cells (with a duty token for every transfer their loops issue),
  beside the unit of the transfer counters. Owning it is owning the three; the second funds every device's
  pipelines' cells and tokens. At the end, buffers held whole at a valuation are read off the final memory.
-/
import proofs.«210177_g34866544509008_cont_8to1_b_1726_19_alg».proof.Proof.TileDefsI
import Idealize.ShloMosaic.Lib.Pipeline.Launch
import Idealize.ShloMosaic.Lib.Pipeline.Frame
import Idealize.ShloMosaic.Lib.Pipeline.Sound

noncomputable section

namespace Cert.KernelIdeal.LaunchElem

open Cert.KernelIdeal Cert.KernelIdeal.Gen Cert.KernelIdeal.Setup Cert.KernelIdeal.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The launch element -/

/-- No pipeline has a prefetched table: each one's admissible contents are the trivial ones. -/
abbrev noTables : (p : Fin 2) → (pcfgs (F := F) p).Adm := fun p => (cfgs p).toPCfg_adm

/-- The handshakes' rounds at launch, the staging cells' rounds at launch, no transfer counted. -/
def u₀ : UU :=
  (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

/-- Every device's cells' launch state and duty tokens, pipeline by pipeline, are each device's pipelines' ghost state. -/
theorem ghost_join :
    iprop((bigSep Finset.univ fun c : Dev nD => bigSep Finset.univ fun p : Fin 2 => Pipeline.cellsGhost cfgs EP p c)
        ∗ (bigSep Finset.univ fun c : Dev nD => bigSep Finset.univ fun p : Fin 2 => (Pipeline.toksInit cfgs EP p c : sProp 𝕄)))
      ⊢ bigSep Finset.univ fun d : Dev nD => Pipeline.ghostOn (pcfgs (F := F)) noTables EP Finset.univ d := by
  rw [← bigSep_sep']
  exact bigSep_mono fun c _ => show iprop((bigSep Finset.univ fun p : Fin 2 => Pipeline.cellsGhost cfgs EP p c)
        ∗ bigSep Finset.univ fun p : Fin 2 => (Pipeline.toksInit cfgs EP p c : sProp 𝕄)) ⊢ Pipeline.ghostOn (pcfgs (F := F)) noTables EP Finset.univ c
    from Entails.of_eq (by unfold Pipeline.ghostOn Pipeline.PerCore.ghostOn; rw [bigSep_sep'])

variable (m : (ℓ : Loc nD τ sig) → Buf (Elt F) ℓ)
variable (R : (d : Dev nD) → Buf (Elt F) (tLoc d) → Prop)

theorem hu₀ : (ownU (u₀ (F := F)) : sProp 𝕄)
    ⊢ |={Set.univ}=> iprop(BI.own (EH (initOf (K (F := F)).hsCells (K (F := F)).hsToks))
        ∗ (bigSep Finset.univ fun d : Dev nD => Pipeline.ghostOn (pcfgs (F := F)) noTables EP Finset.univ d)
        ∗ bigSep Finset.univ fun thr : Thread nD τ => bigSep Finset.univ fun q : Fin 1 => (P m R).x q thr) := by
  unfold u₀
  iintro Hu
  ihave H := (ownU_split _ _ _) $$ Hu
  icases H with ⟨HH, HP, -⟩
  imod (Pipeline.fund_ghost cfgs EP cellOf_inj) $$ HP with ⟨Hg, Ht⟩
  imodintro
  isplitl [HH]; · iexact HH
  isplitl [Hg Ht]
  · iapply (ghost_join (F := F))
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Reading the final memory -/

theorem held_read (d : Dev nD) (W : Valuation τ sig (Elt F)) (s' : Phys nD τ sig (Elt F)) :
    iprop(StableHlo.held (SparseCore.T d) (Pipeline.ucRefs τ sig) W ∗ SI s')
      ⊢ (⌜∀ b ∈ Pipeline.ucRefs τ sig, s'.mem.mem ((d, b) : Loc nD τ sig) = W b⌝ : sProp 𝕄) := by
  unfold StableHlo.held
  iintro ⟨Hh, HSI⟩
  ihave Hr := (pointsTo_read_all (Pipeline.ucRefs τ sig) (fun b => (((SparseCore.T d : Thread nD τ).1, b) : Loc nD τ sig)) W s') $$ [Hh HSI]
  · isplitl [Hh] <;> iassumption
  icases Hr with ⟨%h, -⟩
  ipureintro
  exact h

theorem arg0_mem : Proc.devRef (τ := τ) .tc (main_arg0 : Ref sig .tc) ∈ Pipeline.ucRefs τ sig :=
  Finset.mem_filter.mpr ⟨StableHlo.devRef_mem_tcRefs _, by decide⟩
theorem arg1_mem : Proc.devRef (τ := τ) .tc (main_arg1 : Ref sig .tc) ∈ Pipeline.ucRefs τ sig :=
  Finset.mem_filter.mpr ⟨StableHlo.devRef_mem_tcRefs _, by decide⟩
theorem arg2_mem : Proc.devRef (τ := τ) .tc (main_arg2 : Ref sig .tc) ∈ Pipeline.ucRefs τ sig :=
  Finset.mem_filter.mpr ⟨StableHlo.devRef_mem_tcRefs _, by decide⟩
theorem arg3_mem : Proc.devRef (τ := τ) .tc (main_arg3 : Ref sig .tc) ∈ Pipeline.ucRefs τ sig :=
  Finset.mem_filter.mpr ⟨StableHlo.devRef_mem_tcRefs _, by decide⟩
theorem v7_mem : Proc.devRef (τ := τ) .tc (main_v7 : Ref sig .tc) ∈ Pipeline.ucRefs τ sig :=
  Finset.mem_filter.mpr ⟨StableHlo.devRef_mem_tcRefs _, by decide⟩

end Cert.KernelIdeal.LaunchElem

end
-- ==== Proof.RunI.lean ====
/-
  The program's run: the SparseCore launch theorem applied to the gather kernel's obligation and split, @main's proof and
  the launch element. Every weakly fair execution of all the threads terminates, nothing faulting, and in every final
  memory each unscoped TensorCore buffer holds the last valuation at some table and scores the two kernel regions may leave.
-/
import proofs.«210177_g34866544509008_cont_8to1_b_1726_19_alg».proof.Proof.MainI
import proofs.«210177_g34866544509008_cont_8to1_b_1726_19_alg».proof.Proof.TileBodyI
import proofs.«210177_g34866544509008_cont_8to1_b_1726_19_alg».proof.Proof.TileSplitI
import proofs.«210177_g34866544509008_cont_8to1_b_1726_19_alg».proof.Proof.LaunchElemI

noncomputable section

namespace Cert.KernelIdeal.Run

open Cert.KernelIdeal Cert.KernelIdeal.Gen Cert.KernelIdeal.Setup Cert.KernelIdeal.RData Cert.KernelIdeal.Segs Cert.KernelIdeal.Tile Cert.KernelIdeal.Main Cert.KernelIdeal.LaunchElem

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-- What a final state shows on device `d`: its unscoped TensorCore buffers at the last valuation, for some table and
    scores the regions may leave. -/
def fq (d : Dev nD) (s' : Phys nD τ sig (Elt F)) : Prop :=
  ∃ tab G, Rtab m d tab ∧ Rsc m d tab G ∧ ∀ b ∈ Pipeline.ucRefs τ sig, s'.mem.mem ((d, b) : Loc nD τ sig) = W6 m d tab G b

theorem hfin (d : Dev nD) (s' : Phys nD τ sig (Elt F)) : iprop(FIN m d ∗ SI s') ⊢ (⌜fq m d s'⌝ : sProp 𝕄) := by
  unfold FIN
  iintro ⟨⟨%tab, %G, %h, Hh⟩, HSI⟩
  ihave H := (held_read d (W6 m d tab G) s') $$ [Hh HSI]
  · isplitl [Hh]; · iexact Hh
    iexact HSI
  icases H with %hr
  ipureintro
  exact ⟨tab, G, h.1, h.2, hr⟩

/-- The run's post. -/
def QC : PUnit × MemSt nD τ sig (Elt F) → Prop := fun r =>
  ∀ c : Dev nD, ∃ tab G, Rtab m c tab ∧ Rsc m c tab G ∧ ∀ b ∈ Pipeline.ucRefs τ sig, r.2.mem ((c, b) : Loc nD τ sig) = W6 m c tab G b

set_option backward.isDefEq.respectTransparency.types false in
set_option maxHeartbeats 1000000 in
theorem run_main [∀ e, Nonempty (Elt F e)] (hpre : ∀ (d : Dev nD) (b : Fin 1024), (m (uLoc d) (ValueIdx.ix1 b)).toNat < 100000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => absurd hq (show scKind 0 ≠ Kind.scScalar by decide))
    (fun q _ => match q with | 0 => tileObl m (Rtab m) hpre)
    (fun q _ => match q with | 0 => vecSplit m (Rtab m))
    m ρ main (fun d => GG (F := F) d) (FIN m) (u₀ (F := F)) (sep_elim_left.trans (hu₀ m (Rtab m)))
    (hmain m ρ (st0_intro m (Rtab m)) (dn0_elim m (Rtab m))) (fq m) (hfin m) (QC m) (fun _ h => h)

end Cert.KernelIdeal.Run

end
-- ==== Proof.KeepI.lean ====
/-
  What the valuations between @main's segments hold at the buffers the value proof reads: no operation writes
  an argument, so each argument's buffer holds its launch contents to the end; the last transpose reads the
  scores; the transposes before the second region read the projection and the item table, the gathered rows
  are as the call left them; the transpose and the padding before the first region read the user table and the
  projection (the padding value is the integer zero converted).
-/
import proofs.«210177_g34866544509008_cont_8to1_b_1726_19_alg».proof.Proof.MainI

noncomputable section

namespace Cert.KernelIdeal.Keep

open Cert.KernelIdeal Cert.KernelIdeal.Gen Cert.KernelIdeal.Setup Cert.KernelIdeal.Tile Cert.KernelIdeal.Main

open Idealize.ShloMosaic Idealize.ShloMosaic.TcCoe
open Idealize.ShloMosaic.SparseCore (S V T)

variable {F : FTy → Type} [FloatOps F]

variable (m : (ℓ : Loc nD τ sig) → Buf (Elt F) ℓ)

/-! ## The arguments -/

section Args

variable (d : Dev nD)

theorem W1_arg1 : W1 m d (Proc.devRef .tc main_arg1) = m ((SparseCore.T d).loc main_arg1) := by
  unfold W1
  exact (StableHlo.unary_result_ne _ _ _ _ _ _ (by decide)).trans ((StableHlo.binary_result_ne _ _ _ _ _ _ _ _ (by decide)).trans
    ((StableHlo.unary_result_ne _ _ _ _ _ _ (by decide)).trans ((StableHlo.nullary_result_ne _ _ _ _ (by decide)).trans rfl)))
theorem W1_arg2 : W1 m d (Proc.devRef .tc main_arg2) = m ((SparseCore.T d).loc main_arg2) := by
  unfold W1
  exact (StableHlo.unary_result_ne _ _ _ _ _ _ (by decide)).trans ((StableHlo.binary_result_ne _ _ _ _ _ _ _ _ (by decide)).trans
    ((StableHlo.unary_result_ne _ _ _ _ _ _ (by decide)).trans ((StableHlo.nullary_result_ne _ _ _ _ (by decide)).trans rfl)))
theorem W1_arg3 : W1 m d (Proc.devRef .tc main_arg3) = m ((SparseCore.T d).loc main_arg3) := by
  unfold W1
  exact (StableHlo.unary_result_ne _ _ _ _ _ _ (by decide)).trans ((StableHlo.binary_result_ne _ _ _ _ _ _ _ _ (by decide)).trans
    ((StableHlo.unary_result_ne _ _ _ _ _ _ (by decide)).trans ((StableHlo.nullary_result_ne _ _ _ _ (by decide)).trans rfl)))

variable (tab : Buf (Elt F) (tLoc d))

theorem W3_arg0 : W3 m d tab (Proc.devRef .tc main_arg0) = m ((SparseCore.T d).loc main_arg0) := W3_users m d tab
theorem W3_arg1 : W3 m d tab (Proc.devRef .tc main_arg1) = m ((SparseCore.T d).loc main_arg1) := by
  unfold W3 W2
  exact (Function.update_of_ne (by decide) _ _).trans ((Function.update_of_ne (by decide) _ _).trans (W1_arg1 m d))
theorem W3_arg2 : W3 m d tab (Proc.devRef .tc main_arg2) = m ((SparseCore.T d).loc main_arg2) := by
  unfold W3 W2
  exact (Function.update_of_ne (by decide) _ _).trans ((Function.update_of_ne (by decide) _ _).trans (W1_arg2 m d))
theorem W3_arg3 : W3 m d tab (Proc.devRef .tc main_arg3) = m ((SparseCore.T d).loc main_arg3) := by
  unfold W3 W2
  exact (Function.update_of_ne (by decide) _ _).trans ((Function.update_of_ne (by decide) _ _).trans (W1_arg3 m d))

theorem W4_arg0 : W4 m d tab (Proc.devRef .tc main_arg0) = m ((SparseCore.T d).loc main_arg0) := by
  unfold W4
  exact (StableHlo.unary_result_ne _ _ _ _ _ _ (by decide)).trans ((StableHlo.unary_result_ne _ _ _ _ _ _ (by decide)).trans (W3_arg0 m d tab))
theorem W4_arg1 : W4 m d tab (Proc.devRef .tc main_arg1) = m ((SparseCore.T d).loc main_arg1) := by
  unfold W4
  exact (StableHlo.unary_result_ne _ _ _ _ _ _ (by decide)).trans ((StableHlo.unary_result_ne _ _ _ _ _ _ (by decide)).trans (W3_arg1 m d tab))
theorem W4_arg2 : W4 m d tab (Proc.devRef .tc main_arg2) = m ((SparseCore.T d).loc main_arg2) := by
  unfold W4
  exact (StableHlo.unary_result_ne _ _ _ _ _ _ (by decide)).trans ((StableHlo.unary_result_ne _ _ _ _ _ _ (by decide)).trans (W3_arg2 m d tab))
theorem W4_arg3 : W4 m d tab (Proc.devRef .tc main_arg3) = m ((SparseCore.T d).loc main_arg3) := by
  unfold W4
  exact (StableHlo.unary_result_ne _ _ _ _ _ _ (by decide)).trans ((StableHlo.unary_result_ne _ _ _ _ _ _ (by decide)).trans (W3_arg3 m d tab))

variable (G : Buf (Elt F) (sLoc d))

theorem W6_arg0 : W6 m d tab G (Proc.devRef .tc main_arg0) = m ((SparseCore.T d).loc main_arg0) := by
  unfold W6 W5
  exact (StableHlo.unary_result_ne _ _ _ _ _ _ (by decide)).trans ((Function.update_of_ne (by decide) _ _).trans (W4_arg0 m d tab))
theorem W6_arg1 : W6 m d tab G (Proc.devRef .tc main_arg1) = m ((SparseCore.T d).loc main_arg1) := by
  unfold W6 W5
  exact (StableHlo.unary_result_ne _ _ _ _ _ _ (by decide)).trans ((Function.update_of_ne (by decide) _ _).trans (W4_arg1 m d tab))
theorem W6_arg2 : W6 m d tab G (Proc.devRef .tc main_arg2) = m ((SparseCore.T d).loc main_arg2) := by
  unfold W6 W5
  exact (StableHlo.unary_result_ne _ _ _ _ _ _ (by decide)).trans ((Function.update_of_ne (by decide) _ _).trans (W4_arg2 m d tab))
theorem W6_arg3 : W6 m d tab G (Proc.devRef .tc main_arg3) = m ((SparseCore.T d).loc main_arg3) := by
  unfold W6 W5
  exact (StableHlo.unary_result_ne _ _ _ _ _ _ (by decide)).trans ((Function.update_of_ne (by decide) _ _).trans (W4_arg3 m d tab))

/-! ## The result and the operands of the regions -/

/-- The result is the scores transposed. -/
theorem W6_out : W6 m d tab G (Proc.devRef .tc main_v7)
    = transpose S1024x100000 [1, 0] G Facts₀.transposes_S100000x1024_S1024x100000_1_0 := by
  unfold W6
  refine (StableHlo.unary_result _ _ _ _ _ _).trans ?_
  unfold W5
  rw [Function.update_self]

/-- The second region's operands: the projection transposed, the item table transposed, the gathered rows. -/
theorem W4_v4 : W4 m d tab (Proc.devRef .tc main_v4)
    = transpose S64x400 [1, 0] (m ((SparseCore.T d).loc main_arg3)) Facts₀.transposes_S400x64_S64x400_1_0 := by
  unfold W4
  refine (StableHlo.unary_result_ne _ _ _ _ _ _ (by decide)).trans ((StableHlo.unary_result _ _ _ _ _ _).trans ?_)
  rw [W3_arg3]
theorem W4_v5 : W4 m d tab (Proc.devRef .tc main_v5)
    = transpose S400x100000 [1, 0] (m ((SparseCore.T d).loc main_arg2)) Facts₀.transposes_S100000x400_S400x100000_1_0 := by
  unfold W4
  refine (StableHlo.unary_result _ _ _ _ _ _).trans ?_
  rw [StableHlo.unary_result_ne _ _ _ _ _ _ (by decide), W3_arg2]
theorem W4_v3 : W4 m d tab (Proc.devRef .tc main_v3) = gathered tab (m (uLoc d)) := by
  unfold W4
  exact (StableHlo.unary_result_ne _ _ _ _ _ _ (by decide)).trans ((StableHlo.unary_result_ne _ _ _ _ _ _ (by decide)).trans (W3_rows m d tab))

end Args

/-- The first region's operands: the user table transposed, the projection padded with the integer zero converted. -/
theorem W1_v1 (d : Dev nD) : W1 m d (Proc.devRef .tc main_v1)
    = transpose S400x100000 [1, 0] (m ((SparseCore.T d).loc main_arg1)) Facts₀.transposes_S100000x400_S400x100000_1_0 := by
  unfold W1
  refine (StableHlo.unary_result _ _ _ _ _ _).trans ?_
  rw [StableHlo.binary_result_ne _ _ _ _ _ _ _ _ (by decide), StableHlo.unary_result_ne _ _ _ _ _ _ (by decide),
    StableHlo.nullary_result_ne _ _ _ _ (by decide)]
  rfl
theorem W1_v0 (d : Dev nD) : W1 m d (Proc.devRef .tc main_v0)
    = pad S400x128 ![0, 0] ![0, 64] ![0, 0] (m ((SparseCore.T d).loc main_arg3)) (sitofp (F := F) .f32 (constantI S_ 32 0#32))
        Facts₀.pads_S400x64_S400x128_000_0640 Facts₀.h_S_ := by
  unfold W1
  refine (StableHlo.unary_result_ne _ _ _ _ _ _ (by decide)).trans ((StableHlo.binary_result _ _ _ _ _ _ _ _).trans ?_)
  rw [StableHlo.unary_result_ne _ _ _ _ _ _ (by decide), StableHlo.nullary_result_ne _ _ _ _ (by decide),
    StableHlo.unary_result, StableHlo.nullary_result]
  rfl

end Cert.KernelIdeal.Keep

end
-- ==== Proof.FrameI.lean ====
/-
  The frame of the idealized kernel: the run's final memories hold the last valuation, which no operation, region or call ever
  changed at an argument.
-/
import proofs.«210177_g34866544509008_cont_8to1_b_1726_19_alg».proof.Defs
import proofs.«210177_g34866544509008_cont_8to1_b_1726_19_alg».proof.Proof.RunI
import proofs.«210177_g34866544509008_cont_8to1_b_1726_19_alg».proof.Proof.KeepI
import proofs.«210177_g34866544509008_cont_8to1_b_1726_19_alg».proof.Proof.PreFacts
import proofs.«210177_g34866544509008_cont_8to1_b_1726_19_alg».proof.Proof.Gen.Pre_input_domain

noncomputable section

namespace Cert.Proof.FrameI

open Idealize.ShloMosaic Idealize.SL.Sem
open Cert.KernelIdeal Cert.KernelIdeal.Main Cert.KernelIdeal.Run Cert.KernelIdeal.Keep Cert.KernelIdeal.LaunchElem Cert.KernelIdeal.Tile

/-- The requested users are in range, from the precondition. -/
theorem users_ok (m : (ℓ : Loc nD τ sig) → Buf (Elt Ideal) ℓ)
    (hpre : Cert.Pre_KernelIdeal (hPre_input_domain := Cert.Pre_input_domain.Gen.facts) m) :
    ∀ (d : Dev nD) (b : Fin 1024), (m (uLoc d) (ValueIdx.ix1 b)).toNat < 100000 :=
  fun d b => Cert.PreFacts.users_lt _ _ _ _ (hpre d) b

theorem frame : Cert.frame_KernelIdeal (hKernelIdeal := Cert.KernelIdeal.Gen.facts) (hPre_input_domain := Cert.Pre_input_domain.Gen.facts) := fun m ρ hpre =>
  (θ_run (Cert.KernelIdeal.defs (F := Ideal)) _ _).mono (fun r h c => by
      obtain ⟨tab, G, -, -, hr⟩ := h c
      exact ⟨(hr _ arg0_mem).trans (W6_arg0 m c tab G), (hr _ arg1_mem).trans (W6_arg1 m c tab G),
        (hr _ arg2_mem).trans (W6_arg2 m c tab G), (hr _ arg3_mem).trans (W6_arg3 m c tab G)⟩)
    (run_main (F := Ideal) m ρ (users_ok m hpre))

end Cert.Proof.FrameI

end
-- ==== Proof.RefRun.lean ====
/-
  The reference program's run, read back.

  @main of the reference is a straight line of host operations once its two module-local functions (the row
  lookup and the select it calls) are inlined at their call sites: thirty-five operations. Every weakly fair
  execution ends with each buffer at the fold of those operations over the launch contents; read at the
  result buffer that fold is the composed pure term refTerm of the four argument arrays, and the argument
  buffers are written by no operation.
-/
import proofs.«210177_g34866544509008_cont_8to1_b_1726_19_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pure term -/

/-- The index word after the wrap-around of a negative index: w + 100000 when w < 0 (signed), else w. -/
def wrapped (x0 : IVec S1024 32) : IVec S1024 32 :=
  select (cmpi .slt x0 (broadcastInDim S1024 ![] bcast_S_S1024 (constantI S_ 32 0#32)))
    (addi x0 (broadcastInDim S1024 ![] bcast_S_S1024 (constantI S_ 32 100000#32))) x0

/-- The wrapped words as a column of start indices. -/
def startIdx (x0 : IVec S1024 32) : IVec S1024x1 32 :=
  broadcastInDim S1024x1 ![0] bcast_S1024_S1024x1_0 (wrapped x0)

/-- Per requested user: is the start index inside the table, 0 <= index <= 99999 (signed)? -/
def inRange (x0 : IVec S1024 32) : IVec S1024 1 :=
  Host.reduce IntOp.andi
    (andi (cmpi .sge (startIdx x0) (broadcastInDim S1024x1 ![] bcast_S_S1024x1 (constantI S_ 32 0#32)))
      (cmpi .sle (startIdx x0)
        (broadcastInDim S1024x1 ![0, 1] bcast_S1x1_S1024x1_0_1
          (broadcastInDim S1x1 ![1] bcast_S1_S1x1_1 (constantI S1 32 99999#32)))))
    (constantI S_ 1 1#1) reducesTo_S1024x1_S1024_d1 h_S_

/-- A table's rows contracted with the projection: its latent vectors. -/
def project (T : FVec F S100000x400 .f32) (FS : FVec F S400x64 .f32) : FVec F S100000x64 .f32 :=
  Host.dotGeneral dot_S100000x400_S400x64_S100000x64_1_0_0_1_n_n none T FS

/-- The latent rows of the requested users: the gathered rows where the index is in range, a fill value elsewhere. -/
def userRows (x0 : IVec S1024 32) (L : FVec F S100000x64 .f32) : FVec F S1024x64 .f32 :=
  select (broadcastInDim S1024x64 ![0] bcast_S1024_S1024x64_0 (inRange x0))
    (Host.gather gather_S100000x64_S1024x1_S1024x64_1_0_n_n_0_1_164 L (startIdx x0))
    (broadcastInDim S1024x64 ![] bcast_S_S1024x64 (constant S_ .f32 0x7FC00000#32))

/-- The inner products of the requested users' latent rows with every item's latent row. -/
def logits (x0 : IVec S1024 32) (x1 x2 : FVec F S100000x400 .f32) (x3 : FVec F S400x64 .f32) : FVec F S1024x100000 .f32 :=
  Host.dotGeneral dot_S1024x64_S64x100000_S1024x100000_1_0_0_1_n_n none (userRows x0 (project x1 x3))
    (transpose S64x100000 [1, 0] (project x2 x3) transposes_S100000x64_S64x100000_1_0)

/-- The reference's result as a pure term of its four arguments: 1 / (1 + exp (- logits)). -/
def refTermF (x0 : IVec S1024 32) (x1 x2 : FVec F S100000x400 .f32) (x3 : FVec F S400x64 .f32) : FVec F S1024x100000 .f32 :=
  Host.divf (broadcastInDim S1024x100000 ![] bcast_S_S1024x100000 (constant S_ .f32 0x3F800000#32))
    (addf (broadcastInDim S1024x100000 ![] bcast_S_S1024x100000 (constant S_ .f32 0x3F800000#32))
      (Host.exp (Host.negf (logits x0 x1 x2 x3))))

/-- The same at the extended reals. -/
def refTerm (x0 : IVec S1024 32) (x1 x2 : FVec Ideal S100000x400 .f32) (x3 : FVec Ideal S400x64 .f32) : FVec Ideal S1024x100000 .f32 :=
  refTermF (F := Ideal) x0 x1 x2 x3

/-! ## The straight line -/

/-- @main's thirty-five operations in order, the two calls unfolded: the users' projection; the row
    lookup's twenty-three (the wrap-around select is the inner function's one operation); the items' projection, its
    transpose, the product, and the logistic tail's eight. -/
abbrev ops : List (HloOp τ sig (Elt F)) :=
  [ binary main_arg1 main_arg3 main_v0 ((fun l r => Host.dotGeneral dot_S100000x400_S400x64_S100000x64_1_0_0_1_n_n none l r) : (⟨S100000x400, .f32⟩ : BufTy).Contents (Elt F) → (⟨S400x64, .f32⟩ : BufTy).Contents (Elt F) → (⟨S100000x64, .f32⟩ : BufTy).Contents (Elt F)),
    TRef.nullary main_call0.c (constantI S_ 32 0#32),
    TRef.unary main_call0.c main_call0.v0 (broadcastInDim S1024 ![] bcast_S_S1024),
    TRef.binary (.of main_arg0) main_call0.v0 main_call0.v1 (cmpi .slt),
    TRef.nullary main_call0.c_0 (constantI S_ 32 100000#32),
    TRef.unary main_call0.c_0 main_call0.v2 (broadcastInDim S1024 ![] bcast_S_S1024),
    TRef.binary (.of main_arg0) main_call0.v2 main_call0.v3 addi,
    TRef.ternary main_call0.v1 main_call0.v3 (.of main_arg0) main_call0.call0.v0 select,
    TRef.unary main_call0.call0.v0 main_call0.v5 (broadcastInDim S1024x1 ![0] bcast_S1024_S1024x1_0),
    TRef.nullary main_call0.c_1 (constantI S1 32 99999#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_v0) main_call0.v5 main_call0.v13 (fun x i => Host.gather gather_S100000x64_S1024x1_S1024x64_1_0_n_n_0_1_164 x i),
    TRef.unary main_call0.v12 main_call0.v14 (broadcastInDim S1024x64 ![0] bcast_S1024_S1024x64_0),
    TRef.nullary main_call0.cst (constant S_ .f32 0x7FC00000#32),
    TRef.unary main_call0.cst main_call0.v15 (broadcastInDim S1024x64 ![] bcast_S_S1024x64),
    TRef.ternary main_call0.v14 main_call0.v13 main_call0.v15 main_call0.v16 select,
    binary main_arg2 main_arg3 main_v2 ((fun l r => Host.dotGeneral dot_S100000x400_S400x64_S100000x64_1_0_0_1_n_n none l r) : (⟨S100000x400, .f32⟩ : BufTy).Contents (Elt F) → (⟨S400x64, .f32⟩ : BufTy).Contents (Elt F) → (⟨S100000x64, .f32⟩ : BufTy).Contents (Elt F)),
    unary main_v2 main_v3 ((transpose S64x100000 [1, 0] · transposes_S100000x64_S64x100000_1_0) : (⟨S100000x64, .f32⟩ : BufTy).Contents (Elt F) → (⟨S64x100000, .f32⟩ : BufTy).Contents (Elt F)),
    binary main_v1 main_v3 main_v4 ((fun l r => Host.dotGeneral dot_S1024x64_S64x100000_S1024x100000_1_0_0_1_n_n none l r) : (⟨S1024x64, .f32⟩ : BufTy).Contents (Elt F) → (⟨S64x100000, .f32⟩ : BufTy).Contents (Elt F) → (⟨S1024x100000, .f32⟩ : BufTy).Contents (Elt F)),
    unary main_v4 main_v5 (Host.negf : (⟨S1024x100000, .f32⟩ : BufTy).Contents (Elt F) → (⟨S1024x100000, .f32⟩ : BufTy).Contents (Elt F)),
    unary main_v5 main_v6 (Host.exp : (⟨S1024x100000, .f32⟩ : BufTy).Contents (Elt F) → (⟨S1024x100000, .f32⟩ : BufTy).Contents (Elt F)),
    nullary main_cst (constant S_ .f32 0x3F800000#32),
    unary main_cst main_v7 (broadcastInDim S1024x100000 ![] bcast_S_S1024x100000 : (⟨S_, .f32⟩ : BufTy).Contents (Elt F) → (⟨S1024x100000, .f32⟩ : BufTy).Contents (Elt F)),
    binary main_v7 main_v6 main_v8 (addf : (⟨S1024x100000, .f32⟩ : BufTy).Contents (Elt F) → (⟨S1024x100000, .f32⟩ : BufTy).Contents (Elt F) → (⟨S1024x100000, .f32⟩ : BufTy).Contents (Elt F)),
    nullary main_cst_0 (constant S_ .f32 0x3F800000#32),
    unary main_cst_0 main_v9 (broadcastInDim S1024x100000 ![] bcast_S_S1024x100000 : (⟨S_, .f32⟩ : BufTy).Contents (Elt F) → (⟨S1024x100000, .f32⟩ : BufTy).Contents (Elt F)),
    binary main_v9 main_v8 main_v10 (Host.divf : (⟨S1024x100000, .f32⟩ : BufTy).Contents (Elt F) → (⟨S1024x100000, .f32⟩ : BufTy).Contents (Elt F) → (⟨S1024x100000, .f32⟩ : BufTy).Contents (Elt F)) ]

set_option maxRecDepth 1024 in
/-- @main is that straight line: the functions' definitions unfolded at their calls and the records at their fields,
    both sides are one chain of steps once sequencing is reassociated. -/
theorem main_eq (c : Dev nD) : main (F := F) c = seq ops := by
  simp only [main, fn_take.body, fn_where.body, seq, bind_assoc, pure_bind]

attribute [local irreducible] Host.reduce Host.gather in
set_option maxRecDepth 8192 in
/-- The fold read at the result buffer is the composed term: each operation's result at its own buffer is its function's
    value and at any other buffer what was there; the typed references' transports are the identity at these literal
    references. The row lookup and the index reduction stay folded meanwhile (the equation never looks inside them). -/
theorem out_eq (V : Valuation τ sig (Elt F)) :
    after ops V (main_v10 : DevRef τ sig)
      = refTermF (V (main_arg0 : DevRef τ sig)) (V (main_arg1 : DevRef τ sig)) (V (main_arg2 : DevRef τ sig))
          (V (main_arg3 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., unary_bufs_sub .., binary_bufs_sub .., unary_bufs_sub .., unary_bufs_sub .., nullary_bufs_sub ..,
    unary_bufs_sub .., binary_bufs_sub .., nullary_bufs_sub .., unary_bufs_sub .., binary_bufs_sub ..⟩

/-- For any float values, from any memory with zero counters: every weakly fair execution of @main terminates, and
    every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- At the extended reals: the result buffer ends at the composed term of the arguments' launch contents, the
    arguments unchanged. -/
theorem run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v10)
            = refTerm (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono (fun _ h c => ⟨(h c main_v10).trans (out_eq _), (h c main_arg0).trans (arg0_eq _),
      (h c main_arg1).trans (arg1_eq _), (h c main_arg2).trans (arg2_eq _), (h c main_arg3).trans (arg3_eq _)⟩)
    (run_main (F := Ideal) m g)

end Cert.ReferenceIdeal.RefRun

end
-- ==== Proof.RefValue.lean ====
/-
  The reference's pure term is the specification, index by index.

  Under the precondition every index word is below 100000, so it is nonnegative read signed: the wrap-around select
  keeps the word, the in-range mask is all ones, the row lookup reads the row the word names, and the final select
  keeps the gathered row. The two projections are sums over the 400 features, the product of the requested users'
  latent rows with the transposed item latents is a sum over the 64 latent coordinates, and 1 / (1 + exp (-x)) is the
  logistic function by definition.
-/
import proofs.«210177_g34866544509008_cont_8to1_b_1726_19_alg».proof.Proof.RefRun
import proofs.«210177_g34866544509008_cont_8to1_b_1726_19_alg».proof.Proof.Spec
import Idealize.ShloMosaic.Lib.StackMember
import Idealize.ShloMosaic.Lib.Pipeline.Value
import Idealize.ShloMosaic.Lib.ReduceAll
import Idealize.ShloMosaic.Lib.IdealHost

noncomputable section

namespace Cert.ReferenceIdeal.RefValue

open Cert.ReferenceIdeal Cert.ReferenceIdeal.Gen Cert.ReferenceIdeal.RefRun
open Idealize.ShloMosaic Idealize.ShloMosaic.ValueIdx
open scoped BigOperators

/-! ## Words below 100000 -/

/-- A word below 100000 reads the same signed and unsigned. -/
theorem toInt_of_lt {w : BitVec 32} (h : w.toNat < 100000) : w.toInt = (w.toNat : Int) :=
  BitVec.toInt_eq_toNat_of_lt (by omega)

/-- It is not negative … -/
theorem slt_zero_of_lt {w : BitVec 32} (h : w.toNat < 100000) : IntOp.cmpi .slt w 0#32 = 0#1 := by
  refine eq_zero_of_ne_one fun h1 => ?_
  have := IntOp.cmpi_slt.1 h1
  rw [toInt_of_lt h, show (0#32 : BitVec 32).toInt = 0 from by decide] at this
  omega

/-- … it is at least 0 … -/
theorem sge_zero_of_lt {w : BitVec 32} (h : w.toNat < 100000) : IntOp.cmpi .sge w 0#32 = 1#1 := by
  refine IntOp.cmpi_sge.2 ?_
  rw [toInt_of_lt h, show (0#32 : BitVec 32).toInt = 0 from by decide]
  omega

/-- … and at most 99999. -/
theorem sle_max_of_lt {w : BitVec 32} (h : w.toNat < 100000) : IntOp.cmpi .sle w 99999#32 = 1#1 := by
  refine IntOp.cmpi_sle.2 ?_
  rw [toInt_of_lt h, show (99999#32 : BitVec 32).toInt = 99999 from by decide]
  omega

/-- A left fold by and from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_one f l fun n hn => h n (List.mem_cons_of_mem _ hn)

/-! ## The index chain -/

variable (x0 : IVec S1024 32)

/-- A word below 100000 is kept by the wrap-around select. -/
theorem wrapped_apply (b : Fin 1024) (h : (x0 (ix1 b)).toNat < 100000) : wrapped x0 (ix1 b) = x0 (ix1 b) := by
  show Scalar.select (IntOp.cmpi .slt (x0 (ix1 b)) 0#32) _ _ = _
  rw [slt_zero_of_lt h, select_zero]

/-- Broadcasting a vector of 1024 along a new trailing axis reads, at row b, the vector's entry b. -/
theorem bcast_rows_idx {n : Nat} (b : Fin 1024) (z : Fin n) :
    ∀ a : Fin S1024.rank, ((ix1 b : S1024.Idx) a).val
      = if S1024.size a = 1 then 0 else ((ix2 b z : (⟨2, ![1024, n]⟩ : Shape).Idx) ((![0] : Fin 1 → Fin 2) a)).val := fun a => by
  match a with
  | ⟨0, _⟩ =>
    show b.val = if (1024 : ℕ) = 1 then 0 else b.val
    rw [if_neg (by decide)]

/-- The column of start indices reads the wrapped word of its row. -/
theorem startIdx_apply (b : Fin 1024) (z : Fin 1) : startIdx x0 (ix2 b z) = wrapped x0 (ix1 b) := by
  unfold startIdx
  exact broadcastInDim_apply _ bcast_S1024_S1024x1_0 (wrapped x0) (ix2 b z) (ix1 b) (bcast_rows_idx b z)

/-- With every word below 100000 the in-range mask is all ones. -/
theorem inRange_apply (hu : ∀ b : Fin 1024, (x0 (ix1 b)).toNat < 100000) (b : Fin 1024) : inRange x0 (ix1 b) = 1#1 := by
  unfold inRange
  rw [Host.reduce_eq_foldl]
  refine foldl_andi_one _ _ fun i _ => ?_
  obtain ⟨c, z, rfl⟩ : ∃ (c : Fin 1024) (z : Fin 1), i = ix2 c z := ⟨i 0, i 1, eq_ix2 i⟩
  show IntOp.andi (IntOp.cmpi .sge (startIdx x0 (ix2 c z)) 0#32) (IntOp.cmpi .sle (startIdx x0 (ix2 c z)) 99999#32) = 1#1
  rw [startIdx_apply, wrapped_apply x0 c (hu c)]
  exact IntOp.andi_eq_one.2 ⟨sge_zero_of_lt (hu c), sle_max_of_lt (hu c)⟩

/-! ## The row lookup -/

local notation "G" => gather_S100000x64_S1024x1_S1024x64_1_0_n_n_0_1_164

/-- The row lookup read at (b, l): the operand at the row r the caller names, which is the start index of b read
    signed and clamped into the table, at column l. -/
theorem gather_apply {α : Type} (L : S100000x64.Idx → α) (idx : IVec S1024x1 32) (b : Fin 1024) (l : Fin 64)
    (r : Fin 100000) (hr : r.val = min (idx (ix2 b (0 : Fin 1))).toInt.toNat 99999) :
    Host.gather G L idx (ix2 b l) = L (ix2 r l) := by
  unfold Host.gather
  refine congrArg L (funext fun a => Fin.ext ?_)
  match a with
  | ⟨0, _⟩ =>
    show (G).start (ix2 b l) idx (0 : Fin 2) + (G).batchCoord (ix2 b l) (0 : Fin 2) + (G).offCoord (ix2 b l) (0 : Fin 2) = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (G).startIndexMap from List.mem_singleton.mpr rfl)]
    have hsi : (G).siIdx (ix2 b l) ⟨List.idxOf (0 : Fin 2) (G).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi, hr]
    rfl
  | ⟨1, _⟩ =>
    show (G).start (ix2 b l) idx (1 : Fin 2) + (G).batchCoord (ix2 b l) (1 : Fin 2) + (G).offCoord (ix2 b l) (1 : Fin 2) = l.val
    rw [GatherDims.batchCoord_eq_zero _ _ _ List.not_mem_nil]
    unfold GatherDims.start GatherDims.offCoord
    rw [dif_neg (show (1 : Fin 2) ∉ (G).startIndexMap from by decide), dif_pos (show (1 : Fin 2) ∈ (G).sKept from by decide)]
    have key : ∀ q : Fin 2, q = 1 → ((ix2 b l : S1024x64.Idx) q).val = l.val := by
      rintro _ rfl; rfl
    rw [Nat.zero_add]
    exact key _ (by decide)

/-- With every word below 100000 the requested users' rows are the table's rows the words name. -/
theorem userRows_apply {F : FTy → Type} [FloatOps F] (L : FVec F S100000x64 .f32)
    (hu : ∀ b : Fin 1024, (x0 (ix1 b)).toNat < 100000) (b : Fin 1024) (l : Fin 64) :
    userRows x0 L (ix2 b l) = L (ix2 (Cert.Spec.rowOf (x0 (ix1 b))) l) := by
  have hm : broadcastInDim S1024x64 ![0] bcast_S1024_S1024x64_0 (inRange x0) (ix2 b l) = 1#1 := by
    rw [broadcastInDim_apply _ bcast_S1024_S1024x64_0 (inRange x0) (ix2 b l) (ix1 b) (bcast_rows_idx b l)]
    exact inRange_apply x0 hu b
  unfold userRows
  rw [select_apply, hm, select_one]
  refine gather_apply L (startIdx x0) b l _ ?_
  rw [startIdx_apply, wrapped_apply x0 b (hu b), Cert.Spec.rowOf_val_of_lt (hu b), toInt_of_lt (hu b), Int.toNat_natCast]
  have := hu b
  omega

/-! ## The products and the tail -/

/-- A projected table reads the latent coordinate: the row's features contracted with the projection's column. -/
theorem project_apply (T : FVec Ideal S100000x400 .f32) (FS : FVec Ideal S400x64 .f32) (r : Fin 100000) (l : Fin 64) :
    project (F := Ideal) T FS (ix2 r l) = Cert.Spec.latent T FS r l :=
  StackMember.dotGeneral_plain_apply (m := 100000) (k := 400) (n := 64) none T FS r l

/-- The transposed item latents read the latent at the swapped index. -/
theorem transpose_apply' {α : Type} (X : S100000x64.Idx → α) (l : Fin 64) (i : Fin 100000) :
    transpose S64x100000 [1, 0] X transposes_S100000x64_S64x100000_1_0 (ix2 l i) = X (ix2 i l) :=
  transpose_apply [1, 0] X transposes_S100000x64_S64x100000_1_0 (ix2 l i) (ix2 i l) fun c => by
    match c with
    | ⟨0, _⟩ => rfl
    | ⟨1, _⟩ => rfl

/-- The inner products, index by index. -/
theorem logits_apply (x1 x2 : FVec Ideal S100000x400 .f32) (x3 : FVec Ideal S400x64 .f32)
    (hu : ∀ b : Fin 1024, (x0 (ix1 b)).toNat < 100000) (b : Fin 1024) (i : Fin 100000) :
    logits (F := Ideal) x0 x1 x2 x3 (ix2 b i)
      = ∑ l : Fin 64, Cert.Spec.latent x1 x3 (Cert.Spec.rowOf (x0 (ix1 b))) l * Cert.Spec.latent x2 x3 i l := by
  unfold logits
  refine (StackMember.dotGeneral_plain_apply (m := 1024) (k := 64) (n := 100000) none _ _ b i).trans ?_
  refine Finset.sum_congr rfl fun l _ => ?_
  rw [userRows_apply x0 _ hu, project_apply, transpose_apply', project_apply]

/-- THE REFERENCE'S TERM IS THE SPECIFICATION, when every index word is below 100000. -/
theorem refTerm_eq (x1 x2 : FVec Ideal S100000x400 .f32) (x3 : FVec Ideal S400x64 .f32)
    (hu : ∀ b : Fin 1024, (x0 (ix1 b)).toNat < 100000) :
    Cert.ReferenceIdeal.RefRun.refTerm x0 x1 x2 x3 = Cert.Spec.rating x0 x1 x2 x3 := by
  funext j
  obtain ⟨b, i, rfl⟩ : ∃ (b : Fin 1024) (i : Fin 100000), j = ix2 b i := ⟨j 0, j 1, eq_ix2 j⟩
  rw [Cert.Spec.rating_apply]
  show Ideal.div (Ideal.ofBits .f32 0x3F800000#32)
      (Ideal.ofBits .f32 0x3F800000#32 + Ideal.exp (-(logits (F := Ideal) x0 x1 x2 x3 (ix2 b i)))) = _
  rw [Ideal.ofBits_one_f32, logits_apply x0 x1 x2 x3 hu]
  rfl

end Cert.ReferenceIdeal.RefValue

end
-- ==== Proof.RefClaims.lean ====
/-
  The reference's two claims, from its run read back.

  Its argument arrays end unchanged (no operation of its straight line writes them), and when every index word is
  below 100000 its result array ends at the specification's rating of the launch contents of its four arguments.
-/
import proofs.«210177_g34866544509008_cont_8to1_b_1726_19_alg».proof.Defs
import proofs.«210177_g34866544509008_cont_8to1_b_1726_19_alg».proof.Proof.RefRun
import proofs.«210177_g34866544509008_cont_8to1_b_1726_19_alg».proof.Proof.RefValue
import proofs.«210177_g34866544509008_cont_8to1_b_1726_19_alg».proof.Proof.PreFacts
import proofs.«210177_g34866544509008_cont_8to1_b_1726_19_alg».proof.Proof.Gen.ReferenceIdeal
import proofs.«210177_g34866544509008_cont_8to1_b_1726_19_alg».proof.Proof.Gen.Pre_input_domain

noncomputable section

namespace Cert.Proof.RefClaims

open Idealize.ShloMosaic Idealize.ShloMosaic.ValueIdx Idealize.SL.Sem

/-- The reference runs and its argument arrays end unchanged: the run's post without its first conjunct. -/
theorem frame_ri :
    Cert.frame_ReferenceIdeal (hReferenceIdeal := Cert.ReferenceIdeal.Gen.facts) (hPre_input_domain := Cert.Pre_input_domain.Gen.facts) :=
  fun m g _ => (θ_run _ _ _).mono (fun r h c => (h c).2) (Cert.ReferenceIdeal.RefRun.run m g)

/-- With every index word below 100000 the reference's result array ends at the specification's rating of the launch
    contents of the four arguments, the arguments unchanged. -/
theorem ref_rating
    (m' : (ℓ : Loc Cert.ReferenceIdeal.nD Cert.ReferenceIdeal.τ Cert.ReferenceIdeal.sig) → Buf (Elt Ideal) ℓ)
    (g' : Dev Cert.ReferenceIdeal.nD → PrngReg)
    (hu : ∀ (c : Dev Cert.ReferenceIdeal.nD) (b : Fin 1024),
      (m' ((c.tc : Thread Cert.ReferenceIdeal.nD Cert.ReferenceIdeal.τ).loc Cert.ReferenceIdeal.main_arg0) (ix1 b)).toNat < 100000) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v10)
            = Cert.Spec.rating (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run _ _ _).mono (fun r h c => by
      obtain ⟨h0, h1, h2, h3, h4⟩ := h c
      exact ⟨h0.trans (Cert.ReferenceIdeal.RefValue.refTerm_eq _ _ _ _ (hu c)), h1, h2, h3, h4⟩)
    (Cert.ReferenceIdeal.RefRun.run m' g')

end Cert.Proof.RefClaims

end
-- ==== Proof.KSpec.lean ====
/-
  The idealized kernel's result as whole-array functions of its arguments, stage by stage: the projection
  padded with 64 zero columns, the two tables transposed, every user's latent row (128 wide, the last 64
  columns zero), the requested users' rows gathered, the scores of every item against them, transposed.
-/
import proofs.«210177_g34866544509008_cont_8to1_b_1726_19_alg».proof.Proof.Gen.KernelIdeal
import proofs.«210177_g34866544509008_cont_8to1_b_1726_19_alg».proof.Proof.Spec

noncomputable section

namespace Cert.KernelIdeal.KSpec

open Idealize.ShloMosaic Idealize.ShloMosaic.ValueIdx Cert.KernelIdeal Cert.KernelIdeal.Facts₀

variable (users : IVec S1024 32) (U I : FVec Ideal S100000x400 .f32) (FS : FVec Ideal S400x64 .f32)

/-- The projection with 64 zero columns appended (the zero is the integer constant 0 converted). -/
def fsp : FVec Ideal S400x128 .f32 :=
  pad S400x128 ![0, 0] ![0, 64] ![0, 0] FS (sitofp (F := Ideal) .f32 (constantI S_ 32 0#32)) pads_S400x64_S400x128_000_0640 h_S_

/-- A table transposed: features by rows. -/
def tT (T : FVec Ideal S100000x400 .f32) : FVec Ideal S400x100000 .f32 :=
  transpose S400x100000 [1, 0] T transposes_S100000x400_S400x100000_1_0

/-- The projection transposed: latent coordinates by features. -/
def fsT : FVec Ideal S64x400 .f32 := transpose S64x400 [1, 0] FS transposes_S400x64_S64x400_1_0

/-- Every user's latent row, 128 wide. -/
def au : FVec Ideal S100000x128 .f32 := fun j => ∑ k : Fin 400, tT U (ix2 k (j 0)) * fsp FS (ix2 k (j 1))

/-- The requested users' latent rows. -/
def ug : FVec Ideal S1024x128 .f32 := fun j => au U FS (ix2 (Cert.Spec.rowOf (users (ix1 (j 0)))) (j 1))

/-- The scores, items by requested users: the logistic function of the item's latent vector (computed from
    the transposed projection and table) against the first 64 columns of the user's row. -/
def scoreT : FVec Ideal S100000x1024 .f32 := fun j =>
  Ideal.logistic (∑ l : Fin 64, (∑ k : Fin 400, fsT FS (ix2 l k) * tT I (ix2 k (j 0))) * ug users U FS (ix2 (j 1) (Fin.castLE (by decide) l)))

/-- The result: requested users by items. -/
def out : FVec Ideal S1024x100000 .f32 :=
  transpose S1024x100000 [1, 0] (scoreT users U I FS) transposes_S100000x1024_S1024x100000_1_0

end Cert.KernelIdeal.KSpec

end
-- ==== Proof.KValue.lean ====
/-
  The idealized kernel's arithmetic read at an index, on the extended reals: each matrix-unit product into a zero
  accumulator is the plain sum over the contracted coordinate of the operands' products; the layout operations
  (transpose, zero padding) read the operand at the permuted or the same position.
-/
import proofs.«210177_g34866544509008_cont_8to1_b_1726_19_alg».proof.Proof.Gen.KernelIdeal.Skeleton
import proofs.«210177_g34866544509008_cont_8to1_b_1726_19_alg».proof.Proof.KSpec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

namespace Cert.KernelIdeal.KValue

open Idealize.ShloMosaic Idealize.ShloMosaic.ValueIdx Cert.KernelIdeal Cert.KernelIdeal.Facts₀

/-! ## The three matrix products at an index -/

/-- Contracting axis 0 of both operands: entry (r, l) of the product is the sum over k of A[k, r] · B[k, l]. -/
theorem mm0_apply (A : FVec Ideal S400x12800 .f32) (B : FVec Ideal S400x128 .f32) (r : Fin 12800) (l : Fin 128) :
    FloatOps.matmul dot_S400x12800_S400x128_S12800x128_0_0_1_1_n_n none A B (constant (F := Ideal) S12800x128 .f32 0x00000000#32) (ix2 r l)
      = ∑ k : Fin 400, A (ix2 k r) * B (ix2 k l) := by
  rw [Ideal.matmul_constant_zero_apply,
    ← Equiv.sum_comp (contrEquiv1 dot_S400x12800_S400x128_S12800x128_0_0_1_1_n_n 400 rfl rfl).symm]
  refine Finset.sum_congr rfl fun c _ => ?_
  have c2 := contrEquiv1_symm_val dot_S400x12800_S400x128_S12800x128_0_0_1_1_n_n 400 rfl rfl c
  have l2 : dot_S400x12800_S400x128_S12800x128_0_0_1_1_n_n.lhsIdx (ix2 r l) ((contrEquiv1 _ 400 rfl rfl).symm c) = ix2 c r := by
    funext ax; apply Fin.ext
    match ax with
    | ⟨0, _⟩ => simp [DotDims.lhsIdx, dot_S400x12800_S400x128_S12800x128_0_0_1_1_n_n]; exact c2
    | ⟨1, _⟩ => simp [DotDims.lhsIdx, dot_S400x12800_S400x128_S12800x128_0_0_1_1_n_n]; rfl
  have r2 : dot_S400x12800_S400x128_S12800x128_0_0_1_1_n_n.rhsIdx (ix2 r l) ((contrEquiv1 _ 400 rfl rfl).symm c) = ix2 c l := by
    funext ax; apply Fin.ext
    match ax with
    | ⟨0, _⟩ => simp [DotDims.rhsIdx, dot_S400x12800_S400x128_S12800x128_0_0_1_1_n_n]; exact c2
    | ⟨1, _⟩ => simp [DotDims.rhsIdx, dot_S400x12800_S400x128_S12800x128_0_0_1_1_n_n]; rfl
  rw [l2, r2]

/-- The plain product: entry (l, i) is the sum over k of A[l, k] · B[k, i]. -/
theorem mm1_apply (A : FVec Ideal S64x400 .f32) (B : FVec Ideal S400x5120 .f32) (l : Fin 64) (i : Fin 5120) :
    FloatOps.matmul dot_S64x400_S400x5120_S64x5120_1_0_0_1_n_n none A B (constant (F := Ideal) S64x5120 .f32 0x00000000#32) (ix2 l i)
      = ∑ k : Fin 400, A (ix2 l k) * B (ix2 k i) := by
  rw [Ideal.matmul_constant_zero_apply,
    ← Equiv.sum_comp (contrEquiv1 dot_S64x400_S400x5120_S64x5120_1_0_0_1_n_n 400 rfl rfl).symm]
  refine Finset.sum_congr rfl fun c _ => ?_
  have c2 := contrEquiv1_symm_val dot_S64x400_S400x5120_S64x5120_1_0_0_1_n_n 400 rfl rfl c
  have l2 : dot_S64x400_S400x5120_S64x5120_1_0_0_1_n_n.lhsIdx (ix2 l i) ((contrEquiv1 _ 400 rfl rfl).symm c) = ix2 l c := by
    funext ax; apply Fin.ext
    match ax with
    | ⟨0, _⟩ => simp [DotDims.lhsIdx, dot_S64x400_S400x5120_S64x5120_1_0_0_1_n_n]; rfl
    | ⟨1, _⟩ => simp [DotDims.lhsIdx, dot_S64x400_S400x5120_S64x5120_1_0_0_1_n_n]; exact c2
  have r2 : dot_S64x400_S400x5120_S64x5120_1_0_0_1_n_n.rhsIdx (ix2 l i) ((contrEquiv1 _ 400 rfl rfl).symm c) = ix2 c i := by
    funext ax; apply Fin.ext
    match ax with
    | ⟨0, _⟩ => simp [DotDims.rhsIdx, dot_S64x400_S400x5120_S64x5120_1_0_0_1_n_n]; exact c2
    | ⟨1, _⟩ => simp [DotDims.rhsIdx, dot_S64x400_S400x5120_S64x5120_1_0_0_1_n_n]; rfl
  rw [l2, r2]

/-- Contracting axis 0 of the left operand with axis 1 of the right: entry (i, b) is the sum over l of A[l, i] · B[b, l]. -/
theorem mm2_apply (A : FVec Ideal S64x5120 .f32) (B : FVec Ideal S1024x64 .f32) (i : Fin 5120) (b : Fin 1024) :
    FloatOps.matmul dot_S64x5120_S1024x64_S5120x1024_0_1_1_0_n_n none A B (constant (F := Ideal) S5120x1024 .f32 0x00000000#32) (ix2 i b)
      = ∑ k : Fin 64, A (ix2 k i) * B (ix2 b k) := by
  rw [Ideal.matmul_constant_zero_apply,
    ← Equiv.sum_comp (contrEquiv1 dot_S64x5120_S1024x64_S5120x1024_0_1_1_0_n_n 64 rfl rfl).symm]
  refine Finset.sum_congr rfl fun c _ => ?_
  have c2 := contrEquiv1_symm_val dot_S64x5120_S1024x64_S5120x1024_0_1_1_0_n_n 64 rfl rfl c
  have l2 : dot_S64x5120_S1024x64_S5120x1024_0_1_1_0_n_n.lhsIdx (ix2 i b) ((contrEquiv1 _ 64 rfl rfl).symm c) = ix2 c i := by
    funext ax; apply Fin.ext
    match ax with
    | ⟨0, _⟩ => simp [DotDims.lhsIdx, dot_S64x5120_S1024x64_S5120x1024_0_1_1_0_n_n]; exact c2
    | ⟨1, _⟩ => simp [DotDims.lhsIdx, dot_S64x5120_S1024x64_S5120x1024_0_1_1_0_n_n]; rfl
  have r2 : dot_S64x5120_S1024x64_S5120x1024_0_1_1_0_n_n.rhsIdx (ix2 i b) ((contrEquiv1 _ 64 rfl rfl).symm c) = ix2 b c := by
    funext ax; apply Fin.ext
    match ax with
    | ⟨0, _⟩ => simp [DotDims.rhsIdx, dot_S64x5120_S1024x64_S5120x1024_0_1_1_0_n_n]; rfl
    | ⟨1, _⟩ => simp [DotDims.rhsIdx, dot_S64x5120_S1024x64_S5120x1024_0_1_1_0_n_n]; exact c2
  rw [l2, r2]

/-- The first kernel's stored value at (r, l): the sum over the 400 features of x0[k, r] · x2[k, l]. -/
theorem pay1_apply (x0 : Vec Ideal S400x12800 .f32) (x2 : Vec Ideal S400x128 .f32) (r : Fin 12800) (l : Fin 128) :
    Gen.k0_pay1 (F := Ideal) x0 x2 (ix2 r l) = ∑ k : Fin 400, x0 (ix2 k r) * x2 (ix2 k l) := by
  unfold Gen.k0_pay1
  simp only [shapeCast_self]
  exact mm0_apply x0 x2 r l

/-- The second kernel's stored value at (i, b): the logistic function of the sum over the 64 latent coordinates of
    (the sum over the 400 features of v0[l, k] · v2[k, i]) · v5[b, l]. -/
theorem pay2_apply (v0 : Vec Ideal S64x400 .f32) (v2 : Vec Ideal S400x5120 .f32) (v5 : Vec Ideal S1024x64 .f32) (i : Fin 5120) (b : Fin 1024) :
    Gen.k2_pay1 (F := Ideal) v0 v2 v5 (ix2 i b) = Ideal.logistic (∑ l : Fin 64, (∑ k : Fin 400, v0 (ix2 l k) * v2 (ix2 k i)) * v5 (ix2 b l)) := by
  unfold Gen.k2_pay1
  simp only [shapeCast_self]
  show Ideal.logistic (FloatOps.matmul dot_S64x5120_S1024x64_S5120x1024_0_1_1_0_n_n none _ v5 (constant (F := Ideal) S5120x1024 .f32 0x00000000#32) (ix2 i b)) = _
  refine congrArg Ideal.logistic ?_
  refine (mm2_apply _ v5 i b).trans ?_
  refine Finset.sum_congr rfl fun l _ => ?_
  refine congrArg (· * v5 (ix2 b l)) ?_
  exact mm1_apply v0 v2 l i

end Cert.KernelIdeal.KValue

end
-- ==== Proof.KValueOut.lean ====
/-
  The idealized kernel's layout operations read at an index, and its whole result as the rating function: the
  transposes read the operand at the swapped position, the zero padding reads the operand inside the first 64
  columns; the kernel's stages then compose, index by index, to the logistic function of the inner product of the
  two latent vectors, the factors of each product in the other order (multiplication of extended reals commutes).
-/
import proofs.«210177_g34866544509008_cont_8to1_b_1726_19_alg».proof.Proof.KValue

noncomputable section

namespace Cert.KernelIdeal.KValue

open Idealize.ShloMosaic Idealize.ShloMosaic.ValueIdx Cert.KernelIdeal Cert.KernelIdeal.Facts₀

/-! ## The layout operations at an index -/

/-- A table transposed reads, at (k, r), the table at (r, k). -/
theorem tT_apply (T : FVec Ideal S100000x400 .f32) (k : Fin 400) (r : Fin 100000) : KSpec.tT T (ix2 k r) = T (ix2 r k) := by
  unfold KSpec.tT
  exact transpose_ix2_apply T _ k r

/-- The projection transposed reads, at (l, k), the projection at (k, l). -/
theorem fsT_apply (FS : FVec Ideal S400x64 .f32) (l : Fin 64) (k : Fin 400) : KSpec.fsT FS (ix2 l k) = FS (ix2 k l) := by
  unfold KSpec.fsT
  exact transpose_ix2_apply FS _ l k

/-- The padded projection reads, in its first 64 columns, the projection. -/
theorem fsp_apply_lt (FS : FVec Ideal S400x64 .f32) (k : Fin 400) (l : Fin 128) (h : l.val < 64) :
    KSpec.fsp FS (ix2 k l) = FS (ix2 k ⟨l.val, h⟩) := by
  unfold KSpec.fsp
  refine pad_apply_of_inside _ _ _ FS _ _ _ (ix2 k l) (ix2 k (⟨l.val, h⟩ : Fin 64)) fun a => ?_
  match a with
  | ⟨0, _⟩ => show k.val = 0 + k.val * (0 + 1); omega
  | ⟨1, _⟩ => show l.val = 0 + l.val * (0 + 1); omega

section Stages
variable (users : IVec S1024 32) (U I : FVec Ideal S100000x400 .f32) (FS : FVec Ideal S400x64 .f32)

/-- Every user's latent row at (u, l'). -/
theorem au_apply (u : Fin 100000) (l' : Fin 128) :
    KSpec.au U FS (ix2 u l') = ∑ k : Fin 400, KSpec.tT U (ix2 k u) * KSpec.fsp FS (ix2 k l') := rfl

/-- The requested users' rows at (b, l'): the row of the user the b-th word names. -/
theorem ug_apply (b : Fin 1024) (l' : Fin 128) :
    KSpec.ug users U FS (ix2 b l') = KSpec.au U FS (ix2 (Cert.Spec.rowOf (users (ix1 b))) l') := rfl

/-- The scores at (i, b). -/
theorem scoreT_apply (i : Fin 100000) (b : Fin 1024) :
    KSpec.scoreT users U I FS (ix2 i b)
      = Ideal.logistic (∑ l : Fin 64, (∑ k : Fin 400, KSpec.fsT FS (ix2 l k) * KSpec.tT I (ix2 k i))
          * KSpec.ug users U FS (ix2 b (Fin.castLE (by decide) l))) := rfl

/-- In its first 64 columns a requested user's row is that user's latent vector. -/
theorem ug_apply_lt (b : Fin 1024) (l : Fin 64) :
    KSpec.ug users U FS (ix2 b (Fin.castLE (by decide) l)) = Cert.Spec.latent U FS (Cert.Spec.rowOf (users (ix1 b))) l := by
  rw [ug_apply, au_apply]
  unfold Cert.Spec.latent
  refine Finset.sum_congr rfl fun k _ => ?_
  rw [tT_apply, fsp_apply_lt FS k _ l.isLt]
  rfl

/-- The item side of a score: the transposed projection against the transposed table is the item's latent coordinate. -/
theorem item_latent (i : Fin 100000) (l : Fin 64) :
    (∑ k : Fin 400, KSpec.fsT FS (ix2 l k) * KSpec.tT I (ix2 k i)) = Cert.Spec.latent I FS i l := by
  unfold Cert.Spec.latent
  refine Finset.sum_congr rfl fun k _ => ?_
  rw [fsT_apply, tT_apply]
  exact mul_comm _ _

/-- The result reads, at (b, i), the scores at (i, b). -/
theorem out_apply (b : Fin 1024) (i : Fin 100000) :
    KSpec.out users U I FS (ix2 b i) = KSpec.scoreT users U I FS (ix2 i b) := by
  unfold KSpec.out
  exact transpose_ix2_apply (KSpec.scoreT users U I FS) _ b i

/-- The kernel's result, as a function of its arguments, is the rating function. -/
theorem out_eq : KSpec.out users U I FS = Cert.Spec.rating users U I FS := by
  funext j
  obtain ⟨b, i, rfl⟩ : ∃ (b : Fin 1024) (i : Fin 100000), j = ix2 b i := ⟨j 0, j 1, eq_ix2 j⟩
  refine (out_apply users U I FS b i).trans ?_
  refine (scoreT_apply users U I FS i b).trans ?_
  refine Eq.trans ?_ (Cert.Spec.rating_apply users U I FS b i).symm
  unfold Cert.Spec.score
  refine congrArg Ideal.logistic (Finset.sum_congr rfl fun l _ => ?_)
  rw [ug_apply_lt, item_latent]
  exact mul_comm _ _

end Stages

end Cert.KernelIdeal.KValue

end
-- ==== Proof.KArrI.lean ====
/-
  What the two windowed result arrays hold after the write-backs, on the extended reals. Each grid point writes
  one block of rows of the result; the last block overhangs the array and only its rows inside are written. A row
  written at a point holds the body's payload of the staged inputs there, and for a row inside the array those inputs
  are the arrays' own entries (what lies beyond the array in a staging buffer is read only for rows beyond it). The
  blocks cover the rows, so the whole array is the stage's closed form.
-/
import proofs.«210177_g34866544509008_cont_8to1_b_1726_19_alg».proof.Proof.RDataI
import proofs.«210177_g34866544509008_cont_8to1_b_1726_19_alg».proof.Proof.KValue
import proofs.«210177_g34866544509008_cont_8to1_b_1726_19_alg».proof.Proof.KValueOut
import proofs.«210177_g34866544509008_cont_8to1_b_1726_19_alg».proof.Proof.KSpec
import Idealize.ShloMosaic.Lib.Pipeline.Value

noncomputable section

namespace Cert.KernelIdeal.KArr

open Idealize.ShloMosaic Idealize.ShloMosaic.TcCoe Idealize.ShloMosaic.ValueIdx
open Idealize.SL Idealize.SL.RA
open Idealize.ShloMosaic.Pipeline (RDat Cfg Window)

/-! ## Any pipeline: a property of every written-back element holds of every covered element -/

section Generic

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (rd : RDat τ Val Ix Name U Lvl cfg c)

/-- One more point, past the grid: nothing changes. -/
theorem arrAt_succ_of_not_lt (w : Fin cfg.W) (n : Nat) (hn : ¬n < cfg.N) (G) (h : rd.ArrAt w (n + 1) G) : rd.ArrAt w n G := by
  have h' : (if h : n < cfg.N then (if (cfg.win w).flush ⟨n, h⟩ = true then rd.ArrStep w ⟨n, h⟩ (rd.ArrAt w n) else rd.ArrAt w n)
      else rd.ArrAt w n) G := h
  rw [dif_neg hn] at h'
  exact h'

/-- One more point that does not write back: nothing changes. -/
theorem arrAt_succ_of_not_flush (w : Fin cfg.W) (n : Nat) (hn : n < cfg.N) (hf : ¬(cfg.win w).flush ⟨n, hn⟩ = true) (G)
    (h : rd.ArrAt w (n + 1) G) : rd.ArrAt w n G := by
  have h' : (if h : n < cfg.N then (if (cfg.win w).flush ⟨n, h⟩ = true then rd.ArrStep w ⟨n, h⟩ (rd.ArrAt w n) else rd.ArrAt w n)
      else rd.ArrAt w n) G := h
  rw [dif_pos hn, if_neg hf] at h'
  exact h'

/-- One more point that writes back: its block is overwritten by the part inside the array of what the body may have left. -/
theorem arrAt_succ_of_flush (w : Fin cfg.W) (n : Nat) (hn : n < cfg.N) (hf : (cfg.win w).flush ⟨n, hn⟩ = true) (G)
    (h : rd.ArrAt w (n + 1) G) : rd.ArrStep w ⟨n, hn⟩ (rd.ArrAt w n) G := by
  have h' : (if h : n < cfg.N then (if (cfg.win w).flush ⟨n, h⟩ = true then rd.ArrStep w ⟨n, h⟩ (rd.ArrAt w n) else rd.ArrAt w n)
      else rd.ArrAt w n) G := h
  rw [dif_pos hn, if_pos hf] at h'
  exact h'

/-- If every element any writing point may write back has a property (of the array position and the value), then after
    the write-backs below `n` every element under a block written below `n` has it: whichever point wrote it last
    wrote a value with the property. -/
theorem arrAt_forall_of_leaves (w : Fin cfg.W)
    (P : ((cfg.win w).arr.view.loc (c.tc : Thread nD τ)).2.ty.Idx → Val ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y)
        (_root_.cast (congrArg Val ((cfg.win w).blk t).view.elt_eq.symm) ((cfg.win w).cut (cfg.grid.coords t) X y))) :
    ∀ (n : Nat) (G : Buf Val ((cfg.win w).arr.view.loc (c.tc : Thread nD τ))), rd.ArrAt w n G →
      ∀ (t : Fin cfg.N) (i : ((cfg.win w).arr.view.loc (c.tc : Thread nD τ)).2.ty.Idx),
        t.val < n → (cfg.win w).flush t = true → i ∈ ((cfg.win w).blk t).view.set → P i (G i)
  | 0, _, _, _, _, ht, _, _ => absurd ht (Nat.not_lt_zero _)
  | n + 1, G, hG, t, i, ht, hf, hi => by
    by_cases hn : n < cfg.N
    swap
    · exact arrAt_forall_of_leaves w P hP n G (arrAt_succ_of_not_lt rd w n hn G hG) t i (by have := t.isLt; omega) hf hi
    by_cases hfn : (cfg.win w).flush ⟨n, hn⟩ = true
    · obtain ⟨G₀, X, hG₀, hX, rfl⟩ := arrAt_succ_of_flush rd w n hn hfn G hG
      by_cases hin : i ∈ ((cfg.win w).blk ⟨n, hn⟩).view.set
      · obtain ⟨y, -, rfl⟩ := Finset.mem_map.mp hin
        rw [View.write_emb_of_mem _ _ (Finset.mem_univ y)]
        exact hP _ hfn X hX y
      · rw [View.write_of_not_mem _ _ _ (by rwa [View.setOn_univ])]
        have htn : t.val ≠ n := fun e => hin (by have : t = ⟨n, hn⟩ := Fin.ext e; exact this ▸ hi)
        exact arrAt_forall_of_leaves w P hP n G₀ hG₀ t i (by omega) hf hi
    · have htn : t.val ≠ n := fun e => hfn (by have : t = ⟨n, hn⟩ := Fin.ext e; exact this ▸ hf)
      exact arrAt_forall_of_leaves w P hP n G (arrAt_succ_of_not_flush rd w n hn hfn G hG) t i (by omega) hf hi

end Generic

/-! ## Pipeline 0: every user's latent row -/

section P0

open Cert.KernelIdeal Cert.KernelIdeal.Gen Cert.KernelIdeal.Setup Cert.KernelIdeal.Bodies Cert.KernelIdeal.RData
open Idealize.ShloMosaic.SparseCore.Cfg (HIx)

variable (c : Dev nD) (V : (b : Ref sig .tc) → Buf (Elt Ideal) ((c : Thread nD τ).loc b))
  (O : CellTallies nD τ sig (HIx 1)) (Wr : Set (SemLoc sig × HIx 1))

/-- The block indices and the cut block sizes at each grid point, in closed form: the table window's blocks run along
    the table's columns and the result window's along its rows, block `t` at point `t`, 12800 wide but for the last. -/
theorem geo0 : ∀ t : Fin grid0.N,
    win0_0.index t 0 = 0 ∧ win0_0.index t 1 = t.val ∧ win0_2.index t 0 = t.val ∧ win0_2.index t 1 = 0
    ∧ win0_0.xsize (grid0.coords t) 0 = 400 ∧ win0_0.xsize (grid0.coords t) 1 = min 12800 (100000 - 12800 * t.val)
    ∧ win0_2.xsize (grid0.coords t) 0 = min 12800 (100000 - 12800 * t.val) ∧ win0_2.xsize (grid0.coords t) 1 = 128 := by
  decide +kernel

/-- What a point writes back at a position of the result is every user's latent row there: the staged table block
    inside the array is the transposed table's, the once-fetched block is the whole padded projection. -/
theorem written0 (U : FVec Ideal S100000x400 .f32) (FS : FVec Ideal S400x64 .f32)
    (hV1 : V main_v1 = KSpec.tT U) (hV0 : V main_v0 = KSpec.fsp FS)
    (t : Fin cfg0.N) (X) (hX : (rdat0 (F := Ideal) c V O Wr).Leaves 2 t X)
    (y : ((cfg0.win 2).xblock (cfg0.grid.coords t)).Idx) :
    _root_.cast (congrArg (Elt Ideal) ((cfg0.win 2).blk t).view.elt_eq.symm) ((cfg0.win 2).cut (cfg0.grid.coords t) X y)
      = KSpec.au U FS (((cfg0.win 2).blk t).view.emb y) := by
  obtain ⟨Y, -, Y0, Y1, ⟨d0, rfl⟩, ⟨d1, rfl⟩, rfl⟩ := hX
  obtain ⟨g1, g2, g3, g4, g5, g6, g7, g8⟩ := geo0 t
  have hy0 : (y (0 : Fin 2)).val < min 12800 (100000 - 12800 * t.val) := Nat.lt_of_lt_of_eq (y (0 : Fin 2)).isLt g7
  have hy1 : (y (1 : Fin 2)).val < 128 := Nat.lt_of_lt_of_eq (y (1 : Fin 2)).isLt g8
  have ht : t.val < 8 := Nat.lt_of_lt_of_eq t.isLt N_0
  let r' : Fin 12800 := ⟨(y (0 : Fin 2)).val, by omega⟩
  let l' : Fin 128 := ⟨(y (1 : Fin 2)).val, hy1⟩
  have ex : win0_2.xinj (grid0.coords t) y = ix2 r' l' := funext fun a => match a with | ⟨0, _⟩ => rfl | ⟨1, _⟩ => rfl
  show Gen.k0_pay1 _ _ (win0_2.xinj (grid0.coords t) y) = _
  refine (congrArg _ ex).trans ?_
  refine (KValue.pay1_apply _ _ r' l').trans ?_
  show _ = ∑ k : Fin 400, KSpec.tT U (ix2 k (((win0_2.blk t).view.emb y) 0)) * KSpec.fsp FS (ix2 k (((win0_2.blk t).view.emb y) 1))
  refine Finset.sum_congr rfl fun k _ => ?_
  -- the table's factor: the staged block inside the array is the transposed table's
  have hA : win0_0.fill (grid0.coords t) d0 ((win0_0.blk t).view.read (Elt Ideal) (V main_v1)) (ix2 k r')
      = KSpec.tT U (ix2 k (((win0_2.blk t).view.emb y) 0)) := by
    let y0 : (win0_0.xblock (grid0.coords t)).Idx := fun a => match a with
      | ⟨0, _⟩ => ⟨k.val, Nat.lt_of_lt_of_eq k.isLt g5.symm⟩
      | ⟨1, _⟩ => ⟨r'.val, Nat.lt_of_lt_of_eq hy0 g6.symm⟩
    have e0 : (ix2 k r' : S400x12800.Idx) = win0_0.xinj (grid0.coords t) y0 :=
      funext fun a => match a with | ⟨0, _⟩ => rfl | ⟨1, _⟩ => rfl
    rw [e0, Window.fill_xinj]
    show V main_v1 ((win0_0.blk t).view.emb y0) = _
    rw [hV1]
    refine congrArg (KSpec.tT U) (funext fun a => Fin.ext ?_)
    match a with
    | ⟨0, _⟩ =>
      show ((win0_0.rect t).emb y0 (0 : Fin 2) : Nat) = k.val
      rw [Window.rect_emb_val]
      show win0_0.index t 0 * 400 + k.val = k.val
      rw [g1]; omega
    | ⟨1, _⟩ =>
      show ((win0_0.rect t).emb y0 (1 : Fin 2) : Nat) = ((win0_2.rect t).emb y (0 : Fin 2) : Nat)
      rw [Window.rect_emb_val, Window.rect_emb_val]
      show win0_0.index t 1 * 12800 + (y (0 : Fin 2)).val = win0_2.index t 0 * 12800 + (y (0 : Fin 2)).val
      rw [g2, g3]
  -- the projection's factor: the once-fetched block is the whole padded projection
  have hB : win0_1.fill (grid0.coords p0_first) d1 ((win0_1.blk p0_first).view.read (Elt Ideal) (V main_v0)) (ix2 k l')
      = KSpec.fsp FS (ix2 k (((win0_2.blk t).view.emb y) 1)) := by
    let y1 : (win0_1.xblock (grid0.coords p0_first)).Idx := fun a => match a with
      | ⟨0, _⟩ => ⟨k.val, k.isLt⟩
      | ⟨1, _⟩ => ⟨l'.val, l'.isLt⟩
    have e1 : (ix2 k l' : S400x128.Idx) = win0_1.xinj (grid0.coords p0_first) y1 :=
      funext fun a => match a with | ⟨0, _⟩ => rfl | ⟨1, _⟩ => rfl
    rw [e1, Window.fill_xinj]
    show V main_v0 ((win0_1.blk p0_first).view.emb y1) = _
    rw [hV0]
    refine congrArg (KSpec.fsp FS) (funext fun a => Fin.ext ?_)
    match a with
    | ⟨0, _⟩ =>
      show ((win0_1.rect p0_first).emb y1 (0 : Fin 2) : Nat) = k.val
      rw [Window.rect_emb_val]
      show win0_1.index p0_first 0 * 400 + k.val = k.val
      rw [show win0_1.index p0_first 0 = 0 from by decide]; omega
    | ⟨1, _⟩ =>
      show ((win0_1.rect p0_first).emb y1 (1 : Fin 2) : Nat) = ((win0_2.rect t).emb y (1 : Fin 2) : Nat)
      rw [Window.rect_emb_val, Window.rect_emb_val]
      show win0_1.index p0_first 1 * 128 + (y (1 : Fin 2)).val = win0_2.index t 1 * 128 + (y (1 : Fin 2)).val
      rw [show win0_1.index p0_first 1 = 0 from by decide, g4]
  exact congr (congrArg _ hA) hB

/-- Every position of the result lies in the block written at the point its row number divided by 12800 names. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 8 := N_0
  let t : Fin cfg0.N := ⟨(i 0).val / 12800, by omega⟩
  refine ⟨t, flush0_2 t, ?_⟩
  obtain ⟨g1, g2, g3, g4, g5, g6, g7, g8⟩ := geo0 t
  show i ∈ ((View.whole main_v2).slice (win0_2.rect t)).set
  rw [View.set_slice_whole, Rect.mem_set_unit]
  intro a
  match a with
  | ⟨0, _⟩ =>
    show win0_2.index t 0 * 12800 ≤ (i 0).val ∧ (i 0).val < win0_2.index t 0 * 12800 + win0_2.xsize (grid0.coords t) 0
    rw [g3, g7]
    show (i 0).val / 12800 * 12800 ≤ (i 0).val
      ∧ (i 0).val < (i 0).val / 12800 * 12800 + min 12800 (100000 - 12800 * ((i 0).val / 12800))
    omega
  | ⟨1, _⟩ =>
    show win0_2.index t 1 * 128 ≤ (i 1).val ∧ (i 1).val < win0_2.index t 1 * 128 + win0_2.xsize (grid0.coords t) 1
    rw [g4, g8]
    omega

/-- After all eight write-backs the result array is every user's latent row. -/
theorem arrAt0_eq (U : FVec Ideal S100000x400 .f32) (FS : FVec Ideal S400x64 .f32)
    (hV1 : V main_v1 = KSpec.tT U) (hV0 : V main_v0 = KSpec.fsp FS)
    (G : Buf (Elt Ideal) ((cfg0.win 2).arr.view.loc (c.tc : Thread nD τ)))
    (h : (rdat0 (F := Ideal) c V O Wr).ArrAt 2 cfg0.N G) : G = KSpec.au U FS := by
  funext i
  obtain ⟨t, hf, hi⟩ := cover0 i
  exact arrAt_forall_of_leaves (rdat0 (F := Ideal) c V O Wr) 2 (fun i v => v = KSpec.au U FS i)
    (fun t _ X hX y => written0 c V O Wr U FS hV1 hV0 t X hX y) cfg0.N G h t i t.isLt hf hi

end P0

/-! ## Pipeline 1: the scores -/

section P1

open Cert.KernelIdeal Cert.KernelIdeal.Gen Cert.KernelIdeal.Setup Cert.KernelIdeal.Bodies Cert.KernelIdeal.RData
open Idealize.ShloMosaic.SparseCore.Cfg (HIx)

variable (c : Dev nD) (V : (b : Ref sig .tc) → Buf (Elt Ideal) ((c : Thread nD τ).loc b))
  (O : CellTallies nD τ sig (HIx 1)) (Wr : Set (SemLoc sig × HIx 1))

/-- The block indices and the cut block sizes at each grid point, in closed form: the item window's blocks run along
    the transposed table's columns and the result window's along its rows, block `t` at point `t`, 5120 wide but for
    the last. -/
theorem geo2 : ∀ t : Fin grid2.N,
    win2_2.index t 0 = 0 ∧ win2_2.index t 1 = t.val ∧ win2_3.index t 0 = t.val ∧ win2_3.index t 1 = 0
    ∧ win2_2.xsize (grid2.coords t) 0 = 400 ∧ win2_2.xsize (grid2.coords t) 1 = min 5120 (100000 - 5120 * t.val)
    ∧ win2_3.xsize (grid2.coords t) 0 = min 5120 (100000 - 5120 * t.val) ∧ win2_3.xsize (grid2.coords t) 1 = 1024 := by
  decide +kernel

/-- What a point writes back at a position of the result is the score there: the staged item block inside the array
    is the transposed item table's, the once-fetched blocks are the transposed projection and the gathered rows. -/
theorem written1 (users : IVec S1024 32) (U I : FVec Ideal S100000x400 .f32) (FS : FVec Ideal S400x64 .f32)
    (hV4 : V main_v4 = KSpec.fsT FS) (hV3 : V main_v3 = KSpec.ug users U FS) (hV5 : V main_v5 = KSpec.tT I)
    (t : Fin cfg2.N) (X) (hX : (rdat1 (F := Ideal) c V O Wr).Leaves 3 t X)
    (y : ((cfg2.win 3).xblock (cfg2.grid.coords t)).Idx) :
    _root_.cast (congrArg (Elt Ideal) ((cfg2.win 3).blk t).view.elt_eq.symm) ((cfg2.win 3).cut (cfg2.grid.coords t) X y)
      = KSpec.scoreT users U I FS (((cfg2.win 3).blk t).view.emb y) := by
  obtain ⟨Y, -, Y0, Y1, Y2, ⟨d0, rfl⟩, ⟨d1, rfl⟩, ⟨d2, rfl⟩, rfl⟩ := hX
  obtain ⟨g1, g2, g3, g4, g5, g6, g7, g8⟩ := geo2 t
  have hy0 : (y (0 : Fin 2)).val < min 5120 (100000 - 5120 * t.val) := Nat.lt_of_lt_of_eq (y (0 : Fin 2)).isLt g7
  have hy1 : (y (1 : Fin 2)).val < 1024 := Nat.lt_of_lt_of_eq (y (1 : Fin 2)).isLt g8
  have ht : t.val < 20 := Nat.lt_of_lt_of_eq t.isLt N_2
  let i' : Fin 5120 := ⟨(y (0 : Fin 2)).val, by omega⟩
  let b' : Fin 1024 := ⟨(y (1 : Fin 2)).val, hy1⟩
  have ex : win2_3.xinj (grid2.coords t) y = ix2 i' b' := funext fun a => match a with | ⟨0, _⟩ => rfl | ⟨1, _⟩ => rfl
  show Gen.k2_pay1 _ _ _ (win2_3.xinj (grid2.coords t) y) = _
  refine (congrArg _ ex).trans ?_
  refine (KValue.pay2_apply _ _ _ i' b').trans ?_
  show _ = Ideal.logistic (∑ l : Fin 64,
      (∑ k : Fin 400, KSpec.fsT FS (ix2 l k) * KSpec.tT I (ix2 k (((win2_3.blk t).view.emb y) 0)))
        * KSpec.ug users U FS (ix2 (((win2_3.blk t).view.emb y) 1) (Fin.castLE (by decide) l)))
  refine congrArg Ideal.logistic (Finset.sum_congr rfl fun l _ => ?_)
  -- the user's factor: the first 64 columns of the once-fetched block of gathered rows
  have hC : View.ld (win2_1.fill (grid2.coords p1_first) d1 ((win2_1.blk p1_first).view.read (Elt Ideal) (V main_v3))) r64 (ix2 b' l)
      = KSpec.ug users U FS (ix2 (((win2_3.blk t).view.emb y) 1) (Fin.castLE (by decide) l)) := by
    let y1 : (win2_1.xblock (grid2.coords p1_first)).Idx := fun a => match a with
      | ⟨0, _⟩ => ⟨b'.val, b'.isLt⟩
      | ⟨1, _⟩ => ⟨l.val, Nat.lt_of_lt_of_le l.isLt (show 64 ≤ 128 by decide)⟩
    have e1 : r64.idx (ix2 b' l) = win2_1.xinj (grid2.coords p1_first) y1 :=
      funext fun a => Fin.ext (match a with
        | ⟨0, _⟩ => (by show 0 + 1 * b'.val = b'.val; omega)
        | ⟨1, _⟩ => (by show 0 + 1 * l.val = l.val; omega))
    show win2_1.fill (grid2.coords p1_first) d1 _ (r64.idx (ix2 b' l)) = _
    rw [e1, Window.fill_xinj]
    show V main_v3 ((win2_1.blk p1_first).view.emb y1) = _
    rw [hV3]
    refine congrArg (KSpec.ug users U FS) (funext fun a => Fin.ext ?_)
    match a with
    | ⟨0, _⟩ =>
      show ((win2_1.rect p1_first).emb y1 (0 : Fin 2) : Nat) = ((win2_3.rect t).emb y (1 : Fin 2) : Nat)
      rw [Window.rect_emb_val, Window.rect_emb_val]
      show win2_1.index p1_first 0 * 1024 + (y (1 : Fin 2)).val = win2_3.index t 1 * 1024 + (y (1 : Fin 2)).val
      rw [show win2_1.index p1_first 0 = 0 from by decide, g4]
    | ⟨1, _⟩ =>
      show ((win2_1.rect p1_first).emb y1 (1 : Fin 2) : Nat) = l.val
      rw [Window.rect_emb_val]
      show win2_1.index p1_first 1 * 128 + l.val = l.val
      rw [show win2_1.index p1_first 1 = 0 from by decide]; omega
  refine congr (congrArg _ (Finset.sum_congr rfl fun k _ => ?_)) hC
  -- the projection's factor: the once-fetched block is the whole transposed projection
  have hA : win2_0.fill (grid2.coords p1_first) d0 ((win2_0.blk p1_first).view.read (Elt Ideal) (V main_v4)) (ix2 l k)
      = KSpec.fsT FS (ix2 l k) := by
    let y0 : (win2_0.xblock (grid2.coords p1_first)).Idx := fun a => match a with
      | ⟨0, _⟩ => ⟨l.val, l.isLt⟩
      | ⟨1, _⟩ => ⟨k.val, k.isLt⟩
    have e0 : (ix2 l k : S64x400.Idx) = win2_0.xinj (grid2.coords p1_first) y0 :=
      funext fun a => match a with | ⟨0, _⟩ => rfl | ⟨1, _⟩ => rfl
    rw [e0, Window.fill_xinj]
    show V main_v4 ((win2_0.blk p1_first).view.emb y0) = _
    rw [hV4]
    refine congrArg (KSpec.fsT FS) (funext fun a => Fin.ext ?_)
    match a with
    | ⟨0, _⟩ =>
      show ((win2_0.rect p1_first).emb y0 (0 : Fin 2) : Nat) = l.val
      rw [Window.rect_emb_val]
      show win2_0.index p1_first 0 * 64 + l.val = l.val
      rw [show win2_0.index p1_first 0 = 0 from by decide]; omega
    | ⟨1, _⟩ =>
      show ((win2_0.rect p1_first).emb y0 (1 : Fin 2) : Nat) = k.val
      rw [Window.rect_emb_val]
      show win2_0.index p1_first 1 * 400 + k.val = k.val
      rw [show win2_0.index p1_first 1 = 0 from by decide]; omega
  -- the item's factor: the staged block inside the array is the transposed item table's
  have hB : win2_2.fill (grid2.coords t) d2 ((win2_2.blk t).view.read (Elt Ideal) (V main_v5)) (ix2 k i')
      = KSpec.tT I (ix2 k (((win2_3.blk t).view.emb y) 0)) := by
    let y2 : (win2_2.xblock (grid2.coords t)).Idx := fun a => match a with
      | ⟨0, _⟩ => ⟨k.val, Nat.lt_of_lt_of_eq k.isLt g5.symm⟩
      | ⟨1, _⟩ => ⟨i'.val, Nat.lt_of_lt_of_eq hy0 g6.symm⟩
    have e2 : (ix2 k i' : S400x5120.Idx) = win2_2.xinj (grid2.coords t) y2 :=
      funext fun a => match a with | ⟨0, _⟩ => rfl | ⟨1, _⟩ => rfl
    rw [e2, Window.fill_xinj]
    show V main_v5 ((win2_2.blk t).view.emb y2) = _
    rw [hV5]
    refine congrArg (KSpec.tT I) (funext fun a => Fin.ext ?_)
    match a with
    | ⟨0, _⟩ =>
      show ((win2_2.rect t).emb y2 (0 : Fin 2) : Nat) = k.val
      rw [Window.rect_emb_val]
      show win2_2.index t 0 * 400 + k.val = k.val
      rw [g1]; omega
    | ⟨1, _⟩ =>
      show ((win2_2.rect t).emb y2 (1 : Fin 2) : Nat) = ((win2_3.rect t).emb y (0 : Fin 2) : Nat)
      rw [Window.rect_emb_val, Window.rect_emb_val]
      show win2_2.index t 1 * 5120 + (y (0 : Fin 2)).val = win2_3.index t 0 * 5120 + (y (0 : Fin 2)).val
      rw [g2, g3]
  exact congr (congrArg _ hA) hB

/-- Every position of the result lies in the block written at the point its row number divided by 5120 names. -/
theorem cover1 (i : S100000x1024.Idx) :
    ∃ t : Fin cfg2.N, (cfg2.win 3).flush t = true ∧ i ∈ ((cfg2.win 3).blk t).view.set := by
  have hi0 : (i 0).val < 100000 := (i 0).isLt
  have hi1 : (i 1).val < 1024 := (i 1).isLt
  have hN : cfg2.N = 20 := N_2
  let t : Fin cfg2.N := ⟨(i 0).val / 5120, by omega⟩
  refine ⟨t, flush2_3 t, ?_⟩
  obtain ⟨g1, g2, g3, g4, g5, g6, g7, g8⟩ := geo2 t
  show i ∈ ((View.whole main_v6).slice (win2_3.rect t)).set
  rw [View.set_slice_whole, Rect.mem_set_unit]
  intro a
  match a with
  | ⟨0, _⟩ =>
    show win2_3.index t 0 * 5120 ≤ (i 0).val ∧ (i 0).val < win2_3.index t 0 * 5120 + win2_3.xsize (grid2.coords t) 0
    rw [g3, g7]
    show (i 0).val / 5120 * 5120 ≤ (i 0).val
      ∧ (i 0).val < (i 0).val / 5120 * 5120 + min 5120 (100000 - 5120 * ((i 0).val / 5120))
    omega
  | ⟨1, _⟩ =>
    show win2_3.index t 1 * 1024 ≤ (i 1).val ∧ (i 1).val < win2_3.index t 1 * 1024 + win2_3.xsize (grid2.coords t) 1
    rw [g4, g8]
    omega

/-- After all twenty write-backs the result array is the scores, items by requested users. -/
theorem arrAt1_eq (users : IVec S1024 32) (U I : FVec Ideal S100000x400 .f32) (FS : FVec Ideal S400x64 .f32)
    (hV4 : V main_v4 = KSpec.fsT FS) (hV3 : V main_v3 = KSpec.ug users U FS) (hV5 : V main_v5 = KSpec.tT I)
    (G : Buf (Elt Ideal) ((cfg2.win 3).arr.view.loc (c.tc : Thread nD τ)))
    (h : (rdat1 (F := Ideal) c V O Wr).ArrAt 3 cfg2.N G) : G = KSpec.scoreT users U I FS := by
  funext i
  obtain ⟨t, hf, hi⟩ := cover1 i
  exact arrAt_forall_of_leaves (rdat1 (F := Ideal) c V O Wr) 3 (fun i v => v = KSpec.scoreT users U I FS i)
    (fun t _ X hX y => written1 c V O Wr users U I FS hV4 hV3 hV5 t X hX y) cfg2.N G h t i t.isLt hf hi

end P1

end Cert.KernelIdeal.KArr

end
-- ==== Proof.ValueI.lean ====
/-
  The idealized kernel's result is the rating function. The valuations between @main's segments, read at the
  buffers the two kernel regions are handed, are the stages' closed forms of the four arguments (the transposes and
  the zero padding are the host operations' own terms); so what the first region's write-backs may leave is every
  user's latent row, the gathered rows are the requested users', what the second region's write-backs may leave is the
  scores, and the last transpose of those is the rating of every item for every requested user.
-/
import proofs.«210177_g34866544509008_cont_8to1_b_1726_19_alg».proof.Proof.MainI
import proofs.«210177_g34866544509008_cont_8to1_b_1726_19_alg».proof.Proof.KArrI
import proofs.«210177_g34866544509008_cont_8to1_b_1726_19_alg».proof.Proof.KValueOut

noncomputable section

namespace Cert.KernelIdeal.Value

open Cert.KernelIdeal Cert.KernelIdeal.Gen Cert.KernelIdeal.Setup Cert.KernelIdeal.Bodies Cert.KernelIdeal.RData Cert.KernelIdeal.Segs Cert.KernelIdeal.Tile Cert.KernelIdeal.Main

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA
open Idealize.ShloMosaic.Pipeline (RDat Cfg Window)

variable (m : (ℓ : Loc nD τ sig) → Buf (Elt Ideal) ℓ)

/-! ## The valuations at the regions' inputs -/

/-- A buffer none of the first four host operations writes holds its launch contents when the first region is entered. -/
theorem W1_of_ne (d : Dev nD) {r : Ref sig .tc} (h1 : r ≠ main_v1) (h2 : r ≠ main_v0) (h3 : r ≠ main_call0_v0) (h4 : r ≠ main_c) :
    W1 (F := Ideal) m d (Proc.devRef .tc r) = m ((SparseCore.T d).loc r) := by
  unfold W1
  exact (StableHlo.unary_result_ne _ _ _ _ _ _ h1).trans ((StableHlo.binary_result_ne _ _ _ _ _ _ _ _ h2).trans
    ((StableHlo.unary_result_ne _ _ _ _ _ _ h3).trans ((StableHlo.nullary_result_ne _ _ _ _ h4).trans rfl)))

/-- The transposed user table. -/
theorem W1_v1 (d : Dev nD) : W1 (F := Ideal) m d (Proc.devRef .tc main_v1) = KSpec.tT (m ((SparseCore.T d).loc main_arg1)) := by
  unfold W1
  refine (StableHlo.unary_result' _ _ _ _).trans ?_
  unfold KSpec.tT
  refine congrArg (fun T => transpose S400x100000 [1, 0] T Facts₀.transposes_S100000x400_S400x100000_1_0) ?_
  exact (StableHlo.binary_result_ne _ _ _ _ _ _ _ _ (by decide)).trans
    ((StableHlo.unary_result_ne _ _ _ _ _ _ (by decide)).trans ((StableHlo.nullary_result_ne _ _ _ _ (by decide)).trans rfl))

/-- The padded projection. -/
theorem W1_v0 (d : Dev nD) : W1 (F := Ideal) m d (Proc.devRef .tc main_v0) = KSpec.fsp (m ((SparseCore.T d).loc main_arg3)) := by
  unfold W1
  refine (StableHlo.unary_result_ne _ _ _ _ _ _ (by decide)).trans ?_
  refine (StableHlo.binary_result' _ _ _ _ _).trans ?_
  unfold KSpec.fsp
  have hx : (opCv (F := Ideal)).result ((opC (F := Ideal)).result (W0 m d)) (Proc.devRef .tc main_arg3) = m ((SparseCore.T d).loc main_arg3) :=
    (StableHlo.unary_result_ne _ _ _ _ _ _ (by decide)).trans ((StableHlo.nullary_result_ne _ _ _ _ (by decide)).trans rfl)
  have hv : (opCv (F := Ideal)).result ((opC (F := Ideal)).result (W0 m d)) (Proc.devRef .tc main_call0_v0)
      = sitofp (F := Ideal) .f32 (constantI S_ 32 0#32) := by
    refine (StableHlo.unary_result' _ _ _ _).trans ?_
    exact congrArg (sitofp (F := Ideal) .f32) (StableHlo.nullary_result' _ _ _)
  have key : ∀ (x x' : FVec Ideal S400x64 .f32) (v v' : FVec Ideal S_ .f32), x = x' → v = v' →
      pad S400x128 ![0, 0] ![0, 64] ![0, 0] x v Facts₀.pads_S400x64_S400x128_000_0640 Facts₀.h_S_
        = pad S400x128 ![0, 0] ![0, 64] ![0, 0] x' v' Facts₀.pads_S400x64_S400x128_000_0640 Facts₀.h_S_ := by
    rintro _ _ _ _ rfl rfl; rfl
  exact key _ _ _ _ hx hv

/-- A buffer that neither the first four host operations, the first region nor the call writes holds its launch contents
    after the call. -/
theorem W3_of_ne (d : Dev nD) (tab : Buf (Elt Ideal) (tLoc d)) {r : Ref sig .tc} (h3 : r ≠ main_v3) (h2 : r ≠ main_v2)
    (h1 : r ≠ main_v1) (h0 : r ≠ main_v0) (hc0 : r ≠ main_call0_v0) (hc : r ≠ main_c) :
    W3 (F := Ideal) m d tab (Proc.devRef .tc r) = m ((SparseCore.T d).loc r) := by
  unfold W3 W2
  exact (Function.update_of_ne (StableHlo.devRef_ne_of_ne h3) _ _).trans
    ((Function.update_of_ne (StableHlo.devRef_ne_of_ne h2) _ _).trans (W1_of_ne m d h1 h0 hc0 hc))

/-- The transposed projection. -/
theorem W4_v4 (d : Dev nD) (tab : Buf (Elt Ideal) (tLoc d)) :
    W4 (F := Ideal) m d tab (Proc.devRef .tc main_v4) = KSpec.fsT (m ((SparseCore.T d).loc main_arg3)) := by
  unfold W4
  refine (StableHlo.unary_result_ne _ _ _ _ _ _ (by decide)).trans ?_
  refine (StableHlo.unary_result' _ _ _ _).trans ?_
  unfold KSpec.fsT
  exact congrArg (fun T => transpose S64x400 [1, 0] T Facts₀.transposes_S400x64_S64x400_1_0)
    (W3_of_ne m d tab (by decide) (by decide) (by decide) (by decide) (by decide) (by decide))

/-- The transposed item table. -/
theorem W4_v5 (d : Dev nD) (tab : Buf (Elt Ideal) (tLoc d)) :
    W4 (F := Ideal) m d tab (Proc.devRef .tc main_v5) = KSpec.tT (m ((SparseCore.T d).loc main_arg2)) := by
  unfold W4
  refine (StableHlo.unary_result' _ _ _ _).trans ?_
  unfold KSpec.tT
  exact congrArg (fun T => transpose S400x100000 [1, 0] T Facts₀.transposes_S100000x400_S400x100000_1_0)
    ((StableHlo.unary_result_ne _ _ _ _ _ _ (by decide)).trans
      (W3_of_ne m d tab (by decide) (by decide) (by decide) (by decide) (by decide) (by decide)))

/-- The gathered rows. -/
theorem W4_v3 (d : Dev nD) (tab : Buf (Elt Ideal) (tLoc d)) :
    W4 (F := Ideal) m d tab (Proc.devRef .tc main_v3) = gathered tab (m (uLoc d)) := by
  unfold W4
  exact (StableHlo.unary_result_ne _ _ _ _ _ _ (by decide)).trans
    ((StableHlo.unary_result_ne _ _ _ _ _ _ (by decide)).trans (W3_rows m d tab))

/-- The result: the scores transposed. -/
theorem W6_out (d : Dev nD) (tab : Buf (Elt Ideal) (tLoc d)) (G : Buf (Elt Ideal) (sLoc d)) :
    W6 (F := Ideal) m d tab G (Proc.devRef .tc main_v7)
      = transpose S1024x100000 [1, 0] (G : FVec Ideal S100000x1024 .f32) Facts₀.transposes_S100000x1024_S1024x100000_1_0 := by
  unfold W6 W5
  refine (StableHlo.unary_result' _ _ _ _).trans ?_
  exact congrArg (fun T => transpose S1024x100000 [1, 0] T Facts₀.transposes_S100000x1024_S1024x100000_1_0)
    (Function.update_self _ _ _)

/-! ## The result -/

/-- Whatever the two regions' write-backs may leave, the last valuation holds at the result buffer the rating of every
    item for every requested user. -/
theorem result_rating (d : Dev nD) (tab : Buf (Elt Ideal) (tLoc d)) (G : Buf (Elt Ideal) (sLoc d))
    (h1 : Rtab (F := Ideal) m d tab) (h2 : Rsc (F := Ideal) m d tab G) :
    W6 m d tab G (Proc.devRef .tc main_v7)
      = Cert.Spec.rating (m ((SparseCore.T d).loc main_arg0)) (m ((SparseCore.T d).loc main_arg1))
          (m ((SparseCore.T d).loc main_arg2)) (m ((SparseCore.T d).loc main_arg3)) := by
  have htab : tab = KSpec.au (m ((SparseCore.T d).loc main_arg1)) (m ((SparseCore.T d).loc main_arg3)) :=
    KArr.arrAt0_eq d (fun b => W1 m d b) 0 Set.univ _ _ (W1_v1 m d) (W1_v0 m d) tab h1
  have hrows : W4 (F := Ideal) m d tab (Proc.devRef .tc main_v3)
      = KSpec.ug (m ((SparseCore.T d).loc main_arg0)) (m ((SparseCore.T d).loc main_arg1)) (m ((SparseCore.T d).loc main_arg3)) := by
    rw [W4_v3, htab]; rfl
  have hG : G = KSpec.scoreT (m ((SparseCore.T d).loc main_arg0)) (m ((SparseCore.T d).loc main_arg1))
      (m ((SparseCore.T d).loc main_arg2)) (m ((SparseCore.T d).loc main_arg3)) :=
    KArr.arrAt1_eq d (fun b => W4 m d tab b) 0 Set.univ _ _ _ _ (W4_v4 m d tab) hrows (W4_v5 m d tab) G h2
  rw [W6_out, hG]
  exact KValue.out_eq _ _ _ _

end Cert.KernelIdeal.Value

end
-- ==== Proof.Alg.lean ====
/-
  The algebraic conjunct: from memories agreeing on the arguments, the idealized kernel and the idealized reference both
  end with the rating array of the arguments — the logistic function of the inner product of the requested user's and
  the item's latent vectors — as their result, the arguments unchanged.
-/
import proofs.«210177_g34866544509008_cont_8to1_b_1726_19_alg».proof.Proof.FrameI
import proofs.«210177_g34866544509008_cont_8to1_b_1726_19_alg».proof.Proof.ValueI
import proofs.«210177_g34866544509008_cont_8to1_b_1726_19_alg».proof.Proof.RefClaims

noncomputable section

namespace Cert.Proof.Alg

open Idealize.ShloMosaic Idealize.SL.Sem
open Cert.KernelIdeal Cert.KernelIdeal.Main Cert.KernelIdeal.Run Cert.KernelIdeal.Keep Cert.KernelIdeal.LaunchElem Cert.KernelIdeal.Tile

theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  have hu := Cert.Proof.FrameI.users_ok m hpre
  refine ⟨fun c => Cert.Spec.rating (m ((c.tc : Thread nD τ).loc main_arg0)) (m ((c.tc : Thread nD τ).loc main_arg1))
      (m ((c.tc : Thread nD τ).loc main_arg2)) (m ((c.tc : Thread nD τ).loc main_arg3)), ?_, ?_⟩
  · refine (θ_run (Cert.KernelIdeal.defs (F := Ideal)) _ _).mono (fun r h c => ?_) (run_main (F := Ideal) m ρ hu)
    obtain ⟨tab, G, h1, h2, hr⟩ := h c
    exact ⟨(hr _ v7_mem).trans (Cert.KernelIdeal.Value.result_rating m c tab G h1 h2),
      (hr _ arg0_mem).trans (W6_arg0 m c tab G), (hr _ arg1_mem).trans (W6_arg1 m c tab G),
      (hr _ arg2_mem).trans (W6_arg2 m c tab G), (hr _ arg3_mem).trans (W6_arg3 m c tab G)⟩
  · have hu' : ∀ (c : Dev Cert.ReferenceIdeal.nD) (b : Fin 1024),
        (m' ((c.tc : Thread Cert.ReferenceIdeal.nD Cert.ReferenceIdeal.τ).loc Cert.ReferenceIdeal.main_arg0) (ValueIdx.ix1 b)).toNat < 100000 :=
      fun c b => by rw [(hagree c).1]; exact hu c b
    refine (θ_run (Cert.ReferenceIdeal.defs (F := Ideal)) _ _).mono (fun r h c => ?_) (Cert.Proof.RefClaims.ref_rating m' ρ' hu')
    obtain ⟨h0, ha⟩ := h c
    refine ⟨h0.trans ?_, ha⟩
    rw [(hagree c).1, (hagree c).2.1, (hagree c).2.2.1, (hagree c).2.2.2]

end Cert.Proof.Alg

end
-- ==== Proof.lean ====
/-
  The certificate of a recommender's scoring kernel against its jnp reference.

  The kernel rates every item for 1024 requested users. A TensorCore kernel multiplies the (transposed) user table by the
  projection, padded from 64 to 128 columns, in blocks of 12800 users; thirty-two vector subcores of the two SparseCores
  each fetch 32 of the requested users' numbers, gather those rows of the resulting latent table and write them out; a
  second TensorCore kernel, in blocks of 5120 items, projects the (transposed) item table, contracts the item vectors with
  the first 64 columns of the gathered user rows and applies the logistic function; the result is transposed. The
  reference projects both tables, takes the requested users' rows, contracts and applies 1 / (1 + exp(−x)).

  On the extended reals both are, index by index, the logistic function of the inner product over the 64 latent
  coordinates of the requested user's and the item's latent vectors (`Cert.Spec.rating`): the kernel's sums and products
  are the reference's up to the order of the factors, and the logistic function is that quotient by definition.

  The frames: every weakly fair execution of the thirty-five threads terminates without a fault and leaves the arguments
  unchanged. The last block of each table window overhangs its array, so what a TensorCore kernel leaves in a result
  array is constrained, not named: it is some contents the write-backs may leave when the part of a staging buffer beyond
  the array holds anything. At the ideal instance those contents are determined (a row of the product depends on the
  matching column of the block only); at the word level the frames do not need them.
-/
import proofs.«210177_g34866544509008_cont_8to1_b_1726_19_alg».proof.Defs
import proofs.«210177_g34866544509008_cont_8to1_b_1726_19_alg».proof.Proof.Gen.Kernel
import proofs.«210177_g34866544509008_cont_8to1_b_1726_19_alg».proof.Proof.Gen.Kernel.Skeleton
import proofs.«210177_g34866544509008_cont_8to1_b_1726_19_alg».proof.Proof.Gen.Kernel.Launch
import proofs.«210177_g34866544509008_cont_8to1_b_1726_19_alg».proof.Proof.Gen.Kernel.Regions
import proofs.«210177_g34866544509008_cont_8to1_b_1726_19_alg».proof.Proof.Gen.Kernel.Points
import proofs.«210177_g34866544509008_cont_8to1_b_1726_19_alg».proof.Proof.Gen.KernelIdeal
import proofs.«210177_g34866544509008_cont_8to1_b_1726_19_alg».proof.Proof.Gen.KernelIdeal.Skeleton
import proofs.«210177_g34866544509008_cont_8to1_b_1726_19_alg».proof.Proof.Gen.KernelIdeal.Launch
import proofs.«210177_g34866544509008_cont_8to1_b_1726_19_alg».proof.Proof.Gen.KernelIdeal.Regions
import proofs.«210177_g34866544509008_cont_8to1_b_1726_19_alg».proof.Proof.Gen.KernelIdeal.Points
import proofs.«210177_g34866544509008_cont_8to1_b_1726_19_alg».proof.Proof.Gen.ReferenceIdeal
import proofs.«210177_g34866544509008_cont_8to1_b_1726_19_alg».proof.Proof.Gen.Pre_input_domain
import proofs.«210177_g34866544509008_cont_8to1_b_1726_19_alg».proof.Proof.FrameB
import proofs.«210177_g34866544509008_cont_8to1_b_1726_19_alg».proof.Proof.FrameI
import proofs.«210177_g34866544509008_cont_8to1_b_1726_19_alg».proof.Proof.RefClaims
import proofs.«210177_g34866544509008_cont_8to1_b_1726_19_alg».proof.Proof.Alg
import Idealize.ShloMosaic.Adequacy
import Idealize.ShloMosaic.Init

noncomputable section

namespace Cert.Proof

open Idealize.ShloMosaic Idealize.SL.Sem

/-- The five conjuncts: the three frames, the (empty) ledger of the ideal pass, and the equality of results at the ideal
    instance. -/
theorem claim : Cert.Claim := ⟨Cert.Kernel.Gen.facts, Cert.KernelIdeal.Gen.facts, Cert.ReferenceIdeal.Gen.facts, Cert.Pre_input_domain.Gen.facts,
  Cert.Proof.FrameB.frame, Cert.Proof.FrameI.frame, Cert.Proof.RefClaims.frame_ri, trivial, Cert.Proof.Alg.algebraic⟩

end Cert.Proof

end
